-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x128 : Shape := ⟨3, ![4, 512, 128]⟩
abbrev S4x512x512 : Shape := ⟨3, ![4, 512, 512]⟩
abbrev S2x128x256 : Shape := ⟨3, ![2, 128, 256]⟩
abbrev S2x128 : Shape := ⟨2, ![2, 128]⟩
abbrev S2x128x128 : Shape := ⟨3, ![2, 128, 128]⟩
abbrev S_ : Shape := ⟨0, ![]⟩

class Facts : Prop where
  bcast_S_S4x512x128 : S_.BroadcastsInDim S4x512x128 (![] : Fin 0 → Fin S4x512x128.rank)
  reducesTo_S4x512x128_S_d0_1_2 : S4x512x128.ReducesTo [0, 1, 2] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S2x128x256 : S_.BroadcastsInDim S2x128x256 (![] : Fin 0 → Fin S2x128x256.rank)
  reducesTo_S2x128x256_S_d0_1_2 : S2x128x256.ReducesTo [0, 1, 2] S_
  bcast_S_S2x128 : S_.BroadcastsInDim S2x128 (![] : Fin 0 → Fin S2x128.rank)
  reducesTo_S2x128_S_d0_1 : S2x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_

variable [Facts]

def fn_part1 {F : FTy → Type} [FloatOps F] (main_arg4 : FVec F S2x128x128 .f32) (main_arg5 : FVec F S2x128 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x128x128 .f32 := Host.absf main_arg4
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128 .f32 := Host.absf main_arg5
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  main_v28

def fn {F : FTy → Type} [FloatOps F] (main_arg0 : FVec F S4x512x128 .f32) (main_arg1 : FVec F S4x512x512 .f32) (main_arg2 : FVec F S2x128x256 .f32) (main_arg3 : FVec F S2x128 .f32) (main_arg4 : FVec F S2x128x128 .f32) (main_arg5 : FVec F S2x128 .f32) : IVec S_ 1 :=
  let main_v0 : FVec F S4x512x128 .f32 := Host.absf main_arg0
  let main_cst : FVec F S_ .f32 := constant S_ .f32 0x7F800000#32
  let main_v1 : FVec F S4x512x128 .f32 := broadcastInDim S4x512x128 ![] bcast_S_S4x512x128 main_cst
  let main_v2 : IVec S4x512x128 1 := cmpf .olt main_v0 main_v1
  let main_c : IVec S_ 1 := constantI S_ 1 1#1
  let main_v3 : IVec S_ 1 := (fun x v => Host.reduce IntOp.andi x v reducesTo_S4x512x128_S_d0_1_2 h_S_) main_v2 main_c
  let main_v4 : FVec F S4x512x512 .f32 := Host.absf main_arg1
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : IVec S_ 1 := andi main_v3 main_v7
  let main_v9 : FVec F S2x128x256 .f32 := Host.absf main_arg2
  let main_cst_2 : FVec F S_ .f32 := constant S_ .f32 0x7F800000#32
  let main_v10 : FVec F S2x128x256 .f32 := broadcastInDim S2x128x256 ![] bcast_S_S2x128x256 main_cst_2
  let main_v11 : IVec S2x128x256 1 := cmpf .olt main_v9 main_v10
  let main_c_3 : IVec S_ 1 := constantI S_ 1 1#1
  let main_v12 : IVec S_ 1 := (fun x v => Host.reduce IntOp.andi x v reducesTo_S2x128x256_S_d0_1_2 h_S_) main_v11 main_c_3
  let main_v13 : IVec S_ 1 := andi main_v8 main_v12
  let main_v14 : FVec F S2x128 .f32 := Host.absf main_arg3
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg4 main_arg5 main_v13 main_v16
-- ==== Kernel.lean ====
abbrev S4x512x128 : Shape := ⟨3, ![4, 512, 128]⟩
abbrev S4x512x512 : Shape := ⟨3, ![4, 512, 512]⟩
abbrev S2x128x256 : Shape := ⟨3, ![2, 128, 256]⟩
abbrev S2x128 : Shape := ⟨2, ![2, 128]⟩
abbrev S2x128x128 : Shape := ⟨3, ![2, 128, 128]⟩
abbrev S1x128x256 : Shape := ⟨3, ![1, 128, 256]⟩
abbrev S128x256 : Shape := ⟨2, ![128, 256]⟩
abbrev S128x128 : Shape := ⟨2, ![128, 128]⟩
abbrev S1x128x128 : Shape := ⟨3, ![1, 128, 128]⟩
abbrev S1x128 : Shape := ⟨2, ![1, 128]⟩
abbrev S128 : Shape := ⟨1, ![128]⟩
abbrev S1x64x128 : Shape := ⟨3, ![1, 64, 128]⟩
abbrev S64x128 : Shape := ⟨2, ![64, 128]⟩
abbrev S64x1x128 : Shape := ⟨3, ![64, 1, 128]⟩
abbrev S64x128x128 : Shape := ⟨3, ![64, 128, 128]⟩
abbrev S1x1x128 : Shape := ⟨3, ![1, 1, 128]⟩
abbrev S8192x128 : Shape := ⟨2, ![8192, 128]⟩
abbrev S64x128x1 : Shape := ⟨3, ![64, 128, 1]⟩

abbrev nBuf : Space → Nat
  | .hbm => 48
  | .vmem => 28
  | .smem => 0
  | _ => 0

abbrev bufTy : (tb : Table) → Fin (tcTables nBuf tb) → BufTy
  | .hbm, ⟨0, _⟩ => ⟨S4x512x128, .f32⟩
  | .hbm, ⟨1, _⟩ => ⟨S4x512x512, .f32⟩
  | .hbm, ⟨2, _⟩ => ⟨S2x128x256, .f32⟩
  | .hbm, ⟨3, _⟩ => ⟨S2x128, .f32⟩
  | .hbm, ⟨4, _⟩ => ⟨S2x128x128, .f32⟩
  | .hbm, ⟨5, _⟩ => ⟨S2x128, .f32⟩
  | .hbm, ⟨6, _⟩ => ⟨S1x128x256, .f32⟩
  | .hbm, ⟨7, _⟩ => ⟨S128x256, .f32⟩
  | .hbm, ⟨8, _⟩ => ⟨S128x128, .f32⟩
  | .hbm, ⟨9, _⟩ => ⟨S1x128x256, .f32⟩
  | .hbm, ⟨10, _⟩ => ⟨S128x256, .f32⟩
  | .hbm, ⟨11, _⟩ => ⟨S128x128, .f32⟩
  | .hbm, ⟨12, _⟩ => ⟨S128x128, .f32⟩
  | .hbm, ⟨13, _⟩ => ⟨S128x128, .bf16⟩
  | .hbm, ⟨14, _⟩ => ⟨S128x128, .f32⟩
  | .hbm, ⟨15, _⟩ => ⟨S128x128, .bf16⟩
  | .hbm, ⟨16, _⟩ => ⟨S1x128x128, .f32⟩
  | .hbm, ⟨17, _⟩ => ⟨S128x128, .f32⟩
  | .hbm, ⟨18, _⟩ => ⟨S128x128, .f32⟩
  | .hbm, ⟨19, _⟩ => ⟨S128x128, .bf16⟩
  | .hbm, ⟨20, _⟩ => ⟨S1x128, .f32⟩
  | .hbm, ⟨21, _⟩ => ⟨S128, .f32⟩
  | .hbm, ⟨22, _⟩ => ⟨S1x128, .f32⟩
  | .hbm, ⟨23, _⟩ => ⟨S1x128, .f32⟩
  | .hbm, ⟨24, _⟩ => ⟨S128, .f32⟩
  | .hbm, ⟨25, _⟩ => ⟨S1x128, .f32⟩
  | .hbm, ⟨26, _⟩ => ⟨S4x512x128, .f32⟩
  | .hbm, ⟨27, _⟩ => ⟨S1x128x256, .f32⟩
  | .hbm, ⟨28, _⟩ => ⟨S128x256, .f32⟩
  | .hbm, ⟨29, _⟩ => ⟨S128x128, .f32⟩
  | .hbm, ⟨30, _⟩ => ⟨S1x128x256, .f32⟩
  | .hbm, ⟨31, _⟩ => ⟨S128x256, .f32⟩
  | .hbm, ⟨32, _⟩ => ⟨S128x128, .f32⟩
  | .hbm, ⟨33, _⟩ => ⟨S128x128, .f32⟩
  | .hbm, ⟨34, _⟩ => ⟨S128x128, .bf16⟩
  | .hbm, ⟨35, _⟩ => ⟨S128x128, .f32⟩
  | .hbm, ⟨36, _⟩ => ⟨S128x128, .bf16⟩
  | .hbm, ⟨37, _⟩ => ⟨S1x128x128, .f32⟩
  | .hbm, ⟨38, _⟩ => ⟨S128x128, .f32⟩
  | .hbm, ⟨39, _⟩ => ⟨S128x128, .f32⟩
  | .hbm, ⟨40, _⟩ => ⟨S128x128, .bf16⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S1x128, .f32⟩
  | .hbm, ⟨45, _⟩ => ⟨S128, .f32⟩
  | .hbm, ⟨46, _⟩ => ⟨S1x128, .f32⟩
  | .hbm, ⟨47, _⟩ => ⟨S4x512x128, .f32⟩
  | .local _ .vmem, ⟨0, _⟩ => ⟨S1x64x128, .f32⟩
  | .local _ .vmem, ⟨1, _⟩ => ⟨S1x64x128, .f32⟩
  | .local _ .vmem, ⟨2, _⟩ => ⟨S1x128x128, .f32⟩
  | .local _ .vmem, ⟨3, _⟩ => ⟨S1x128x128, .f32⟩
  | .local _ .vmem, ⟨4, _⟩ => ⟨S1x64x128, .f32⟩
  | .local _ .vmem, ⟨5, _⟩ => ⟨S1x64x128, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S128x128, .bf16⟩
  | .local _ .vmem, ⟨10, _⟩ => ⟨S1x128, .f32⟩
  | .local _ .vmem, ⟨11, _⟩ => ⟨S1x64x128, .f32⟩
  | .local _ .vmem, ⟨12, _⟩ => ⟨S1x64x128, .f32⟩
  | .local _ .vmem, ⟨13, _⟩ => ⟨S64x128, .f32⟩
  | .local _ .vmem, ⟨14, _⟩ => ⟨S1x64x128, .f32⟩
  | .local _ .vmem, ⟨15, _⟩ => ⟨S1x64x128, .f32⟩
  | .local _ .vmem, ⟨16, _⟩ => ⟨S1x128x128, .f32⟩
  | .local _ .vmem, ⟨17, _⟩ => ⟨S1x128x128, .f32⟩
  | .local _ .vmem, ⟨18, _⟩ => ⟨S1x64x128, .f32⟩
  | .local _ .vmem, ⟨19, _⟩ => ⟨S1x64x128, .f32⟩
  | .local _ .vmem, ⟨20, _⟩ => ⟨S128x128, .bf16⟩
  | .local _ .vmem, ⟨21, _⟩ => ⟨S128x128, .bf16⟩
  | .local _ .vmem, ⟨22, _⟩ => ⟨S1x128, .f32⟩
  | .local _ .vmem, ⟨23, _⟩ => ⟨S128x128, .bf16⟩
  | .local _ .vmem, ⟨24, _⟩ => ⟨S1x128, .f32⟩
  | .local _ .vmem, ⟨25, _⟩ => ⟨S1x64x128, .f32⟩
  | .local _ .vmem, ⟨26, _⟩ => ⟨S1x64x128, .f32⟩
  | .local _ .vmem, ⟨27, _⟩ => ⟨S64x128, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg8_1 : Ref sig .tc := ⟨.vmem, 26, rfl⟩
abbrev cc1_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v49 : BitVec 1 := Scalar.cmpi .eq arg2 c3_i32
  let v50 : BitVec 32 := Scalar.extui v49
  let c0_i32_27 : BitVec 32 := 0#32
  let v51 : BitVec 1 := Scalar.cmpi .ne v50 c0_i32_27
  v51

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev grid1 : Pipeline.Grid := ⟨3, ![4, 8, 4], ![false, false, false]⟩

def k1_cond2 (i : grid1.Coords) : BitVec 1 :=
  let arg2 : BitVec 32 := BitVec.ofNat 32 (i 2).val
  let c3_i32 : BitVec 32 := 3#32
  let v49 : BitVec 1 := Scalar.cmpi .eq arg2 c3_i32
  let v50 : BitVec 32 := Scalar.extui v49
  let c0_i32_27 : BitVec 32 := 0#32
  let v51 : BitVec 1 := Scalar.cmpi .ne v50 c0_i32_27
  v51

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false, false]

abbrev stage1_8 : Fin 2 → Memref sig .tc .vmem S1x64x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]

class Facts₀ : Prop where
  slices_S2x128x256_S1x128x256_0_0_0 : S2x128x256.Slices ![0, 0, 0] S1x128x256
  shapeCasts_S1x128x256_S128x256 : S1x128x256.ShapeCasts S128x256
  slices_S128x256_S128x128_0_0 : S128x256.Slices ![0, 0] S128x128
  slices_S128x256_S128x128_0_128 : S128x256.Slices ![0, 128] S128x128
  transposes_S128x128_S128x128_1_0 : S128x128.Transposes [1, 0] S128x128
  bitsLt_bf16_f32 : FTy.bits .bf16 < FTy.bits .f32
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128_S1x128 : S128.ShapeCasts S1x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S1x128x128_S1x128x128_0_0_0 : ∀ a, (![0, 0, 0] : Fin 3 → Nat) a + S1x128x128.size a ≤ S1x128x128.size a
  h_S1x128x128 : 0 < S1x128x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S64x128_S64x1x128 : S64x128.ShapeCasts S64x1x128
  shapeCasts_S128x128_S1x128x128 : S128x128.ShapeCasts S1x128x128
  broadcasts_S64x1x128_S64x128x128 : S64x1x128.Broadcasts S64x128x128
  broadcasts_S1x128x128_S64x128x128 : S1x128x128.Broadcasts S64x128x128
  shapeCasts_S128_S1x1x128 : S128.ShapeCasts S1x1x128
  broadcasts_S1x1x128_S64x128x128 : S1x1x128.Broadcasts S64x128x128
  shapeCasts_S64x128x128_S8192x128 : S64x128x128.ShapeCasts S8192x128
  shapeCasts_S8192x128_S64x128x128 : S8192x128.ShapeCasts S64x128x128
  shapeCasts_S64x128_S64x128x1 : S64x128.ShapeCasts S64x128x1
  broadcasts_S64x128x1_S64x128x128 : S64x128x1.Broadcasts S64x128x128
  reduces_S64x128x128_S64x128 : S64x128x128.Reduces [1] S64x128
  shapeCasts_S64x128_S1x64x128 : S64x128.ShapeCasts S1x64x128
  slices_S2x128x256_S1x128x256_1_0_0 : S2x128x256.Slices ![1, 0, 0] S1x128x256
  slices_S2x128x128_S1x128x128_1_0_0 : S2x128x128.Slices ![1, 0, 0] S1x128x128
  slices_S2x128_S1x128_1_0 : S2x128.Slices ![1, 0] S1x128
  dot_S64x128_S128x128_S64x128_1_0_0_1_n_n_wf : DotDims.WF S64x128 S128x128 S64x128 [1] [0] [0] [1] [] []
  dot_S128x128_S128x128_S128x128_1_0_0_1_n_n_wf : DotDims.WF S128x128 S128x128 S128x128 [1] [0] [0] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S4x512x128.size a
  hwx0_0 : ∀ i : grid0.Coords, EltTy.bits .f32 = 32 ∨ (Rect.block (s := S4x512x128) S1x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S4x512x128.size a
  hwx0_1 : ∀ i : grid0.Coords, EltTy.bits .f32 = 32 ∨ (Rect.block (s := S4x512x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S4x512x512.size a
  hwx0_2 : ∀ i : grid0.Coords, EltTy.bits .f32 = 32 ∨ (Rect.block (s := S4x512x512) S1x64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x128.size a ≤ S4x512x128.size a
  hwx0_8 : ∀ i : grid0.Coords, EltTy.bits .f32 = 32 ∨ (Rect.block (s := S4x512x128) S1x64x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x128.size a ≤ S4x512x128.size a
  hwx1_0 : ∀ i : grid1.Coords, EltTy.bits .f32 = 32 ∨ (Rect.block (s := S4x512x128) S1x64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S4x512x128.size a
  hwx1_1 : ∀ i : grid1.Coords, EltTy.bits .f32 = 32 ∨ (Rect.block (s := S4x512x128) S1x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x128.size a ≤ S4x512x512.size a
  hwx1_2 : ∀ i : grid1.Coords, EltTy.bits .f32 = 32 ∨ (Rect.block (s := S4x512x512) S1x64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x64x128.size a ≤ S4x512x128.size a
  hwx1_8 : ∀ i : grid1.Coords, EltTy.bits .f32 = 32 ∨ (Rect.block (s := S4x512x128) S1x64x128.size (cc1_transform_8 i) (hinb1_8 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x64x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v20) S1x64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1x64x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v40) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v41) S1x64x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S4x512x128 : Shape := ⟨3, ![4, 512, 128]⟩
abbrev S4x512x512 : Shape := ⟨3, ![4, 512, 512]⟩
abbrev S2x128x256 : Shape := ⟨3, ![2, 128, 256]⟩
abbrev S2x128 : Shape := ⟨2, ![2, 128]⟩
abbrev S2x128x128 : Shape := ⟨3, ![2, 128, 128]⟩
abbrev S1x128x256 : Shape := ⟨3, ![1, 128, 256]⟩
abbrev S128x256 : Shape := ⟨2, ![128, 256]⟩
abbrev S128x128 : Shape := ⟨2, ![128, 128]⟩
abbrev S4x512x1x128 : Shape := ⟨4, ![4, 512, 1, 128]⟩
abbrev S4x1x512x128 : Shape := ⟨4, ![4, 1, 512, 128]⟩
abbrev S4x512x512x128 : Shape := ⟨4, ![4, 512, 512, 128]⟩
abbrev S1x128 : Shape := ⟨2, ![1, 128]⟩
abbrev S128 : Shape := ⟨1, ![128]⟩
abbrev S1x1x1x128 : Shape := ⟨4, ![1, 1, 1, 128]⟩
abbrev S_ : Shape := ⟨0, ![]⟩
abbrev S1x128x128 : Shape := ⟨3, ![1, 128, 128]⟩
abbrev S4x512x512x1 : Shape := ⟨4, ![4, 512, 512, 1]⟩

abbrev nBuf : Space → Nat
  | .hbm => 76
  | .vmem => 0
  | .smem => 0
  | _ => 0

abbrev bufTy : (tb : Table) → Fin (tcTables nBuf tb) → BufTy
  | .hbm, ⟨0, _⟩ => ⟨S4x512x128, .f32⟩
  | .hbm, ⟨1, _⟩ => ⟨S4x512x512, .f32⟩
  | .hbm, ⟨2, _⟩ => ⟨S2x128x256, .f32⟩
  | .hbm, ⟨3, _⟩ => ⟨S2x128, .f32⟩
  | .hbm, ⟨4, _⟩ => ⟨S2x128x128, .f32⟩
  | .hbm, ⟨5, _⟩ => ⟨S2x128, .f32⟩
  | .hbm, ⟨6, _⟩ => ⟨S1x128x256, .f32⟩
  | .hbm, ⟨7, _⟩ => ⟨S128x256, .f32⟩
  | .hbm, ⟨8, _⟩ => ⟨S128x128, .f32⟩
  | .hbm, ⟨9, _⟩ => ⟨S1x128x256, .f32⟩
  | .hbm, ⟨10, _⟩ => ⟨S128x256, .f32⟩
  | .hbm, ⟨11, _⟩ => ⟨S128x128, .f32⟩
  | .hbm, ⟨12, _⟩ => ⟨S4x512x128, .f32⟩
  | .hbm, ⟨13, _⟩ => ⟨S4x512x128, .f32⟩
  | .hbm, ⟨14, _⟩ => ⟨S4x512x1x128, .f32⟩
  | .hbm, ⟨15, _⟩ => ⟨S4x1x512x128, .f32⟩
  | .hbm, ⟨16, _⟩ => ⟨S4x512x512x128, .f32⟩
  | .hbm, ⟨17, _⟩ => ⟨S4x512x512x128, .f32⟩
  | .hbm, ⟨18, _⟩ => ⟨S4x512x512x128, .f32⟩
  | .hbm, ⟨19, _⟩ => ⟨S1x128, .f32⟩
  | .hbm, ⟨20, _⟩ => ⟨S128, .f32⟩
  | .hbm, ⟨21, _⟩ => ⟨S1x1x1x128, .f32⟩
  | .hbm, ⟨22, _⟩ => ⟨S4x512x512x128, .f32⟩
  | .hbm, ⟨23, _⟩ => ⟨S4x512x512x128, .f32⟩
  | .hbm, ⟨24, _⟩ => ⟨S_, .f32⟩
  | .hbm, ⟨25, _⟩ => ⟨S4x512x512x128, .f32⟩
  | .hbm, ⟨26, _⟩ => ⟨S4x512x512x128, .f32⟩
  | .hbm, ⟨27, _⟩ => ⟨S1x128x128, .f32⟩
  | .hbm, ⟨28, _⟩ => ⟨S128x128, .f32⟩
  | .hbm, ⟨29, _⟩ => ⟨S4x512x512x128, .f32⟩
  | .hbm, ⟨30, _⟩ => ⟨S1x128, .f32⟩
  | .hbm, ⟨31, _⟩ => ⟨S128, .f32⟩
  | .hbm, ⟨32, _⟩ => ⟨S1x1x1x128, .f32⟩
  | .hbm, ⟨33, _⟩ => ⟨S4x512x512x128, .f32⟩
  | .hbm, ⟨34, _⟩ => ⟨S4x512x512x128, .f32⟩
  | .hbm, ⟨35, _⟩ => ⟨S4x512x512x1, .f32⟩
  | .hbm, ⟨36, _⟩ => ⟨S4x512x512x128, .f32⟩
  | .hbm, ⟨37, _⟩ => ⟨S4x512x512x128, .f32⟩
  | .hbm, ⟨38, _⟩ => ⟨S_, .f32⟩
  | .hbm, ⟨39, _⟩ => ⟨S4x512x128, .f32⟩
  | .hbm, ⟨40, _⟩ => ⟨S4x512x128, .f32⟩
  | .hbm, ⟨41, _⟩ => ⟨S1x128x256, .f32⟩
  | .hbm, ⟨42, _⟩ => ⟨S128x256, .f32⟩
  | .hbm, ⟨43, _⟩ => ⟨S128x128, .f32⟩
  | .hbm, ⟨44, _⟩ => ⟨S1x128x256, .f32⟩
  | .hbm, ⟨45, _⟩ => ⟨S128x256, .f32⟩
  | .hbm, ⟨46, _⟩ => ⟨S128x128, .f32⟩
  | .hbm, ⟨47, _⟩ => ⟨S4x512x128, .f32⟩
  | .hbm, ⟨48, _⟩ => ⟨S4x512x128, .f32⟩
  | .hbm, ⟨49, _⟩ => ⟨S4x512x1x128, .f32⟩
  | .hbm, ⟨50, _⟩ => ⟨S4x1x512x128, .f32⟩
  | .hbm, ⟨51, _⟩ => ⟨S4x512x512x128, .f32⟩
  | .hbm, ⟨52, _⟩ => ⟨S4x512x512x128, .f32⟩
  | .hbm, ⟨53, _⟩ => ⟨S4x512x512x128, .f32⟩
  | .hbm, ⟨54, _⟩ => ⟨S1x128, .f32⟩
  | .hbm, ⟨55, _⟩ => ⟨S128, .f32⟩
  | .hbm, ⟨56, _⟩ => ⟨S1x1x1x128, .f32⟩
  | .hbm, ⟨57, _⟩ => ⟨S4x512x512x128, .f32⟩
  | .hbm, ⟨58, _⟩ => ⟨S4x512x512x128, .f32⟩
  | .hbm, ⟨59, _⟩ => ⟨S_, .f32⟩
  | .hbm, ⟨60, _⟩ => ⟨S4x512x512x128, .f32⟩
  | .hbm, ⟨61, _⟩ => ⟨S4x512x512x128, .f32⟩
  | .hbm, ⟨62, _⟩ => ⟨S1x128x128, .f32⟩
  | .hbm, ⟨63, _⟩ => ⟨S128x128, .f32⟩
  | .hbm, ⟨64, _⟩ => ⟨S4x512x512x128, .f32⟩
  | .hbm, ⟨65, _⟩ => ⟨S1x128, .f32⟩
  | .hbm, ⟨66, _⟩ => ⟨S128, .f32⟩
  | .hbm, ⟨67, _⟩ => ⟨S1x1x1x128, .f32⟩
  | .hbm, ⟨68, _⟩ => ⟨S4x512x512x128, .f32⟩
  | .hbm, ⟨69, _⟩ => ⟨S4x512x512x128, .f32⟩
  | .hbm, ⟨70, _⟩ => ⟨S4x512x512x1, .f32⟩
  | .hbm, ⟨71, _⟩ => ⟨S4x512x512x128, .f32⟩
  | .hbm, ⟨72, _⟩ => ⟨S4x512x512x128, .f32⟩
  | .hbm, ⟨73, _⟩ => ⟨S_, .f32⟩
  | .hbm, ⟨74, _⟩ => ⟨S4x512x128, .f32⟩
  | .hbm, ⟨75, _⟩ => ⟨S4x512x128, .f32⟩
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_cst : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_call1_cst : Ref sig .tc := ⟨.hbm, 59, rfl⟩
abbrev main_call1_v0 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_0 : Ref sig .tc := ⟨.hbm, 73, rfl⟩
abbrev main_v62 : Ref sig .tc := ⟨.hbm, 74, rfl⟩
abbrev main_v63 : Ref sig .tc := ⟨.hbm, 75, rfl⟩

abbrev nD : Nat := 1
abbrev τ : Topo := Topo.v7x

variable {F : FTy → Type} [FloatOps F]

class Facts₀ : Prop where
  slices_S2x128x256_S1x128x256_0_0_0 : S2x128x256.Slices ![0, 0, 0] S1x128x256
  shapeCasts_S1x128x256_S128x256 : S1x128x256.ShapeCasts S128x256
  slices_S128x256_S128x128_0_0 : S128x256.Slices ![0, 0] S128x128
  slices_S128x256_S128x128_0_128 : S128x256.Slices ![0, 128] S128x128
  bcast_S4x512x128_S4x512x1x128_0_1_3 : S4x512x128.BroadcastsInDim S4x512x1x128 (![0, 1, 3] : Fin 3 → Fin S4x512x1x128.rank)
  bcast_S4x512x128_S4x1x512x128_0_2_3 : S4x512x128.BroadcastsInDim S4x1x512x128 (![0, 2, 3] : Fin 3 → Fin S4x1x512x128.rank)
  bcast_S4x512x1x128_S4x512x512x128_0_1_2_3 : S4x512x1x128.BroadcastsInDim S4x512x512x128 (![0, 1, 2, 3] : Fin 4 → Fin S4x512x512x128.rank)
  bcast_S4x1x512x128_S4x512x512x128_0_1_2_3 : S4x1x512x128.BroadcastsInDim S4x512x512x128 (![0, 1, 2, 3] : Fin 4 → Fin S4x512x512x128.rank)
  slices_S2x128_S1x128_0_0 : S2x128.Slices ![0, 0] S1x128
  shapeCasts_S1x128_S128 : S1x128.ShapeCasts S128
  bcast_S128_S1x1x1x128_3 : S128.BroadcastsInDim S1x1x1x128 (![3] : Fin 1 → Fin S1x1x1x128.rank)
  bcast_S1x1x1x128_S4x512x512x128_0_1_2_3 : S1x1x1x128.BroadcastsInDim S4x512x512x128 (![0, 1, 2, 3] : Fin 4 → Fin S4x512x512x128.rank)
  bcast_S_S4x512x512x128 : S_.BroadcastsInDim S4x512x512x128 (![] : Fin 0 → Fin S4x512x512x128.rank)
  slices_S2x128x128_S1x128x128_0_0_0 : S2x128x128.Slices ![0, 0, 0] S1x128x128
  shapeCasts_S1x128x128_S128x128 : S1x128x128.ShapeCasts S128x128
  bcast_S4x512x512_S4x512x512x1_0_1_2 : S4x512x512.BroadcastsInDim S4x512x512x1 (![0, 1, 2] : Fin 3 → Fin S4x512x512x1.rank)
  bcast_S4x512x512x1_S4x512x512x128_0_1_2_3 : S4x512x512x1.BroadcastsInDim S4x512x512x128 (![0, 1, 2, 3] : Fin 4 → Fin S4x512x512x128.rank)
  reducesTo_S4x512x512x128_S4x512x128_d2 : S4x512x512x128.ReducesTo [2] S4x512x128
  h_S_ : 0 < S_.numel
  slices_S2x128x256_S1x128x256_1_0_0 : S2x128x256.Slices ![1, 0, 0] S1x128x256
  slices_S2x128_S1x128_1_0 : S2x128.Slices ![1, 0] S1x128
  slices_S2x128x128_S1x128x128_1_0_0 : S2x128x128.Slices ![1, 0, 0] S1x128x128
  dot_S4x512x128_S128x128_S4x512x128_2_1_01_0_n_n_wf : DotDims.WF S4x512x128 S128x128 S4x512x128 [2] [1] [0, 1] [0] [] []
  dot_S4x512x512x128_S128x128_S4x512x512x128_3_1_012_0_n_n_wf : DotDims.WF S4x512x512x128 S128x128 S4x512x512x128 [3] [1] [0, 1, 2] [0] [] []

variable [Facts₀]

def dot_S4x512x128_S128x128_S4x512x128_2_1_01_0_n_n : DotDims S4x512x128 S128x128 S4x512x128 where
  lhsContracting := [2]
  rhsContracting := [1]
  lhsNonContracting := [0, 1]
  rhsNonContracting := [0]
  lhsBatch := []
  rhsBatch := []
  wf := dot_S4x512x128_S128x128_S4x512x128_2_1_01_0_n_n_wf
def dot_S4x512x512x128_S128x128_S4x512x512x128_3_1_012_0_n_n : DotDims S4x512x512x128 S128x128 S4x512x512x128 where
  lhsContracting := [3]
  rhsContracting := [1]
  lhsNonContracting := [0, 1, 2]
  rhsNonContracting := [0]
  lhsBatch := []
  rhsBatch := []
  wf := dot_S4x512x512x128_S128x128_S4x512x512x128_3_1_012_0_n_n_wf

class Facts : Prop extends Facts₀ where

variable [Facts]
-- ==== Proof.KB.Conds0.lean ====
import proofs.«117494_j19645180411919_1_alg».proof.Proof.Gen.Kernel.Launch
import proofs.«117494_j19645180411919_1_alg».proof.Proof.Gen.Kernel.Skeleton
import proofs.«117494_j19645180411919_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the layer kernel's body, as propositions over a grid point

The body resets its running sum when the third grid coordinate (the tile of neighbours) is 0, and writes the
node block out when it is 3, the last tile. -/

/-- The reset condition: the neighbour-tile coordinate is 0. -/
abbrev cond0_0 (i : grid0.Coords) : Prop := (Scalar.cmpi .ne (Scalar.extui (Scalar.cmpi .eq (BitVec.ofNat 32 (i 2).val) 0#32)) 0#32) = 1#1
/-- The write-out condition: the neighbour-tile coordinate is 3. -/
abbrev cond0_1 (i : grid0.Coords) : Prop := k0_cond2 i = 1#1

end Cert.Kernel.Hand

end
-- ==== Proof.KB.Run0A.lean ====
import proofs.«117494_j19645180411919_1_alg».proof.Proof.KB.Conds0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first tile of a node block: the scratch, whatever it held, is set to zero and then to zero plus this tile's
    masked messages; nothing is stored into the output block. -/
noncomputable def kernelRun0_A (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : cond0_0 i) (hc1 : ¬cond0_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) :
    Σ' (L8 : List (View.Piece (Elt F) S1x64x128 .f32)), { LS0 : List (View.Piece (Elt F) S64x128 .f32) //
      ∀ (xi8 : Vec F S1x64x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ f, arg12.view.loc (c : Thread nD τ) ↦[arg12.view.set]{fullShare} arg12.view.writes (Elt F) f LS0)) -∗ K ⟨⟩))
          ⊢ wp frame (wpE (defs₀ (F := F)) Variants.none c none) E (cc0__gnn_layer_kernel i arg3 harg3 arg4 harg4 arg5 harg5 arg6 harg6 arg7 harg7 arg8 harg8 arg9 harg9 arg10 harg10 arg11 harg11 arg12 harg12) K } := by
  refine ⟨[], ?_, fun xi8 E K => ?run⟩
  case run =>
    simp only [cc0__gnn_layer_kernel_eq_skeleton]; unfold cc0__gnn_layer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    iexists _; iexact HS0

end Cert.Kernel.Hand

end
-- ==== Proof.KB.Run0B.lean ====
import proofs.«117494_j19645180411919_1_alg».proof.Proof.KB.Conds0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle tile (neither first nor last): the running sum found in the scratch is replaced by itself plus this
    tile's masked messages; nothing is stored into the output block. -/
noncomputable def kernelRun0_B (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond0_0 i) (hc1 : ¬cond0_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) :
    Σ' (L8 : List (View.Piece (Elt F) S1x64x128 .f32)), { LS0 : List (View.Piece (Elt F) S64x128 .f32) //
      ∀ (xi8 : Vec F S1x64x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ f, arg12.view.loc (c : Thread nD τ) ↦[arg12.view.set]{fullShare} arg12.view.writes (Elt F) f LS0)) -∗ K ⟨⟩))
          ⊢ wp frame (wpE (defs₀ (F := F)) Variants.none c none) E (cc0__gnn_layer_kernel i arg3 harg3 arg4 harg4 arg5 harg5 arg6 harg6 arg7 harg7 arg8 harg8 arg9 harg9 arg10 harg10 arg11 harg11 arg12 harg12) K } := by
  refine ⟨[], ?_, fun xi8 E K => ?run⟩
  case run =>
    simp only [cc0__gnn_layer_kernel_eq_skeleton]; unfold cc0__gnn_layer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    iexists _; iexact HS0

end Cert.Kernel.Hand

end
-- ==== Proof.KB.Run0C.lean ====
import proofs.«117494_j19645180411919_1_alg».proof.Proof.KB.Conds0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last tile of a node block: the running sum is replaced by itself plus this tile's masked messages, and the
    output block is stored whole as the node features plus that final sum. -/
noncomputable def kernelRun0_C (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond0_0 i) (hc1 : cond0_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) :
    Σ' (L8 : List (View.Piece (Elt F) S1x64x128 .f32)), { LS0 : List (View.Piece (Elt F) S64x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0)) -∗ K ⟨⟩))
          ⊢ wp frame (wpE (defs₀ (F := F)) Variants.none c none) E (cc0__gnn_layer_kernel i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__gnn_layer_kernel_eq_skeleton]; unfold cc0__gnn_layer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexists _; iexact HS0

end Cert.Kernel.Hand

end
-- ==== Proof.KB.Frame0.lean ====
import proofs.«117494_j19645180411919_1_alg».proof.Proof.KB.Run0A
import proofs.«117494_j19645180411919_1_alg».proof.Proof.KB.Run0B
import proofs.«117494_j19645180411919_1_alg».proof.Proof.KB.Run0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body finds -/

/-- Window w's block at grid point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: when no fetch happens the
    block index has not moved since the last one. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not: when no fetch happens the
    block index has not moved since the last one. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not: when no fetch happens the
    block index has not moved since the last one. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not: when no fetch happens the
    block index has not moved since the last one. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not: when no fetch happens the
    block index has not moved since the last one. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not: when no fetch happens the
    block index has not moved since the last one. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or not: when no fetch happens the
    block index has not moved since the last one. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's staging buffer holds its block at every point, fetched there or not: when no fetch happens the
    block index has not moved since the last one. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions over the grid, and where the output window is idle

The grid is (batch, node tile, neighbour tile) = (4, 8, 4) in row-major order, so the neighbour tile of point t is
t mod 4. -/

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Unless the neighbour tile is the last, the body stores nothing into the output block and the block is not written back. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

/-! ## The memrefs the body is called with -/

abbrev VO0_8 : View sig .tc .vmem S1x64x128 .f32 := (Memref.whole cc0_stg8_0 : Memref sig .tc .vmem S1x64x128 .f32).view
abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)
abbrev ms0_7 (t : Fin cfg0.N) := win0_7.stage (cfg0.slots t 7)
abbrev hs0_7 (t : Fin cfg0.N) : (ms0_7 t).IsWhole := hstage0_7 ((cfg0.slots t 7).cast nbuf0_7)
abbrev ms0_8 (t : Fin cfg0.N) := win0_8.stage (cfg0.slots t 8)
abbrev hs0_8 (t : Fin cfg0.N) : (ms0_8 t).IsWhole := hstage0_8 ((cfg0.slots t 8).cast nbuf0_8)
/-- The running sum's scratch buffer. -/
abbrev scM0_0 : Memref sig .tc .vmem S64x128 .f32 := Memref.whole cc0_scratch0
abbrev VS0_0 : View sig .tc .vmem S64x128 .f32 := scM0_0.view

/-- What the call's invariant holds besides the staging buffers: every other scoped buffer of the core at some
    contents (the running sum's scratch among them) and the generator register at some state. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, owns_whole]; try rfl

/-! ## What each case leaves, read back from the run's stores -/

theorem scover0_A_0 (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : cond0_0 i) (hc1 : ¬cond0_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (y : S64x128.Idx) :
    ∃ pc ∈ (kernelRun0_A c i arg3 harg3 arg4 harg4 arg5 harg5 arg6 harg6 arg7 harg7 arg8 harg8 arg9 harg9 arg10 harg10 arg11 harg11 arg12 harg12 hc0 hc1 x0 x1 x2 x3 x4 x5 x6 x7).2.1, y ∈ pc.1.set :=
  View.cover_of_tiledL (kernelRun0_A c i arg3 harg3 arg4 harg4 arg5 harg5 arg6 harg6 arg7 harg7 arg8 harg8 arg9 harg9 arg10 harg10 arg11 harg11 arg12 harg12 hc0 hc1 x0 x1 x2 x3 x4 x5 x6 x7).2.1 S64x128.size (by sl_kernel_rfl) y
theorem scover0_B_0 (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond0_0 i) (hc1 : ¬cond0_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) (y : S64x128.Idx) :
    ∃ pc ∈ (kernelRun0_B c i arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL (kernelRun0_B c i arg3 harg3 arg4 harg4 arg5 harg5 arg6 harg6 arg7 harg7 arg8 harg8 arg9 harg9 arg10 harg10 arg11 harg11 arg12 harg12 hc0 hc1 x0 x1 x2 x3 x4 x5 x6 x7 xs0).2.1 S64x128.size (by sl_kernel_rfl) y
theorem scover0_C_0 (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond0_0 i) (hc1 : cond0_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) (y : S64x128.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 x4 x5 x6 x7 xs0).2.1 S64x128.size (by sl_kernel_rfl) y
theorem cover0_C_8 (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond0_0 i) (hc1 : cond0_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) (y : S1x64x128.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 x4 x5 x6 x7 xs0).1 S1x64x128.size (by sl_kernel_rfl) y

/-- The running sum after a first tile. -/
def sout0_A (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : cond0_0 i) (hc1 : ¬cond0_1 i) (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) : Vec F S64x128 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 hc0 hc1 x0 x1 x2 x3 x4 x5 x6 x7).2.1)
/-- The running sum after a middle tile, from the sum before it. -/
def sout0_B (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond0_0 i) (hc1 : ¬cond0_1 i) (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) : Vec F S64x128 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 hc0 hc1 x0 x1 x2 x3 x4 x5 x6 x7 xs0).2.1)
/-- The running sum after the last tile, from the sum before it. -/
def sout0_C (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond0_0 i) (hc1 : cond0_1 i) (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) : Vec F S64x128 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 hc0 hc1 x0 x1 x2 x3 x4 x5 x6 x7 xs0).2.1)
/-- The output block stored at the last tile. -/
def out0_C (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond0_0 i) (hc1 : cond0_1 i) (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) : Vec F S1x64x128 .f32 :=
  VO0_8.read (Elt F) (VO0_8.writes (Elt F) VO0_8.junk (kernelRun0_C c i arg3 harg3 arg4 harg4 arg5 harg5 arg6 harg6 arg7 harg7 arg8 harg8 arg9 harg9 arg10 harg10 arg11 harg11 arg12 harg12 hc0 hc1 x0 x1 x2 x3 x4 x5 x6 x7 xs0).1)

/-! ## The accumulation over the grid points -/

/-- What the output's staging buffer and the running-sum scratch hold after the body at point n: by the neighbour tile
    n mod 4, a first tile starts the sum afresh, a later one continues from what the point before left. Where the
    output block is not stored (every tile but the last) its component is a placeholder nothing consults. -/
def outsAt0 (c : Dev nD) : (n : ℕ) → n < cfg0.N → Vec F S1x64x128 .f32 × Vec F S64x128 .f32
  | 0, hn => (VO0_8.read (Elt F) VO0_8.junk, (fun (t : Fin cfg0.N) (h0 : t.val % 4 = 0) (h1 : ¬t.val % 4 = 3) => sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)) ⟨0, hn⟩ (Nat.zero_mod _) (show ¬(0 % 4 = 3) from by decide))
  | n + 1, hn =>
    if h0 : (n + 1) % 4 = 0 then
      (VO0_8.read (Elt F) VO0_8.junk, (fun (t : Fin cfg0.N) (h0 : t.val % 4 = 0) (h1 : ¬t.val % 4 = 3) => sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)) ⟨n + 1, hn⟩ h0 (show ¬((n + 1) % 4 = 3) from by omega))
    else if h1 : (n + 1) % 4 = 3 then
      ((fun (t : Fin cfg0.N) (h0 : ¬t.val % 4 = 0) (h1 : t.val % 4 = 3) (xs : Vec F S64x128 .f32) => out0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) xs) ⟨n + 1, hn⟩ h0 h1 (outsAt0 c n (Nat.lt_of_succ_lt hn)).2,
       (fun (t : Fin cfg0.N) (h0 : ¬t.val % 4 = 0) (h1 : t.val % 4 = 3) (xs : Vec F S64x128 .f32) => sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) xs) ⟨n + 1, hn⟩ h0 h1 (outsAt0 c n (Nat.lt_of_succ_lt hn)).2)
    else
      (VO0_8.read (Elt F) VO0_8.junk, (fun (t : Fin cfg0.N) (h0 : ¬t.val % 4 = 0) (h1 : ¬t.val % 4 = 3) (xs : Vec F S64x128 .f32) => sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) xs) ⟨n + 1, hn⟩ h0 h1 (outsAt0 c n (Nat.lt_of_succ_lt hn)).2)

theorem outsAt0_A (c : Dev nD) (t : Fin cfg0.N) (h0 : t.val % 4 = 0) (h1 : ¬t.val % 4 = 3) :
    (outsAt0 V c t.val t.isLt).2 = sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) := by
  obtain ⟨n, hn⟩ := t
  cases n with
  | zero => rfl
  | succ n => exact congrArg Prod.snd ((dif_pos h0 : outsAt0 V c (n + 1) hn = _))

theorem outsAt0_B (c : Dev nD) (t : Fin cfg0.N) (h0 : ¬t.val % 4 = 0) (h1 : ¬t.val % 4 = 3) :
    (outsAt0 V c t.val t.isLt).2 = sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2 := by
  obtain ⟨n, hn⟩ := t
  cases n with
  | zero => exact absurd (Nat.zero_mod _) h0
  | succ n => exact congrArg Prod.snd (((dif_neg h0).trans (dif_neg h1) : outsAt0 V c (n + 1) hn = _))

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2) := by
  obtain ⟨n, hn⟩ := t
  cases n with
  | zero => exact absurd (Nat.zero_mod _) h0
  | succ n => exact ((dif_neg h0).trans (dif_pos h1) : outsAt0 V c (n + 1) hn = _)

/-- The call's invariant before position n: before the first point every scoped buffer at anything; afterwards the
    running-sum scratch at what the point before left, the other scoped buffers at anything; the generator register at
    some state throughout. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f)) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f)) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f)) ∗ (∃ r, prngReg c r)) := by
  cases n with
  | zero => exact absurd rfl hz
  | succ n => rfl

/-! ## The proof data of the call -/

/-- The arrays as the call finds them; after the body each input's buffer at its block, the output's at what the
    accumulation says; the two windows on the node-feature array hold half of it each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t.val t.isLt).1
  Φ t := PhiS0 V c t.val (Nat.le_of_lt_succ t.isLt)
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 8000000 in
/-- The body at any grid point: the inputs' buffers hold their blocks; the neighbour tile decides the case; the invariant
    hands the body the running sum the point before left (anything, at a first tile) and takes back this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  by_cases h0 : t.val % 4 = 0
  · have h1 : ¬t.val % 4 = 3 := by omega
    rw [Dat.leavesExact_idle (dat0 V c) 8 t (idleAt0_8 t (fun h => h1 ((hcond0_1 t).mp h))) (noFlush0_8 t (fun h => h1 ((hcond0_1 t).mp h)))]
    rw [outsAt0_A V c t h0 h1]
    unfold sout0_A; (try dsimp only)
    by_cases hz : t.val = 0
    ·
      rw [PhiS0_castSucc V c t, PhiS0_zero V c _ _ hz, PhiA0_eq]
      iintro ⟨⟨⟨HS0, R1, R2, R3, R4, R5, R6, R7, R8, R9, R10, R11, R12, R13, R14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, ⟨%es0, HS0⟩⟩
      isplitl [HS0 R1 R2 R3 R4 R5 R6 R7 R8 R9 R10 R11 R12 R13 R14 Hg]
      · isplitl [HS0 R1 R2 R3 R4 R5 R6 R7 R8 R9 R10 R11 R12 R13 R14]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          isplitl [R1]
          · iexact R1
          isplitl [R2]
          · iexact R2
          isplitl [R3]
          · iexact R3
          isplitl [R4]
          · iexact R4
          isplitl [R5]
          · iexact R5
          isplitl [R6]
          · iexact R6
          isplitl [R7]
          · iexact R7
          isplitl [R8]
          · iexact R8
          isplitl [R9]
          · iexact R9
          isplitl [R10]
          · iexact R10
          isplitl [R11]
          · iexact R11
          isplitl [R12]
          · iexact R12
          isplitl [R13]
          · iexact R13
          iexact R14
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    ·
      rw [PhiS0_castSucc V c t, PhiS0_pos V c _ _ hz]
      iintro ⟨⟨⟨HS0, R1, R2, R3, R4, R5, R6, R7, R8, R9, R10, R11, R12, R13, R14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexists _; iexact HS0
      iintro ⟨H0, H1, H2, H3, H4, H5, H6, H7, H8, ⟨%es0, HS0⟩⟩
      isplitl [HS0 R1 R2 R3 R4 R5 R6 R7 R8 R9 R10 R11 R12 R13 R14 Hg]
      · isplitl [HS0 R1 R2 R3 R4 R5 R6 R7 R8 R9 R10 R11 R12 R13 R14]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          isplitl [R1]
          · iexact R1
          isplitl [R2]
          · iexact R2
          isplitl [R3]
          · iexact R3
          isplitl [R4]
          · iexact R4
          isplitl [R5]
          · iexact R5
          isplitl [R6]
          · iexact R6
          isplitl [R7]
          · iexact R7
          isplitl [R8]
          · iexact R8
          isplitl [R9]
          · iexact R9
          isplitl [R10]
          · iexact R10
          isplitl [R11]
          · iexact R11
          isplitl [R12]
          · iexact R12
          isplitl [R13]
          · iexact R13
          iexact R14
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz : t.val ≠ 0 := fun e => h0 (by rw [e])
    by_cases h1 : t.val % 4 = 3
    · rw [show (dat0 V c).leavesExact 8 t = owns (c : Thread nD τ) (ms0_8 t) fullShare ((dat0 V c).after 8 t) from by
        unfold Dat.leavesExact; rw [liveAt0_8 t ((hcond0_1 t).mpr h1)], after0_8]
      rw [outsAt0_C V c t h0 h1]
      unfold out0_C sout0_C; (try dsimp only)
      rw [PhiS0_castSucc V c t, PhiS0_pos V c _ _ hz]
      iintro ⟨⟨⟨HS0, R1, R2, R3, R4, R5, R6, R7, R8, R9, R10, R11, R12, R13, R14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 R1 R2 R3 R4 R5 R6 R7 R8 R9 R10 R11 R12 R13 R14 Hg]
      · isplitl [HS0 R1 R2 R3 R4 R5 R6 R7 R8 R9 R10 R11 R12 R13 R14]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _)
          isplitl [R1]
          · iexact R1
          isplitl [R2]
          · iexact R2
          isplitl [R3]
          · iexact R3
          isplitl [R4]
          · iexact R4
          isplitl [R5]
          · iexact R5
          isplitl [R6]
          · iexact R6
          isplitl [R7]
          · iexact R7
          isplitl [R8]
          · iexact R8
          isplitl [R9]
          · iexact R9
          isplitl [R10]
          · iexact R10
          isplitl [R11]
          · iexact R11
          isplitl [R12]
          · iexact R12
          isplitl [R13]
          · iexact R13
          iexact R14
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _)
    · rw [Dat.leavesExact_idle (dat0 V c) 8 t (idleAt0_8 t (fun h => h1 ((hcond0_1 t).mp h))) (noFlush0_8 t (fun h => h1 ((hcond0_1 t).mp h)))]
      rw [outsAt0_B V c t h0 h1]
      unfold sout0_B; (try dsimp only)
      rw [PhiS0_castSucc V c t, PhiS0_pos V c _ _ hz]
      iintro ⟨⟨⟨HS0, R1, R2, R3, R4, R5, R6, R7, R8, R9, R10, R11, R12, R13, R14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, ⟨%es0, HS0⟩⟩
      isplitl [HS0 R1 R2 R3 R4 R5 R6 R7 R8 R9 R10 R11 R12 R13 R14 Hg]
      · isplitl [HS0 R1 R2 R3 R4 R5 R6 R7 R8 R9 R10 R11 R12 R13 R14]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _)
          isplitl [R1]
          · iexact R1
          isplitl [R2]
          · iexact R2
          isplitl [R3]
          · iexact R3
          isplitl [R4]
          · iexact R4
          isplitl [R5]
          · iexact R5
          isplitl [R6]
          · iexact R6
          isplitl [R7]
          · iexact R7
          isplitl [R8]
          · iexact R8
          isplitl [R9]
          · iexact R9
          isplitl [R10]
          · iexact R10
          isplitl [R11]
          · iexact R11
          isplitl [R12]
          · iexact R12
          isplitl [R13]
          · iexact R13
          iexact R14
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives every scoped buffer back at some contents. -/
theorem hout0 (c : Dev nD) : (dat0 V c).Φ (Fin.last cfg0.N) ⊢ Pipeline.ΦA spec0 c := by
  have ht : (Fin.last cfg0.N).val ≠ 0 := by rw [Fin.val_last]; have : cfg0.N = 128 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, R1, R2, R3, R4, R5, R6, R7, R8, R9, R10, R11, R12, R13, R14⟩, Hg⟩
  isplitl [HS0 R1 R2 R3 R4 R5 R6 R7 R8 R9 R10 R11 R12 R13 R14]
  · isplitl [HS0]
    · iexists _; iexact HS0
    isplitl [R1]
    · iexact R1
    isplitl [R2]
    · iexact R2
    isplitl [R3]
    · iexact R3
    isplitl [R4]
    · iexact R4
    isplitl [R5]
    · iexact R5
    isplitl [R6]
    · iexact R6
    isplitl [R7]
    · iexact R7
    isplitl [R8]
    · iexact R8
    isplitl [R9]
    · iexact R9
    isplitl [R10]
    · iexact R10
    isplitl [R11]
    · iexact R11
    isplitl [R12]
    · iexact R12
    isplitl [R13]
    · iexact R13
    iexact R14
  iexact Hg

end Cert.Kernel.Hand

end
-- ==== Proof.KB.Conds1.lean ====
import proofs.«117494_j19645180411919_1_alg».proof.Proof.Gen.Kernel.Launch
import proofs.«117494_j19645180411919_1_alg».proof.Proof.Gen.Kernel.Skeleton
import proofs.«117494_j19645180411919_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the layer kernel's body, as propositions over a grid point

The body resets its running sum when the third grid coordinate (the tile of neighbours) is 0, and writes the
node block out when it is 3, the last tile. -/

/-- The reset condition: the neighbour-tile coordinate is 0. -/
abbrev cond1_0 (i : grid1.Coords) : Prop := (Scalar.cmpi .ne (Scalar.extui (Scalar.cmpi .eq (BitVec.ofNat 32 (i 2).val) 0#32)) 0#32) = 1#1
/-- The write-out condition: the neighbour-tile coordinate is 3. -/
abbrev cond1_1 (i : grid1.Coords) : Prop := k1_cond2 i = 1#1

end Cert.Kernel.Hand

end
-- ==== Proof.KB.Run1A.lean ====
import proofs.«117494_j19645180411919_1_alg».proof.Proof.KB.Conds1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first tile of a node block: the scratch, whatever it held, is set to zero and then to zero plus this tile's
    masked messages; nothing is stored into the output block. -/
noncomputable def kernelRun1_A (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : cond1_0 i) (hc1 : ¬cond1_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) :
    Σ' (L8 : List (View.Piece (Elt F) S1x64x128 .f32)), { LS0 : List (View.Piece (Elt F) S64x128 .f32) //
      ∀ (xi8 : Vec F S1x64x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ f, arg12.view.loc (c : Thread nD τ) ↦[arg12.view.set]{fullShare} arg12.view.writes (Elt F) f LS0)) -∗ K ⟨⟩))
          ⊢ wp frame (wpE (defs₀ (F := F)) Variants.none c none) E (cc1__gnn_layer_kernel i arg3 harg3 arg4 harg4 arg5 harg5 arg6 harg6 arg7 harg7 arg8 harg8 arg9 harg9 arg10 harg10 arg11 harg11 arg12 harg12) K } := by
  refine ⟨[], ?_, fun xi8 E K => ?run⟩
  case run =>
    simp only [cc1__gnn_layer_kernel_eq_skeleton]; unfold cc1__gnn_layer_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    iexists _; iexact HS0

end Cert.Kernel.Hand

end
-- ==== Proof.KB.Run1B.lean ====
import proofs.«117494_j19645180411919_1_alg».proof.Proof.KB.Conds1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle tile (neither first nor last): the running sum found in the scratch is replaced by itself plus this
    tile's masked messages; nothing is stored into the output block. -/
noncomputable def kernelRun1_B (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond1_0 i) (hc1 : ¬cond1_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) :
    Σ' (L8 : List (View.Piece (Elt F) S1x64x128 .f32)), { LS0 : List (View.Piece (Elt F) S64x128 .f32) //
      ∀ (xi8 : Vec F S1x64x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ f, arg12.view.loc (c : Thread nD τ) ↦[arg12.view.set]{fullShare} arg12.view.writes (Elt F) f LS0)) -∗ K ⟨⟩))
          ⊢ wp frame (wpE (defs₀ (F := F)) Variants.none c none) E (cc1__gnn_layer_kernel i arg3 harg3 arg4 harg4 arg5 harg5 arg6 harg6 arg7 harg7 arg8 harg8 arg9 harg9 arg10 harg10 arg11 harg11 arg12 harg12) K } := by
  refine ⟨[], ?_, fun xi8 E K => ?run⟩
  case run =>
    simp only [cc1__gnn_layer_kernel_eq_skeleton]; unfold cc1__gnn_layer_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    iexists _; iexact HS0

end Cert.Kernel.Hand

end
-- ==== Proof.KB.Run1C.lean ====
import proofs.«117494_j19645180411919_1_alg».proof.Proof.KB.Conds1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last tile of a node block: the running sum is replaced by itself plus this tile's masked messages, and the
    output block is stored whole as the node features plus that final sum. -/
noncomputable def kernelRun1_C (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond1_0 i) (hc1 : cond1_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) :
    Σ' (L8 : List (View.Piece (Elt F) S1x64x128 .f32)), { LS0 : List (View.Piece (Elt F) S64x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0)) -∗ K ⟨⟩))
          ⊢ wp frame (wpE (defs₀ (F := F)) Variants.none c none) E (cc1__gnn_layer_kernel i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__gnn_layer_kernel_eq_skeleton]; unfold cc1__gnn_layer_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexists _; iexact HS0

end Cert.Kernel.Hand

end
-- ==== Proof.KB.Frame1.lean ====
import proofs.«117494_j19645180411919_1_alg».proof.Proof.KB.Run1A
import proofs.«117494_j19645180411919_1_alg».proof.Proof.KB.Run1B
import proofs.«117494_j19645180411919_1_alg».proof.Proof.KB.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body finds -/

/-- Window w's block at grid point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: when no fetch happens the
    block index has not moved since the last one. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not: when no fetch happens the
    block index has not moved since the last one. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not: when no fetch happens the
    block index has not moved since the last one. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not: when no fetch happens the
    block index has not moved since the last one. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not: when no fetch happens the
    block index has not moved since the last one. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, fetched there or not: when no fetch happens the
    block index has not moved since the last one. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point, fetched there or not: when no fetch happens the
    block index has not moved since the last one. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's staging buffer holds its block at every point, fetched there or not: when no fetch happens the
    block index has not moved since the last one. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions over the grid, and where the output window is idle

The grid is (batch, node tile, neighbour tile) = (4, 8, 4) in row-major order, so the neighbour tile of point t is
t mod 4. -/

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- Unless the neighbour tile is the last, the body stores nothing into the output block and the block is not written back. -/
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
theorem liveAt1_8 : ∀ t : Fin cfg1.N, cond1_1 (grid1.coords t) → cfg1.idle 8 (grid1.coords t) = false := by decide +kernel

/-! ## The memrefs the body is called with -/

abbrev VO1_8 : View sig .tc .vmem S1x64x128 .f32 := (Memref.whole cc1_stg8_0 : Memref sig .tc .vmem S1x64x128 .f32).view
abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)
abbrev ms1_7 (t : Fin cfg1.N) := win1_7.stage (cfg1.slots t 7)
abbrev hs1_7 (t : Fin cfg1.N) : (ms1_7 t).IsWhole := hstage1_7 ((cfg1.slots t 7).cast nbuf1_7)
abbrev ms1_8 (t : Fin cfg1.N) := win1_8.stage (cfg1.slots t 8)
abbrev hs1_8 (t : Fin cfg1.N) : (ms1_8 t).IsWhole := hstage1_8 ((cfg1.slots t 8).cast nbuf1_8)
/-- The running sum's scratch buffer. -/
abbrev scM1_0 : Memref sig .tc .vmem S64x128 .f32 := Memref.whole cc1_scratch0
abbrev VS1_0 : View sig .tc .vmem S64x128 .f32 := scM1_0.view

/-- What the call's invariant holds besides the staging buffers: every other scoped buffer of the core at some
    contents (the running sum's scratch among them) and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## What each case leaves, read back from the run's stores -/

theorem scover1_A_0 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : cond1_0 i) (hc1 : ¬cond1_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (y : S64x128.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5 x6 x7).2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5 x6 x7).2.1 S64x128.size (by sl_kernel_rfl) y
theorem scover1_B_0 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond1_0 i) (hc1 : ¬cond1_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) (y : S64x128.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 x6 x7 xs0).2.1 S64x128.size (by sl_kernel_rfl) y
theorem scover1_C_0 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond1_0 i) (hc1 : cond1_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) (y : S64x128.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 x6 x7 xs0).2.1 S64x128.size (by sl_kernel_rfl) y
theorem cover1_C_8 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond1_0 i) (hc1 : cond1_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) (y : S1x64x128.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 x6 x7 xs0).1 S1x64x128.size (by sl_kernel_rfl) y

/-- The running sum after a first tile. -/
def sout1_A (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : cond1_0 i) (hc1 : ¬cond1_1 i) (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) : Vec F S64x128 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 arg12 harg12 hc0 hc1 x0 x1 x2 x3 x4 x5 x6 x7).2.1)
/-- The running sum after a middle tile, from the sum before it. -/
def sout1_B (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond1_0 i) (hc1 : ¬cond1_1 i) (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) : Vec F S64x128 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 arg12 harg12 hc0 hc1 x0 x1 x2 x3 x4 x5 x6 x7 xs0).2.1)
/-- The running sum after the last tile, from the sum before it. -/
def sout1_C (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond1_0 i) (hc1 : cond1_1 i) (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) : Vec F S64x128 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 arg12 harg12 hc0 hc1 x0 x1 x2 x3 x4 x5 x6 x7 xs0).2.1)
/-- The output block stored at the last tile. -/
def out1_C (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond1_0 i) (hc1 : cond1_1 i) (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) : Vec F S1x64x128 .f32 :=
  VO1_8.read (Elt F) (VO1_8.writes (Elt F) VO1_8.junk (kernelRun1_C c i arg3 harg3 arg4 harg4 arg5 harg5 arg6 harg6 arg7 harg7 arg8 harg8 arg9 harg9 arg10 harg10 arg11 harg11 arg12 harg12 hc0 hc1 x0 x1 x2 x3 x4 x5 x6 x7 xs0).1)

/-! ## The accumulation over the grid points -/

/-- What the output's staging buffer and the running-sum scratch hold after the body at point n: by the neighbour tile
    n mod 4, a first tile starts the sum afresh, a later one continues from what the point before left. Where the
    output block is not stored (every tile but the last) its component is a placeholder nothing consults. -/
def outsAt1 (c : Dev nD) : (n : ℕ) → n < cfg1.N → Vec F S1x64x128 .f32 × Vec F S64x128 .f32
  | 0, hn => (VO1_8.read (Elt F) VO1_8.junk, (fun (t : Fin cfg1.N) (h0 : t.val % 4 = 0) (h1 : ¬t.val % 4 = 3) => sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)) ⟨0, hn⟩ (Nat.zero_mod _) (show ¬(0 % 4 = 3) from by decide))
  | n + 1, hn =>
    if h0 : (n + 1) % 4 = 0 then
      (VO1_8.read (Elt F) VO1_8.junk, (fun (t : Fin cfg1.N) (h0 : t.val % 4 = 0) (h1 : ¬t.val % 4 = 3) => sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)) ⟨n + 1, hn⟩ h0 (show ¬((n + 1) % 4 = 3) from by omega))
    else if h1 : (n + 1) % 4 = 3 then
      ((fun (t : Fin cfg1.N) (h0 : ¬t.val % 4 = 0) (h1 : t.val % 4 = 3) (xs : Vec F S64x128 .f32) => out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) xs) ⟨n + 1, hn⟩ h0 h1 (outsAt1 c n (Nat.lt_of_succ_lt hn)).2,
       (fun (t : Fin cfg1.N) (h0 : ¬t.val % 4 = 0) (h1 : t.val % 4 = 3) (xs : Vec F S64x128 .f32) => sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) xs) ⟨n + 1, hn⟩ h0 h1 (outsAt1 c n (Nat.lt_of_succ_lt hn)).2)
    else
      (VO1_8.read (Elt F) VO1_8.junk, (fun (t : Fin cfg1.N) (h0 : ¬t.val % 4 = 0) (h1 : ¬t.val % 4 = 3) (xs : Vec F S64x128 .f32) => sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) xs) ⟨n + 1, hn⟩ h0 h1 (outsAt1 c n (Nat.lt_of_succ_lt hn)).2)

theorem outsAt1_A (c : Dev nD) (t : Fin cfg1.N) (h0 : t.val % 4 = 0) (h1 : ¬t.val % 4 = 3) :
    (outsAt1 V c t.val t.isLt).2 = sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) := by
  obtain ⟨n, hn⟩ := t
  cases n with
  | zero => rfl
  | succ n => exact congrArg Prod.snd ((dif_pos h0 : outsAt1 V c (n + 1) hn = _))

theorem outsAt1_B (c : Dev nD) (t : Fin cfg1.N) (h0 : ¬t.val % 4 = 0) (h1 : ¬t.val % 4 = 3) :
    (outsAt1 V c t.val t.isLt).2 = sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2 := by
  obtain ⟨n, hn⟩ := t
  cases n with
  | zero => exact absurd (Nat.zero_mod _) h0
  | succ n => exact congrArg Prod.snd (((dif_neg h0).trans (dif_neg h1) : outsAt1 V c (n + 1) hn = _))

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact absurd (Nat.zero_mod _) h0
  | succ n => exact ((dif_neg h0).trans (dif_pos h1) : outsAt1 V c (n + 1) hn = _)

/-- The call's invariant before position n: before the first point every scoped buffer at anything; afterwards the
    running-sum scratch at what the point before left, the other scoped buffers at anything; the generator register at
    some state throughout. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data of the call -/

/-- The arrays as the call finds them; after the body each input's buffer at its block, the output's at what the
    accumulation says; the two windows on the node-feature array hold half of it each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 8000000 in
/-- The body at any grid point: the inputs' buffers hold their blocks; the neighbour tile decides the case; the invariant
    hands the body the running sum the point before left (anything, at a first tile) and takes back this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  by_cases h0 : t.val % 4 = 0
  · have h1 : ¬t.val % 4 = 3 := by omega
    rw [Dat.leavesExact_idle (dat1 V c) 8 t (idleAt1_8 t (fun h => h1 ((hcond1_1 t).mp h))) (noFlush1_8 t (fun h => h1 ((hcond1_1 t).mp h)))]
    rw [outsAt1_A V c t h0 h1]
    unfold sout1_A; (try dsimp only)
    by_cases hz : t.val = 0
    ·
      rw [PhiS1_castSucc V c t, PhiS1_zero V c _ _ hz, PhiA1_eq]
      iintro ⟨⟨⟨R0, R1, R2, R3, R4, R5, R6, R7, R8, R9, R10, R11, R12, R13, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, ⟨%es0, HS0⟩⟩
      isplitl [R0 R1 R2 R3 R4 R5 R6 R7 R8 R9 R10 R11 R12 R13 HS0 Hg]
      · isplitl [R0 R1 R2 R3 R4 R5 R6 R7 R8 R9 R10 R11 R12 R13 HS0]
        · isplitl [R0]
          · iexact R0
          isplitl [R1]
          · iexact R1
          isplitl [R2]
          · iexact R2
          isplitl [R3]
          · iexact R3
          isplitl [R4]
          · iexact R4
          isplitl [R5]
          · iexact R5
          isplitl [R6]
          · iexact R6
          isplitl [R7]
          · iexact R7
          isplitl [R8]
          · iexact R8
          isplitl [R9]
          · iexact R9
          isplitl [R10]
          · iexact R10
          isplitl [R11]
          · iexact R11
          isplitl [R12]
          · iexact R12
          isplitl [R13]
          · iexact R13
          unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    ·
      rw [PhiS1_castSucc V c t, PhiS1_pos V c _ _ hz]
      iintro ⟨⟨⟨R0, R1, R2, R3, R4, R5, R6, R7, R8, R9, R10, R11, R12, R13, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexists _; iexact HS0
      iintro ⟨H0, H1, H2, H3, H4, H5, H6, H7, H8, ⟨%es0, HS0⟩⟩
      isplitl [R0 R1 R2 R3 R4 R5 R6 R7 R8 R9 R10 R11 R12 R13 HS0 Hg]
      · isplitl [R0 R1 R2 R3 R4 R5 R6 R7 R8 R9 R10 R11 R12 R13 HS0]
        · isplitl [R0]
          · iexact R0
          isplitl [R1]
          · iexact R1
          isplitl [R2]
          · iexact R2
          isplitl [R3]
          · iexact R3
          isplitl [R4]
          · iexact R4
          isplitl [R5]
          · iexact R5
          isplitl [R6]
          · iexact R6
          isplitl [R7]
          · iexact R7
          isplitl [R8]
          · iexact R8
          isplitl [R9]
          · iexact R9
          isplitl [R10]
          · iexact R10
          isplitl [R11]
          · iexact R11
          isplitl [R12]
          · iexact R12
          isplitl [R13]
          · iexact R13
          unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz : t.val ≠ 0 := fun e => h0 (by rw [e])
    by_cases h1 : t.val % 4 = 3
    · rw [show (dat1 V c).leavesExact 8 t = owns (c : Thread nD τ) (ms1_8 t) fullShare ((dat1 V c).after 8 t) from by
        unfold Dat.leavesExact; rw [liveAt1_8 t ((hcond1_1 t).mpr h1)], after1_8]
      rw [outsAt1_C V c t h0 h1]
      unfold out1_C sout1_C; (try dsimp only)
      rw [PhiS1_castSucc V c t, PhiS1_pos V c _ _ hz]
      iintro ⟨⟨⟨R0, R1, R2, R3, R4, R5, R6, R7, R8, R9, R10, R11, R12, R13, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [R0 R1 R2 R3 R4 R5 R6 R7 R8 R9 R10 R11 R12 R13 HS0 Hg]
      · isplitl [R0 R1 R2 R3 R4 R5 R6 R7 R8 R9 R10 R11 R12 R13 HS0]
        · isplitl [R0]
          · iexact R0
          isplitl [R1]
          · iexact R1
          isplitl [R2]
          · iexact R2
          isplitl [R3]
          · iexact R3
          isplitl [R4]
          · iexact R4
          isplitl [R5]
          · iexact R5
          isplitl [R6]
          · iexact R6
          isplitl [R7]
          · iexact R7
          isplitl [R8]
          · iexact R8
          isplitl [R9]
          · iexact R9
          isplitl [R10]
          · iexact R10
          isplitl [R11]
          · iexact R11
          isplitl [R12]
          · iexact R12
          isplitl [R13]
          · iexact R13
          unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_C_8 c _ _ _ _ _ _ _ _ _ _ _ _ _ _ _ _ _ _ _ _ _ _ _ _ _ _ _ _ _ _ _ _)
    · rw [Dat.leavesExact_idle (dat1 V c) 8 t (idleAt1_8 t (fun h => h1 ((hcond1_1 t).mp h))) (noFlush1_8 t (fun h => h1 ((hcond1_1 t).mp h)))]
      rw [outsAt1_B V c t h0 h1]
      unfold sout1_B; (try dsimp only)
      rw [PhiS1_castSucc V c t, PhiS1_pos V c _ _ hz]
      iintro ⟨⟨⟨R0, R1, R2, R3, R4, R5, R6, R7, R8, R9, R10, R11, R12, R13, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, ⟨%es0, HS0⟩⟩
      isplitl [R0 R1 R2 R3 R4 R5 R6 R7 R8 R9 R10 R11 R12 R13 HS0 Hg]
      · isplitl [R0 R1 R2 R3 R4 R5 R6 R7 R8 R9 R10 R11 R12 R13 HS0]
        · isplitl [R0]
          · iexact R0
          isplitl [R1]
          · iexact R1
          isplitl [R2]
          · iexact R2
          isplitl [R3]
          · iexact R3
          isplitl [R4]
          · iexact R4
          isplitl [R5]
          · iexact R5
          isplitl [R6]
          · iexact R6
          isplitl [R7]
          · iexact R7
          isplitl [R8]
          · iexact R8
          isplitl [R9]
          · iexact R9
          isplitl [R10]
          · iexact R10
          isplitl [R11]
          · iexact R11
          isplitl [R12]
          · iexact R12
          isplitl [R13]
          · iexact R13
          unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives every scoped buffer back at some contents. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨R0, R1, R2, R3, R4, R5, R6, R7, R8, R9, R10, R11, R12, R13, HS0⟩, Hg⟩
  isplitl [R0 R1 R2 R3 R4 R5 R6 R7 R8 R9 R10 R11 R12 R13 HS0]
  · isplitl [R0]
    · iexact R0
    isplitl [R1]
    · iexact R1
    isplitl [R2]
    · iexact R2
    isplitl [R3]
    · iexact R3
    isplitl [R4]
    · iexact R4
    isplitl [R5]
    · iexact R5
    isplitl [R6]
    · iexact R6
    isplitl [R7]
    · iexact R7
    isplitl [R8]
    · iexact R8
    isplitl [R9]
    · iexact R9
    isplitl [R10]
    · iexact R10
    isplitl [R11]
    · iexact R11
    isplitl [R12]
    · iexact R12
    isplitl [R13]
    · iexact R13
    iexists _; iexact HS0
  iexact Hg

end Cert.Kernel.Hand

end
-- ==== Proof.KB.Regions.lean ====
import proofs.«117494_j19645180411919_1_alg».proof.Proof.KB.Frame0
import proofs.«117494_j19645180411919_1_alg».proof.Proof.KB.Frame1
import proofs.«117494_j19645180411919_1_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! # The whole program: host stretch, kernel call 0, host stretch, kernel call 1

## The buffer contents at each boundary, a fold from the launch memory -/

/-- At launch. -/
abbrev W0 : Dev nD → Valuation τ sig (Elt F) := fun c b => m (c, b)
/-- After the first stretch of host operations (the first layer's weights sliced, transposed and converted). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After kernel call 0: its output array holds what its write-backs leave, everything else is as before. -/
def W2 (c : Dev nD) : Valuation τ sig (Elt F) :=
  Function.update (W1 m c) (Proc.devRef .tc main_v20) ((dat0 (V1 m) c).arrAt 8 cfg0.N)
abbrev V2 : (c : Dev nD) → (b : Ref sig .tc) → Buf (Elt F) ((c : Thread nD τ).loc b) := fun c b => W2 m c b
/-- After the second stretch of host operations (the second layer's weights). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After kernel call 1. -/
def W4 (c : Dev nD) : Valuation τ sig (Elt F) :=
  Function.update (W3 m c) (Proc.devRef .tc main_v41) ((dat1 (V3 m) c).arrAt 8 cfg1.N)
abbrev V4 : (c : Dev nD) → (b : Ref sig .tc) → Buf (Elt F) ((c : Thread nD τ).loc b) := fun c b => W4 m c b

/-! ## Call 0: its arrays out of the core's unscoped buffers and back

The two node-feature windows of the call read ONE array; each holds half of it while the call runs. The facts are stated
for arbitrary contents V, so that nothing about how the contents were computed is ever opened. -/

section
variable (V : (c : Dev nD) → (b : Ref sig .tc) → Buf (Elt F) ((c : Thread nD τ).loc b))

theorem share0_0 (c : Dev nD) : (dat0 (F := F) V c).share 0 = fullShare.left := rfl
theorem share0_1 (c : Dev nD) : (dat0 (F := F) V c).share 1 = fullShare.right := rfl
theorem share0_2 (c : Dev nD) : (dat0 (F := F) V c).share 2 = fullShare := rfl
theorem share0_3 (c : Dev nD) : (dat0 (F := F) V c).share 3 = fullShare := rfl
theorem share0_4 (c : Dev nD) : (dat0 (F := F) V c).share 4 = fullShare := rfl
theorem share0_5 (c : Dev nD) : (dat0 (F := F) V c).share 5 = fullShare := rfl
theorem share0_6 (c : Dev nD) : (dat0 (F := F) V c).share 6 = fullShare := rfl
theorem share0_7 (c : Dev nD) : (dat0 (F := F) V c).share 7 = fullShare := rfl
theorem share0_8 (c : Dev nD) : (dat0 (F := F) V c).share 8 = fullShare := rfl

/-- The call's arrays, window by window, each a whole buffer at its window's share. -/
theorem arrays0_eq (c : Dev nD) (G : (w : Fin cfg0.W) → Buf (Elt F) ((cfg0.win w).arr.view.loc (c : Thread nD τ))) :
    ((dat0 (F := F) V c).arrays G : sProp 𝕄)
      = iprop((((c : Thread nD τ).loc main_arg0) ↦{fullShare.left} G 0) ∗ (((c : Thread nD τ).loc main_arg0) ↦{fullShare.right} G 1) ∗ (((c : Thread nD τ).loc main_arg1) ↦{fullShare} G 2) ∗ (((c : Thread nD τ).loc main_v7) ↦{fullShare} G 3) ∗ (((c : Thread nD τ).loc main_v9) ↦{fullShare} G 4) ∗ (((c : Thread nD τ).loc main_v16) ↦{fullShare} G 5) ∗ (((c : Thread nD τ).loc main_v13) ↦{fullShare} G 6) ∗ (((c : Thread nD τ).loc main_v19) ↦{fullShare} G 7) ∗ (((c : Thread nD τ).loc main_v20) ↦{fullShare} G 8)) := by
  unfold Dat.arrays
  rw [bigSep_W0]
  simp only [share0_0, share0_1, share0_2, share0_3, share0_4, share0_5, share0_6, share0_7, share0_8, (arr_whole0 0).set_eq_univ, (arr_whole0 1).set_eq_univ, (arr_whole0 2).set_eq_univ, (arr_whole0 3).set_eq_univ, (arr_whole0 4).set_eq_univ, (arr_whole0 5).set_eq_univ, (arr_whole0 6).set_eq_univ, (arr_whole0 7).set_eq_univ, (arr_whole0 8).set_eq_univ]

/-- The distinct buffers behind the call's windows, one by one. -/
theorem arrBufs0_eq (c : Dev nD) (U : (b : Ref sig .tc) → Buf (Elt F) ((c : Thread nD τ).loc b)) :
    (Pipeline.arrBufs (Ix := Unit) (Name := ℕ) (U := UR sig nD τ) (Lvl := ℕ) spec0 c U : sProp 𝕄)
      = iprop((((c : Thread nD τ).loc main_arg0) ↦{fullShare} U main_arg0) ∗ (((c : Thread nD τ).loc main_arg1) ↦{fullShare} U main_arg1) ∗ (((c : Thread nD τ).loc main_v7) ↦{fullShare} U main_v7) ∗ (((c : Thread nD τ).loc main_v9) ↦{fullShare} U main_v9) ∗ (((c : Thread nD τ).loc main_v16) ↦{fullShare} U main_v16) ∗ (((c : Thread nD τ).loc main_v13) ↦{fullShare} U main_v13) ∗ (((c : Thread nD τ).loc main_v19) ↦{fullShare} U main_v19) ∗ (((c : Thread nD τ).loc main_v20) ↦{fullShare} U main_v20)) := by
  unfold Pipeline.arrBufs
  rw [bigSep_eq_bigSepL_of_eq [main_arg0, main_arg1, main_v7, main_v9, main_v16, main_v13, main_v19, main_v20] (by decide) (by decide)]
  rfl

set_option maxHeartbeats 2000000 in
/-- ENTRY: the buffers behind the windows, each whole, are the call's arrays: the node-feature array split in two halves
    between its two windows. -/
theorem entryG0 (c : Dev nD) :
    (Pipeline.arrBufs (Ix := Unit) (Name := ℕ) (U := UR sig nD τ) (Lvl := ℕ) spec0 c (V c) : sProp 𝕄) ⊢ (dat0 V c).arrays (dat0 V c).A := by
  rw [arrBufs0_eq, arrays0_eq]
  simp only [A_eq0]
  iintro ⟨A0, A1, A2, A3, A4, A5, A6, A7⟩
  ihave Hs := (pointsTo_share (PosShare.mem_left_op_right fullShare)).1 $$ A0
  icases Hs with ⟨A0l, A0r⟩
  isplitl [A0l]; · iexact A0l
  isplitl [A0r]; · iexact A0r
  isplitl [A1]; · iexact A1
  isplitl [A2]; · iexact A2
  isplitl [A3]; · iexact A3
  isplitl [A4]; · iexact A4
  isplitl [A5]; · iexact A5
  isplitl [A6]; · iexact A6
  iexact A7

set_option maxHeartbeats 2000000 in
/-- EXIT: the call's arrays as its write-backs leave them — the inputs as found, the two halves of the node-feature array
    joined again, the output folded — are the buffers behind the windows at any contents that have the output's array at
    what the write-backs leave and agree with the entry contents elsewhere. -/
theorem exitG0 (c : Dev nD) (U : (b : Ref sig .tc) → Buf (Elt F) ((c : Thread nD τ).loc b))
    (hout : U main_v20 = (dat0 V c).arrAt 8 cfg0.N) (hne : ∀ b : Ref sig .tc, b ≠ main_v20 → U b = V c b) :
    ((dat0 V c).arrays ((dat0 V c).arrAt · cfg0.N) : sProp 𝕄) ⊢ Pipeline.arrBufs (Ix := Unit) (Name := ℕ) (U := UR sig nD τ) (Lvl := ℕ) spec0 c U := by
  rw [arrBufs0_eq, arrays0_eq]
  rw [(dat0 V c).arrAt_in 0 rfl cfg0.N, (dat0 V c).arrAt_in 1 rfl cfg0.N, (dat0 V c).arrAt_in 2 rfl cfg0.N, (dat0 V c).arrAt_in 3 rfl cfg0.N, (dat0 V c).arrAt_in 4 rfl cfg0.N, (dat0 V c).arrAt_in 5 rfl cfg0.N, (dat0 V c).arrAt_in 6 rfl cfg0.N, (dat0 V c).arrAt_in 7 rfl cfg0.N]
  simp only [A_eq0]
  rw [hne main_arg0 (by decide), hne main_arg1 (by decide), hne main_v7 (by decide), hne main_v9 (by decide), hne main_v16 (by decide), hne main_v13 (by decide), hne main_v19 (by decide), hout]
  iintro ⟨A0l, A0r, A1, A2, A3, A4, A5, A6, A7⟩
  isplitl [A0l A0r]
  · iapply (pointsTo_share (PosShare.mem_left_op_right fullShare)).2
    isplitl [A0l]; · iexact A0l
    iexact A0r
  isplitl [A1]; · iexact A1
  isplitl [A2]; · iexact A2
  isplitl [A3]; · iexact A3
  isplitl [A4]; · iexact A4
  isplitl [A5]; · iexact A5
  isplitl [A6]; · iexact A6
  iexact A7

/-- The buffers the call does not touch are the same collection at any contents that agree with the entry contents off
    the output's array. -/
theorem restG0 (c : Dev nD) (U : (b : Ref sig .tc) → Buf (Elt F) ((c : Thread nD τ).loc b)) (hne : ∀ b : Ref sig .tc, b ≠ main_v20 → U b = V c b) :
    (Pipeline.unscopedRest (Ix := Unit) (Name := ℕ) (U := UR sig nD τ) (Lvl := ℕ) spec0 c (V c) : sProp 𝕄) = Pipeline.unscopedRest spec0 c U := by
  unfold Pipeline.unscopedRest
  refine bigSep_congr fun b hb => ?_
  have hb' : b ≠ main_v20 := fun e => (Finset.mem_sdiff.mp hb).2 (Finset.mem_image.mpr ⟨8, Finset.mem_univ _, e.symm⟩)
  rw [hne b hb']

end

/-- The contents after the call agree with those before it at every buffer but the output's. -/
theorem W2_of_ne (c : Dev nD) (b : Ref sig .tc) (hb : b ≠ main_v20) : V2 m c b = V1 m c b := by
  show W2 m c (Proc.devRef .tc b) = W1 m c (Proc.devRef .tc b)
  unfold W2; exact Function.update_of_ne (StableHlo.devRef_ne_of_ne hb) _ _
/-- The output's buffer holds what the write-backs of the call leave. -/
theorem W2_out (c : Dev nD) : V2 m c main_v20 = (dat0 (V1 m) c).arrAt 8 cfg0.N := by
  show W2 m c (Proc.devRef .tc main_v20) = _
  unfold W2; exact Function.update_self _ _ _

theorem entry0 (c : Dev nD) :
    (StableHlo.held (c : Thread nD τ) (Pipeline.ucRefs τ sig) (W1 m c) : sProp 𝕄)
      ⊢ iprop((dat0 (V1 m) c).arrays (dat0 (V1 m) c).A ∗ Pipeline.unscopedRest (Ix := Unit) (Name := ℕ) (U := UR sig nD τ) (Lvl := ℕ) spec0 c (V1 m c)) := by
  rw [← Pipeline.unscopedBufs_held (Ix := Unit) (Name := ℕ) (U := UR sig nD τ) (Lvl := ℕ) c (W1 m c),
    Pipeline.unscopedBufs_split₀ cfgs 0 winFacts₀0.arr_unscoped c (V1 m c)]
  exact sep_mono (entryG0 (V1 m) c) .rfl

theorem exit0 (c : Dev nD) :
    iprop((dat0 (V1 m) c).arrays ((dat0 (V1 m) c).arrAt · cfg0.N) ∗ Pipeline.unscopedRest (Ix := Unit) (Name := ℕ) (U := UR sig nD τ) (Lvl := ℕ) spec0 c (V1 m c))
      ⊢ (StableHlo.held (c : Thread nD τ) (Pipeline.ucRefs τ sig) (W2 m c) : sProp 𝕄) := by
  rw [← Pipeline.unscopedBufs_held (Ix := Unit) (Name := ℕ) (U := UR sig nD τ) (Lvl := ℕ) c (W2 m c),
    Pipeline.unscopedBufs_split₀ cfgs 0 winFacts₀0.arr_unscoped c (V2 m c)]
  exact Idealize.SL.BI.sep_mono (exitG0 (V1 m) c (V2 m c) (W2_out m c) (fun b hb => W2_of_ne m c b hb))
    (Entails.of_eq (restG0 (V1 m) c (V2 m c) (fun b hb => W2_of_ne m c b hb)))

/-! ## Call 1: its arrays out of the core's unscoped buffers and back

The two node-feature windows of the call read ONE array; each holds half of it while the call runs. The facts are stated
for arbitrary contents V, so that nothing about how the contents were computed is ever opened. -/

section
variable (V : (c : Dev nD) → (b : Ref sig .tc) → Buf (Elt F) ((c : Thread nD τ).loc b))

theorem share1_0 (c : Dev nD) : (dat1 (F := F) V c).share 0 = fullShare.left := rfl
theorem share1_1 (c : Dev nD) : (dat1 (F := F) V c).share 1 = fullShare.right := rfl
theorem share1_2 (c : Dev nD) : (dat1 (F := F) V c).share 2 = fullShare := rfl
theorem share1_3 (c : Dev nD) : (dat1 (F := F) V c).share 3 = fullShare := rfl
theorem share1_4 (c : Dev nD) : (dat1 (F := F) V c).share 4 = fullShare := rfl
theorem share1_5 (c : Dev nD) : (dat1 (F := F) V c).share 5 = fullShare := rfl
theorem share1_6 (c : Dev nD) : (dat1 (F := F) V c).share 6 = fullShare := rfl
theorem share1_7 (c : Dev nD) : (dat1 (F := F) V c).share 7 = fullShare := rfl
theorem share1_8 (c : Dev nD) : (dat1 (F := F) V c).share 8 = fullShare := rfl

/-- The call's arrays, window by window, each a whole buffer at its window's share. -/
theorem arrays1_eq (c : Dev nD) (G : (w : Fin cfg1.W) → Buf (Elt F) ((cfg1.win w).arr.view.loc (c : Thread nD τ))) :
    ((dat1 (F := F) V c).arrays G : sProp 𝕄)
      = iprop((((c : Thread nD τ).loc main_v20) ↦{fullShare.left} G 0) ∗ (((c : Thread nD τ).loc main_v20) ↦{fullShare.right} G 1) ∗ (((c : Thread nD τ).loc main_arg1) ↦{fullShare} G 2) ∗ (((c : Thread nD τ).loc main_v28) ↦{fullShare} G 3) ∗ (((c : Thread nD τ).loc main_v30) ↦{fullShare} G 4) ∗ (((c : Thread nD τ).loc main_v37) ↦{fullShare} G 5) ∗ (((c : Thread nD τ).loc main_v34) ↦{fullShare} G 6) ∗ (((c : Thread nD τ).loc main_v40) ↦{fullShare} G 7) ∗ (((c : Thread nD τ).loc main_v41) ↦{fullShare} G 8)) := by
  unfold Dat.arrays
  rw [bigSep_W1]
  simp only [share1_0, share1_1, share1_2, share1_3, share1_4, share1_5, share1_6, share1_7, share1_8, (arr_whole1 0).set_eq_univ, (arr_whole1 1).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ]

/-- The distinct buffers behind the call's windows, one by one. -/
theorem arrBufs1_eq (c : Dev nD) (U : (b : Ref sig .tc) → Buf (Elt F) ((c : Thread nD τ).loc b)) :
    (Pipeline.arrBufs (Ix := Unit) (Name := ℕ) (U := UR sig nD τ) (Lvl := ℕ) spec1 c U : sProp 𝕄)
      = iprop((((c : Thread nD τ).loc main_v20) ↦{fullShare} U main_v20) ∗ (((c : Thread nD τ).loc main_arg1) ↦{fullShare} U main_arg1) ∗ (((c : Thread nD τ).loc main_v28) ↦{fullShare} U main_v28) ∗ (((c : Thread nD τ).loc main_v30) ↦{fullShare} U main_v30) ∗ (((c : Thread nD τ).loc main_v37) ↦{fullShare} U main_v37) ∗ (((c : Thread nD τ).loc main_v34) ↦{fullShare} U main_v34) ∗ (((c : Thread nD τ).loc main_v40) ↦{fullShare} U main_v40) ∗ (((c : Thread nD τ).loc main_v41) ↦{fullShare} U main_v41)) := by
  unfold Pipeline.arrBufs
  rw [bigSep_eq_bigSepL_of_eq [main_v20, main_arg1, main_v28, main_v30, main_v37, main_v34, main_v40, main_v41] (by decide) (by decide)]
  rfl

set_option maxHeartbeats 2000000 in
/-- ENTRY: the buffers behind the windows, each whole, are the call's arrays: the node-feature array split in two halves
    between its two windows. -/
theorem entryG1 (c : Dev nD) :
    (Pipeline.arrBufs (Ix := Unit) (Name := ℕ) (U := UR sig nD τ) (Lvl := ℕ) spec1 c (V c) : sProp 𝕄) ⊢ (dat1 V c).arrays (dat1 V c).A := by
  rw [arrBufs1_eq, arrays1_eq]
  simp only [A_eq1]
  iintro ⟨A0, A1, A2, A3, A4, A5, A6, A7⟩
  ihave Hs := (pointsTo_share (PosShare.mem_left_op_right fullShare)).1 $$ A0
  icases Hs with ⟨A0l, A0r⟩
  isplitl [A0l]; · iexact A0l
  isplitl [A0r]; · iexact A0r
  isplitl [A1]; · iexact A1
  isplitl [A2]; · iexact A2
  isplitl [A3]; · iexact A3
  isplitl [A4]; · iexact A4
  isplitl [A5]; · iexact A5
  isplitl [A6]; · iexact A6
  iexact A7

set_option maxHeartbeats 2000000 in
/-- EXIT: the call's arrays as its write-backs leave them — the inputs as found, the two halves of the node-feature array
    joined again, the output folded — are the buffers behind the windows at any contents that have the output's array at
    what the write-backs leave and agree with the entry contents elsewhere. -/
theorem exitG1 (c : Dev nD) (U : (b : Ref sig .tc) → Buf (Elt F) ((c : Thread nD τ).loc b))
    (hout : U main_v41 = (dat1 V c).arrAt 8 cfg1.N) (hne : ∀ b : Ref sig .tc, b ≠ main_v41 → U b = V c b) :
    ((dat1 V c).arrays ((dat1 V c).arrAt · cfg1.N) : sProp 𝕄) ⊢ Pipeline.arrBufs (Ix := Unit) (Name := ℕ) (U := UR sig nD τ) (Lvl := ℕ) spec1 c U := by
  rw [arrBufs1_eq, arrays1_eq]
  rw [(dat1 V c).arrAt_in 0 rfl cfg1.N, (dat1 V c).arrAt_in 1 rfl cfg1.N, (dat1 V c).arrAt_in 2 rfl cfg1.N, (dat1 V c).arrAt_in 3 rfl cfg1.N, (dat1 V c).arrAt_in 4 rfl cfg1.N, (dat1 V c).arrAt_in 5 rfl cfg1.N, (dat1 V c).arrAt_in 6 rfl cfg1.N, (dat1 V c).arrAt_in 7 rfl cfg1.N]
  simp only [A_eq1]
  rw [hne main_v20 (by decide), hne main_arg1 (by decide), hne main_v28 (by decide), hne main_v30 (by decide), hne main_v37 (by decide), hne main_v34 (by decide), hne main_v40 (by decide), hout]
  iintro ⟨A0l, A0r, A1, A2, A3, A4, A5, A6, A7⟩
  isplitl [A0l A0r]
  · iapply (pointsTo_share (PosShare.mem_left_op_right fullShare)).2
    isplitl [A0l]; · iexact A0l
    iexact A0r
  isplitl [A1]; · iexact A1
  isplitl [A2]; · iexact A2
  isplitl [A3]; · iexact A3
  isplitl [A4]; · iexact A4
  isplitl [A5]; · iexact A5
  isplitl [A6]; · iexact A6
  iexact A7

/-- The buffers the call does not touch are the same collection at any contents that agree with the entry contents off
    the output's array. -/
theorem restG1 (c : Dev nD) (U : (b : Ref sig .tc) → Buf (Elt F) ((c : Thread nD τ).loc b)) (hne : ∀ b : Ref sig .tc, b ≠ main_v41 → U b = V c b) :
    (Pipeline.unscopedRest (Ix := Unit) (Name := ℕ) (U := UR sig nD τ) (Lvl := ℕ) spec1 c (V c) : sProp 𝕄) = Pipeline.unscopedRest spec1 c U := by
  unfold Pipeline.unscopedRest
  refine bigSep_congr fun b hb => ?_
  have hb' : b ≠ main_v41 := fun e => (Finset.mem_sdiff.mp hb).2 (Finset.mem_image.mpr ⟨8, Finset.mem_univ _, e.symm⟩)
  rw [hne b hb']

end

/-- The contents after the call agree with those before it at every buffer but the output's. -/
theorem W4_of_ne (c : Dev nD) (b : Ref sig .tc) (hb : b ≠ main_v41) : V4 m c b = V3 m c b := by
  show W4 m c (Proc.devRef .tc b) = W3 m c (Proc.devRef .tc b)
  unfold W4; exact Function.update_of_ne (StableHlo.devRef_ne_of_ne hb) _ _
/-- The output's buffer holds what the write-backs of the call leave. -/
theorem W4_out (c : Dev nD) : V4 m c main_v41 = (dat1 (V3 m) c).arrAt 8 cfg1.N := by
  show W4 m c (Proc.devRef .tc main_v41) = _
  unfold W4; exact Function.update_self _ _ _

theorem entry1 (c : Dev nD) :
    (StableHlo.held (c : Thread nD τ) (Pipeline.ucRefs τ sig) (W3 m c) : sProp 𝕄)
      ⊢ iprop((dat1 (V3 m) c).arrays (dat1 (V3 m) c).A ∗ Pipeline.unscopedRest (Ix := Unit) (Name := ℕ) (U := UR sig nD τ) (Lvl := ℕ) spec1 c (V3 m c)) := by
  rw [← Pipeline.unscopedBufs_held (Ix := Unit) (Name := ℕ) (U := UR sig nD τ) (Lvl := ℕ) c (W3 m c),
    Pipeline.unscopedBufs_split₀ cfgs 1 winFacts₀1.arr_unscoped c (V3 m c)]
  exact sep_mono (entryG1 (V3 m) c) .rfl

theorem exit1 (c : Dev nD) :
    iprop((dat1 (V3 m) c).arrays ((dat1 (V3 m) c).arrAt · cfg1.N) ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := by
  rw [← Pipeline.unscopedBufs_held (Ix := Unit) (Name := ℕ) (U := UR sig nD τ) (Lvl := ℕ) c (W4 m c),
    Pipeline.unscopedBufs_split₀ cfgs 1 winFacts₀1.arr_unscoped c (V4 m c)]
  exact Idealize.SL.BI.sep_mono (exitG1 (V3 m) c (V4 m c) (W4_out m c) (fun b hb => W4_of_ne m c b hb))
    (Entails.of_eq (restG1 (V3 m) c (V4 m c) (fun b hb => W4_of_ne m c b hb)))

/-! ## The proof data family, the thread state, and the two calls as segments -/

/-- Both calls' proof data, each at the contents its call finds. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- Kernel call 0 as a segment of the program: entered with every unscoped buffer at the contents before it, left with
    them at the contents after it; the generator register goes into the call's invariant and comes back; nothing is owed. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    iintro ⟨Hp, -, Hr⟩
    iapply (hin0 (V1 m) c)
    unfold Pipeline.ΦA
    isplitl [Hr]; · iexact Hr
    iexact Hp
  hout c := by
    rw [Pipeline.ownSems0_none, show (pdats m 0 c).Φ (Fin.last _) = (dat0 (V1 m) c).Φ (Fin.last cfg0.N) from rfl]
    iintro H
    ihave H' := (hout0 (V1 m) c) $$ H
    unfold Pipeline.ΦA
    icases H' with ⟨Hr, Hp⟩
    isplitl [Hp]; · iexact Hp
    isplitr; · iempintro
    iexact Hr
  hexit c := by
    show iprop((dat0 (V1 m) c).arrays ((dat0 (V1 m) c).arrAt · cfg0.N) ∗ (dat0 (V1 m) c).owesAt () (Fin.last cfg0.N) ∗ _ ∗ _) ⊢ _
    iintro ⟨Ha, HO, HY, Hrest⟩
    imodintro
    isplitl [Ha Hrest]
    · iapply (exit0 m c); isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel call 1 as a segment of the program: entered with every unscoped buffer at the contents before it, left with
    them at the contents after it; the generator register goes into the call's invariant and comes back; nothing is owed. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    iintro ⟨Hp, -, Hr⟩
    iapply (hin1 (V3 m) c)
    unfold Pipeline.ΦA
    isplitl [Hr]; · iexact Hr
    iexact Hp
  hout c := by
    rw [Pipeline.ownSems0_none, show (pdats m 1 c).Φ (Fin.last _) = (dat1 (V3 m) c).Φ (Fin.last cfg1.N) from rfl]
    iintro H
    ihave H' := (hout1 (V3 m) c) $$ H
    unfold Pipeline.ΦA
    icases H' with ⟨Hr, Hp⟩
    isplitl [Hp]; · iexact Hp
    isplitr; · iempintro
    iexact Hr
  hexit c := by
    show iprop((dat1 (V3 m) c).arrays ((dat1 (V3 m) c).arrAt · cfg1.N) ∗ (dat1 (V3 m) c).owesAt () (Fin.last cfg1.N) ∗ _ ∗ _) ⊢ _
    iintro ⟨Ha, HO, HY, Hrest⟩
    imodintro
    isplitl [Ha Hrest]
    · iapply (exit1 m c); isplitl [Ha] <;> iassumption
    isplitl [HY]; · iexact HY
    unfold Pipeline.Dat.owesAt Pipeline.owesWithin
    icases HO with ⟨%W, -, HO⟩; iexists W; iexact HO

/-- The program's four segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing faulting,
    and every unscoped buffer of every core ends at the last boundary's contents: the arguments as launched, the result
    array at what kernel call 1's write-backs leave. -/
theorem run_full : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show iprop(StableHlo.held (c : Thread nD τ) (Pipeline.ucRefs τ sig) (W4 m c) ∗ R c) ⊢ _
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.KB.Frames.lean ====
import proofs.«117494_j19645180411919_1_alg».proof.Proof.KB.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched, and the frame -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that neither host stretch writes and that is neither call's output reaches the end as launched. -/
theorem W4_kept (c : Dev nD) (b : Ref sig .tc) (h0 : b ∉ (hostOps0_W : List (Ref sig .tc))) (h1 : b ∉ (hostOps1_W : List (Ref sig .tc)))
    (h20 : b ≠ main_v20) (h41 : b ≠ main_v41) : W4 m c (Proc.devRef .tc b) = m ((c : Thread nD τ).loc b) :=
  (W4_of_ne m c b h41).trans <| (StableHlo.after_of_writes_sub hostOps1 _ hostOps1_writes h1).trans <|
    (W2_of_ne m c b h20).trans <| (StableHlo.after_of_writes_sub hostOps0 _ hostOps0_writes h0).trans rfl

/-- The result array ends at what kernel call 1's write-backs leave. -/
theorem W4_result (c : Dev nD) : W4 m c (Proc.devRef .tc main_v41) = (dat1 (V3 m) c).arrAt 8 cfg1.N := W4_out m c

/-- THE FRAME: every weakly fair execution terminates, nothing faulting, and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide))⟩) (run_full m ρ)

end Cert.Kernel.Hand

end
-- ==== Proof.KI.Conds0.lean ====
import proofs.«117494_j19645180411919_1_alg».proof.Proof.Gen.KernelIdeal.Launch
import proofs.«117494_j19645180411919_1_alg».proof.Proof.Gen.KernelIdeal.Skeleton
import proofs.«117494_j19645180411919_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the layer kernel's body, as propositions over a grid point

The body resets its running sum when the third grid coordinate (the tile of neighbours) is 0, and writes the
node block out when it is 3, the last tile. -/

/-- The reset condition: the neighbour-tile coordinate is 0. -/
abbrev cond0_0 (i : grid0.Coords) : Prop := (Scalar.cmpi .ne (Scalar.extui (Scalar.cmpi .eq (BitVec.ofNat 32 (i 2).val) 0#32)) 0#32) = 1#1
/-- The write-out condition: the neighbour-tile coordinate is 3. -/
abbrev cond0_1 (i : grid0.Coords) : Prop := k0_cond2 i = 1#1

end Cert.KernelIdeal.Hand

end
-- ==== Proof.KI.Run0A.lean ====
import proofs.«117494_j19645180411919_1_alg».proof.Proof.KI.Conds0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first tile of a node block: the scratch, whatever it held, is set to zero and then to zero plus this tile's
    masked messages; nothing is stored into the output block. -/
noncomputable def kernelRun0_A (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : cond0_0 i) (hc1 : ¬cond0_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) :
    Σ' (L8 : List (View.Piece (Elt F) S1x64x128 .f32)), { LS0 : List (View.Piece (Elt F) S64x128 .f32) //
      ∀ (xi8 : Vec F S1x64x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ f, arg12.view.loc (c : Thread nD τ) ↦[arg12.view.set]{fullShare} arg12.view.writes (Elt F) f LS0)) -∗ K ⟨⟩))
          ⊢ wp frame (wpE (defs₀ (F := F)) Variants.none c none) E (cc0__gnn_layer_kernel i arg3 harg3 arg4 harg4 arg5 harg5 arg6 harg6 arg7 harg7 arg8 harg8 arg9 harg9 arg10 harg10 arg11 harg11 arg12 harg12) K } := by
  refine ⟨[], ?_, fun xi8 E K => ?run⟩
  case run =>
    simp only [cc0__gnn_layer_kernel_eq_skeleton]; unfold cc0__gnn_layer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    iexists _; iexact HS0

end Cert.KernelIdeal.Hand

end
-- ==== Proof.KI.Run0B.lean ====
import proofs.«117494_j19645180411919_1_alg».proof.Proof.KI.Conds0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle tile (neither first nor last): the running sum found in the scratch is replaced by itself plus this
    tile's masked messages; nothing is stored into the output block. -/
noncomputable def kernelRun0_B (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond0_0 i) (hc1 : ¬cond0_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) :
    Σ' (L8 : List (View.Piece (Elt F) S1x64x128 .f32)), { LS0 : List (View.Piece (Elt F) S64x128 .f32) //
      ∀ (xi8 : Vec F S1x64x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ f, arg12.view.loc (c : Thread nD τ) ↦[arg12.view.set]{fullShare} arg12.view.writes (Elt F) f LS0)) -∗ K ⟨⟩))
          ⊢ wp frame (wpE (defs₀ (F := F)) Variants.none c none) E (cc0__gnn_layer_kernel i arg3 harg3 arg4 harg4 arg5 harg5 arg6 harg6 arg7 harg7 arg8 harg8 arg9 harg9 arg10 harg10 arg11 harg11 arg12 harg12) K } := by
  refine ⟨[], ?_, fun xi8 E K => ?run⟩
  case run =>
    simp only [cc0__gnn_layer_kernel_eq_skeleton]; unfold cc0__gnn_layer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    iexists _; iexact HS0

end Cert.KernelIdeal.Hand

end
-- ==== Proof.KI.Run0C.lean ====
import proofs.«117494_j19645180411919_1_alg».proof.Proof.KI.Conds0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last tile of a node block: the running sum is replaced by itself plus this tile's masked messages, and the
    output block is stored whole as the node features plus that final sum. -/
noncomputable def kernelRun0_C (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond0_0 i) (hc1 : cond0_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) :
    Σ' (L8 : List (View.Piece (Elt F) S1x64x128 .f32)), { LS0 : List (View.Piece (Elt F) S64x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0)) -∗ K ⟨⟩))
          ⊢ wp frame (wpE (defs₀ (F := F)) Variants.none c none) E (cc0__gnn_layer_kernel i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__gnn_layer_kernel_eq_skeleton]; unfold cc0__gnn_layer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexists _; iexact HS0

end Cert.KernelIdeal.Hand

end
-- ==== Proof.KI.Frame0.lean ====
import proofs.«117494_j19645180411919_1_alg».proof.Proof.KI.Run0A
import proofs.«117494_j19645180411919_1_alg».proof.Proof.KI.Run0B
import proofs.«117494_j19645180411919_1_alg».proof.Proof.KI.Run0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body finds -/

/-- Window w's block at grid point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: when no fetch happens the
    block index has not moved since the last one. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not: when no fetch happens the
    block index has not moved since the last one. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not: when no fetch happens the
    block index has not moved since the last one. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not: when no fetch happens the
    block index has not moved since the last one. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not: when no fetch happens the
    block index has not moved since the last one. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not: when no fetch happens the
    block index has not moved since the last one. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or not: when no fetch happens the
    block index has not moved since the last one. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's staging buffer holds its block at every point, fetched there or not: when no fetch happens the
    block index has not moved since the last one. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions over the grid, and where the output window is idle

The grid is (batch, node tile, neighbour tile) = (4, 8, 4) in row-major order, so the neighbour tile of point t is
t mod 4. -/

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Unless the neighbour tile is the last, the body stores nothing into the output block and the block is not written back. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

/-! ## The memrefs the body is called with -/

abbrev VO0_8 : View sig .tc .vmem S1x64x128 .f32 := (Memref.whole cc0_stg8_0 : Memref sig .tc .vmem S1x64x128 .f32).view
abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)
abbrev ms0_7 (t : Fin cfg0.N) := win0_7.stage (cfg0.slots t 7)
abbrev hs0_7 (t : Fin cfg0.N) : (ms0_7 t).IsWhole := hstage0_7 ((cfg0.slots t 7).cast nbuf0_7)
abbrev ms0_8 (t : Fin cfg0.N) := win0_8.stage (cfg0.slots t 8)
abbrev hs0_8 (t : Fin cfg0.N) : (ms0_8 t).IsWhole := hstage0_8 ((cfg0.slots t 8).cast nbuf0_8)
/-- The running sum's scratch buffer. -/
abbrev scM0_0 : Memref sig .tc .vmem S64x128 .f32 := Memref.whole cc0_scratch0
abbrev VS0_0 : View sig .tc .vmem S64x128 .f32 := scM0_0.view

/-- What the call's invariant holds besides the staging buffers: every other scoped buffer of the core at some
    contents (the running sum's scratch among them) and the generator register at some state. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, owns_whole]; try rfl

/-! ## What each case leaves, read back from the run's stores -/

theorem scover0_A_0 (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : cond0_0 i) (hc1 : ¬cond0_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (y : S64x128.Idx) :
    ∃ pc ∈ (kernelRun0_A c i arg3 harg3 arg4 harg4 arg5 harg5 arg6 harg6 arg7 harg7 arg8 harg8 arg9 harg9 arg10 harg10 arg11 harg11 arg12 harg12 hc0 hc1 x0 x1 x2 x3 x4 x5 x6 x7).2.1, y ∈ pc.1.set :=
  View.cover_of_tiledL (kernelRun0_A c i arg3 harg3 arg4 harg4 arg5 harg5 arg6 harg6 arg7 harg7 arg8 harg8 arg9 harg9 arg10 harg10 arg11 harg11 arg12 harg12 hc0 hc1 x0 x1 x2 x3 x4 x5 x6 x7).2.1 S64x128.size (by sl_kernel_rfl) y
theorem scover0_B_0 (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond0_0 i) (hc1 : ¬cond0_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) (y : S64x128.Idx) :
    ∃ pc ∈ (kernelRun0_B c i arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL (kernelRun0_B c i arg3 harg3 arg4 harg4 arg5 harg5 arg6 harg6 arg7 harg7 arg8 harg8 arg9 harg9 arg10 harg10 arg11 harg11 arg12 harg12 hc0 hc1 x0 x1 x2 x3 x4 x5 x6 x7 xs0).2.1 S64x128.size (by sl_kernel_rfl) y
theorem scover0_C_0 (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond0_0 i) (hc1 : cond0_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) (y : S64x128.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 x4 x5 x6 x7 xs0).2.1 S64x128.size (by sl_kernel_rfl) y
theorem cover0_C_8 (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond0_0 i) (hc1 : cond0_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) (y : S1x64x128.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 x4 x5 x6 x7 xs0).1 S1x64x128.size (by sl_kernel_rfl) y

/-- The running sum after a first tile. -/
def sout0_A (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : cond0_0 i) (hc1 : ¬cond0_1 i) (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) : Vec F S64x128 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 hc0 hc1 x0 x1 x2 x3 x4 x5 x6 x7).2.1)
/-- The running sum after a middle tile, from the sum before it. -/
def sout0_B (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond0_0 i) (hc1 : ¬cond0_1 i) (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) : Vec F S64x128 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 hc0 hc1 x0 x1 x2 x3 x4 x5 x6 x7 xs0).2.1)
/-- The running sum after the last tile, from the sum before it. -/
def sout0_C (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond0_0 i) (hc1 : cond0_1 i) (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) : Vec F S64x128 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 hc0 hc1 x0 x1 x2 x3 x4 x5 x6 x7 xs0).2.1)
/-- The output block stored at the last tile. -/
def out0_C (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond0_0 i) (hc1 : cond0_1 i) (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) : Vec F S1x64x128 .f32 :=
  VO0_8.read (Elt F) (VO0_8.writes (Elt F) VO0_8.junk (kernelRun0_C c i arg3 harg3 arg4 harg4 arg5 harg5 arg6 harg6 arg7 harg7 arg8 harg8 arg9 harg9 arg10 harg10 arg11 harg11 arg12 harg12 hc0 hc1 x0 x1 x2 x3 x4 x5 x6 x7 xs0).1)

/-! ## The accumulation over the grid points -/

/-- What the output's staging buffer and the running-sum scratch hold after the body at point n: by the neighbour tile
    n mod 4, a first tile starts the sum afresh, a later one continues from what the point before left. Where the
    output block is not stored (every tile but the last) its component is a placeholder nothing consults. -/
def outsAt0 (c : Dev nD) : (n : ℕ) → n < cfg0.N → Vec F S1x64x128 .f32 × Vec F S64x128 .f32
  | 0, hn => (VO0_8.read (Elt F) VO0_8.junk, (fun (t : Fin cfg0.N) (h0 : t.val % 4 = 0) (h1 : ¬t.val % 4 = 3) => sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)) ⟨0, hn⟩ (Nat.zero_mod _) (show ¬(0 % 4 = 3) from by decide))
  | n + 1, hn =>
    if h0 : (n + 1) % 4 = 0 then
      (VO0_8.read (Elt F) VO0_8.junk, (fun (t : Fin cfg0.N) (h0 : t.val % 4 = 0) (h1 : ¬t.val % 4 = 3) => sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)) ⟨n + 1, hn⟩ h0 (show ¬((n + 1) % 4 = 3) from by omega))
    else if h1 : (n + 1) % 4 = 3 then
      ((fun (t : Fin cfg0.N) (h0 : ¬t.val % 4 = 0) (h1 : t.val % 4 = 3) (xs : Vec F S64x128 .f32) => out0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) xs) ⟨n + 1, hn⟩ h0 h1 (outsAt0 c n (Nat.lt_of_succ_lt hn)).2,
       (fun (t : Fin cfg0.N) (h0 : ¬t.val % 4 = 0) (h1 : t.val % 4 = 3) (xs : Vec F S64x128 .f32) => sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) xs) ⟨n + 1, hn⟩ h0 h1 (outsAt0 c n (Nat.lt_of_succ_lt hn)).2)
    else
      (VO0_8.read (Elt F) VO0_8.junk, (fun (t : Fin cfg0.N) (h0 : ¬t.val % 4 = 0) (h1 : ¬t.val % 4 = 3) (xs : Vec F S64x128 .f32) => sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) xs) ⟨n + 1, hn⟩ h0 h1 (outsAt0 c n (Nat.lt_of_succ_lt hn)).2)

theorem outsAt0_A (c : Dev nD) (t : Fin cfg0.N) (h0 : t.val % 4 = 0) (h1 : ¬t.val % 4 = 3) :
    (outsAt0 V c t.val t.isLt).2 = sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) := by
  obtain ⟨n, hn⟩ := t
  cases n with
  | zero => rfl
  | succ n => exact congrArg Prod.snd ((dif_pos h0 : outsAt0 V c (n + 1) hn = _))

theorem outsAt0_B (c : Dev nD) (t : Fin cfg0.N) (h0 : ¬t.val % 4 = 0) (h1 : ¬t.val % 4 = 3) :
    (outsAt0 V c t.val t.isLt).2 = sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2 := by
  obtain ⟨n, hn⟩ := t
  cases n with
  | zero => exact absurd (Nat.zero_mod _) h0
  | succ n => exact congrArg Prod.snd (((dif_neg h0).trans (dif_neg h1) : outsAt0 V c (n + 1) hn = _))

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2) := by
  obtain ⟨n, hn⟩ := t
  cases n with
  | zero => exact absurd (Nat.zero_mod _) h0
  | succ n => exact ((dif_neg h0).trans (dif_pos h1) : outsAt0 V c (n + 1) hn = _)

/-- The call's invariant before position n: before the first point every scoped buffer at anything; afterwards the
    running-sum scratch at what the point before left, the other scoped buffers at anything; the generator register at
    some state throughout. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f)) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f)) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f)) ∗ (∃ r, prngReg c r)) := by
  cases n with
  | zero => exact absurd rfl hz
  | succ n => rfl

/-! ## The proof data of the call -/

/-- The arrays as the call finds them; after the body each input's buffer at its block, the output's at what the
    accumulation says; the two windows on the node-feature array hold half of it each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t.val t.isLt).1
  Φ t := PhiS0 V c t.val (Nat.le_of_lt_succ t.isLt)
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 8000000 in
/-- The body at any grid point: the inputs' buffers hold their blocks; the neighbour tile decides the case; the invariant
    hands the body the running sum the point before left (anything, at a first tile) and takes back this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  by_cases h0 : t.val % 4 = 0
  · have h1 : ¬t.val % 4 = 3 := by omega
    rw [Dat.leavesExact_idle (dat0 V c) 8 t (idleAt0_8 t (fun h => h1 ((hcond0_1 t).mp h))) (noFlush0_8 t (fun h => h1 ((hcond0_1 t).mp h)))]
    rw [outsAt0_A V c t h0 h1]
    unfold sout0_A; (try dsimp only)
    by_cases hz : t.val = 0
    ·
      rw [PhiS0_castSucc V c t, PhiS0_zero V c _ _ hz, PhiA0_eq]
      iintro ⟨⟨⟨HS0, R1, R2, R3, R4, R5, R6, R7, R8, R9, R10, R11, R12, R13, R14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, ⟨%es0, HS0⟩⟩
      isplitl [HS0 R1 R2 R3 R4 R5 R6 R7 R8 R9 R10 R11 R12 R13 R14 Hg]
      · isplitl [HS0 R1 R2 R3 R4 R5 R6 R7 R8 R9 R10 R11 R12 R13 R14]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          isplitl [R1]
          · iexact R1
          isplitl [R2]
          · iexact R2
          isplitl [R3]
          · iexact R3
          isplitl [R4]
          · iexact R4
          isplitl [R5]
          · iexact R5
          isplitl [R6]
          · iexact R6
          isplitl [R7]
          · iexact R7
          isplitl [R8]
          · iexact R8
          isplitl [R9]
          · iexact R9
          isplitl [R10]
          · iexact R10
          isplitl [R11]
          · iexact R11
          isplitl [R12]
          · iexact R12
          isplitl [R13]
          · iexact R13
          iexact R14
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    ·
      rw [PhiS0_castSucc V c t, PhiS0_pos V c _ _ hz]
      iintro ⟨⟨⟨HS0, R1, R2, R3, R4, R5, R6, R7, R8, R9, R10, R11, R12, R13, R14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexists _; iexact HS0
      iintro ⟨H0, H1, H2, H3, H4, H5, H6, H7, H8, ⟨%es0, HS0⟩⟩
      isplitl [HS0 R1 R2 R3 R4 R5 R6 R7 R8 R9 R10 R11 R12 R13 R14 Hg]
      · isplitl [HS0 R1 R2 R3 R4 R5 R6 R7 R8 R9 R10 R11 R12 R13 R14]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          isplitl [R1]
          · iexact R1
          isplitl [R2]
          · iexact R2
          isplitl [R3]
          · iexact R3
          isplitl [R4]
          · iexact R4
          isplitl [R5]
          · iexact R5
          isplitl [R6]
          · iexact R6
          isplitl [R7]
          · iexact R7
          isplitl [R8]
          · iexact R8
          isplitl [R9]
          · iexact R9
          isplitl [R10]
          · iexact R10
          isplitl [R11]
          · iexact R11
          isplitl [R12]
          · iexact R12
          isplitl [R13]
          · iexact R13
          iexact R14
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz : t.val ≠ 0 := fun e => h0 (by rw [e])
    by_cases h1 : t.val % 4 = 3
    · rw [show (dat0 V c).leavesExact 8 t = owns (c : Thread nD τ) (ms0_8 t) fullShare ((dat0 V c).after 8 t) from by
        unfold Dat.leavesExact; rw [liveAt0_8 t ((hcond0_1 t).mpr h1)], after0_8]
      rw [outsAt0_C V c t h0 h1]
      unfold out0_C sout0_C; (try dsimp only)
      rw [PhiS0_castSucc V c t, PhiS0_pos V c _ _ hz]
      iintro ⟨⟨⟨HS0, R1, R2, R3, R4, R5, R6, R7, R8, R9, R10, R11, R12, R13, R14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 R1 R2 R3 R4 R5 R6 R7 R8 R9 R10 R11 R12 R13 R14 Hg]
      · isplitl [HS0 R1 R2 R3 R4 R5 R6 R7 R8 R9 R10 R11 R12 R13 R14]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _)
          isplitl [R1]
          · iexact R1
          isplitl [R2]
          · iexact R2
          isplitl [R3]
          · iexact R3
          isplitl [R4]
          · iexact R4
          isplitl [R5]
          · iexact R5
          isplitl [R6]
          · iexact R6
          isplitl [R7]
          · iexact R7
          isplitl [R8]
          · iexact R8
          isplitl [R9]
          · iexact R9
          isplitl [R10]
          · iexact R10
          isplitl [R11]
          · iexact R11
          isplitl [R12]
          · iexact R12
          isplitl [R13]
          · iexact R13
          iexact R14
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _)
    · rw [Dat.leavesExact_idle (dat0 V c) 8 t (idleAt0_8 t (fun h => h1 ((hcond0_1 t).mp h))) (noFlush0_8 t (fun h => h1 ((hcond0_1 t).mp h)))]
      rw [outsAt0_B V c t h0 h1]
      unfold sout0_B; (try dsimp only)
      rw [PhiS0_castSucc V c t, PhiS0_pos V c _ _ hz]
      iintro ⟨⟨⟨HS0, R1, R2, R3, R4, R5, R6, R7, R8, R9, R10, R11, R12, R13, R14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, ⟨%es0, HS0⟩⟩
      isplitl [HS0 R1 R2 R3 R4 R5 R6 R7 R8 R9 R10 R11 R12 R13 R14 Hg]
      · isplitl [HS0 R1 R2 R3 R4 R5 R6 R7 R8 R9 R10 R11 R12 R13 R14]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _)
          isplitl [R1]
          · iexact R1
          isplitl [R2]
          · iexact R2
          isplitl [R3]
          · iexact R3
          isplitl [R4]
          · iexact R4
          isplitl [R5]
          · iexact R5
          isplitl [R6]
          · iexact R6
          isplitl [R7]
          · iexact R7
          isplitl [R8]
          · iexact R8
          isplitl [R9]
          · iexact R9
          isplitl [R10]
          · iexact R10
          isplitl [R11]
          · iexact R11
          isplitl [R12]
          · iexact R12
          isplitl [R13]
          · iexact R13
          iexact R14
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives every scoped buffer back at some contents. -/
theorem hout0 (c : Dev nD) : (dat0 V c).Φ (Fin.last cfg0.N) ⊢ Pipeline.ΦA spec0 c := by
  have ht : (Fin.last cfg0.N).val ≠ 0 := by rw [Fin.val_last]; have : cfg0.N = 128 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, R1, R2, R3, R4, R5, R6, R7, R8, R9, R10, R11, R12, R13, R14⟩, Hg⟩
  isplitl [HS0 R1 R2 R3 R4 R5 R6 R7 R8 R9 R10 R11 R12 R13 R14]
  · isplitl [HS0]
    · iexists _; iexact HS0
    isplitl [R1]
    · iexact R1
    isplitl [R2]
    · iexact R2
    isplitl [R3]
    · iexact R3
    isplitl [R4]
    · iexact R4
    isplitl [R5]
    · iexact R5
    isplitl [R6]
    · iexact R6
    isplitl [R7]
    · iexact R7
    isplitl [R8]
    · iexact R8
    isplitl [R9]
    · iexact R9
    isplitl [R10]
    · iexact R10
    isplitl [R11]
    · iexact R11
    isplitl [R12]
    · iexact R12
    isplitl [R13]
    · iexact R13
    iexact R14
  iexact Hg

end Cert.KernelIdeal.Hand

end
-- ==== Proof.KI.Conds1.lean ====
import proofs.«117494_j19645180411919_1_alg».proof.Proof.Gen.KernelIdeal.Launch
import proofs.«117494_j19645180411919_1_alg».proof.Proof.Gen.KernelIdeal.Skeleton
import proofs.«117494_j19645180411919_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the layer kernel's body, as propositions over a grid point

The body resets its running sum when the third grid coordinate (the tile of neighbours) is 0, and writes the
node block out when it is 3, the last tile. -/

/-- The reset condition: the neighbour-tile coordinate is 0. -/
abbrev cond1_0 (i : grid1.Coords) : Prop := (Scalar.cmpi .ne (Scalar.extui (Scalar.cmpi .eq (BitVec.ofNat 32 (i 2).val) 0#32)) 0#32) = 1#1
/-- The write-out condition: the neighbour-tile coordinate is 3. -/
abbrev cond1_1 (i : grid1.Coords) : Prop := k1_cond2 i = 1#1

end Cert.KernelIdeal.Hand

end
-- ==== Proof.KI.Run1A.lean ====
import proofs.«117494_j19645180411919_1_alg».proof.Proof.KI.Conds1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first tile of a node block: the scratch, whatever it held, is set to zero and then to zero plus this tile's
    masked messages; nothing is stored into the output block. -/
noncomputable def kernelRun1_A (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : cond1_0 i) (hc1 : ¬cond1_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) :
    Σ' (L8 : List (View.Piece (Elt F) S1x64x128 .f32)), { LS0 : List (View.Piece (Elt F) S64x128 .f32) //
      ∀ (xi8 : Vec F S1x64x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ f, arg12.view.loc (c : Thread nD τ) ↦[arg12.view.set]{fullShare} arg12.view.writes (Elt F) f LS0)) -∗ K ⟨⟩))
          ⊢ wp frame (wpE (defs₀ (F := F)) Variants.none c none) E (cc1__gnn_layer_kernel i arg3 harg3 arg4 harg4 arg5 harg5 arg6 harg6 arg7 harg7 arg8 harg8 arg9 harg9 arg10 harg10 arg11 harg11 arg12 harg12) K } := by
  refine ⟨[], ?_, fun xi8 E K => ?run⟩
  case run =>
    simp only [cc1__gnn_layer_kernel_eq_skeleton]; unfold cc1__gnn_layer_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    iexists _; iexact HS0

end Cert.KernelIdeal.Hand

end
-- ==== Proof.KI.Run1B.lean ====
import proofs.«117494_j19645180411919_1_alg».proof.Proof.KI.Conds1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle tile (neither first nor last): the running sum found in the scratch is replaced by itself plus this
    tile's masked messages; nothing is stored into the output block. -/
noncomputable def kernelRun1_B (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond1_0 i) (hc1 : ¬cond1_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) :
    Σ' (L8 : List (View.Piece (Elt F) S1x64x128 .f32)), { LS0 : List (View.Piece (Elt F) S64x128 .f32) //
      ∀ (xi8 : Vec F S1x64x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ f, arg12.view.loc (c : Thread nD τ) ↦[arg12.view.set]{fullShare} arg12.view.writes (Elt F) f LS0)) -∗ K ⟨⟩))
          ⊢ wp frame (wpE (defs₀ (F := F)) Variants.none c none) E (cc1__gnn_layer_kernel i arg3 harg3 arg4 harg4 arg5 harg5 arg6 harg6 arg7 harg7 arg8 harg8 arg9 harg9 arg10 harg10 arg11 harg11 arg12 harg12) K } := by
  refine ⟨[], ?_, fun xi8 E K => ?run⟩
  case run =>
    simp only [cc1__gnn_layer_kernel_eq_skeleton]; unfold cc1__gnn_layer_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    iexists _; iexact HS0

end Cert.KernelIdeal.Hand

end
-- ==== Proof.KI.Run1C.lean ====
import proofs.«117494_j19645180411919_1_alg».proof.Proof.KI.Conds1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last tile of a node block: the running sum is replaced by itself plus this tile's masked messages, and the
    output block is stored whole as the node features plus that final sum. -/
noncomputable def kernelRun1_C (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond1_0 i) (hc1 : cond1_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) :
    Σ' (L8 : List (View.Piece (Elt F) S1x64x128 .f32)), { LS0 : List (View.Piece (Elt F) S64x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0)) -∗ K ⟨⟩))
          ⊢ wp frame (wpE (defs₀ (F := F)) Variants.none c none) E (cc1__gnn_layer_kernel i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__gnn_layer_kernel_eq_skeleton]; unfold cc1__gnn_layer_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexists _; iexact HS0

end Cert.KernelIdeal.Hand

end
-- ==== Proof.KI.Frame1.lean ====
import proofs.«117494_j19645180411919_1_alg».proof.Proof.KI.Run1A
import proofs.«117494_j19645180411919_1_alg».proof.Proof.KI.Run1B
import proofs.«117494_j19645180411919_1_alg».proof.Proof.KI.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body finds -/

/-- Window w's block at grid point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: when no fetch happens the
    block index has not moved since the last one. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not: when no fetch happens the
    block index has not moved since the last one. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not: when no fetch happens the
    block index has not moved since the last one. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not: when no fetch happens the
    block index has not moved since the last one. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not: when no fetch happens the
    block index has not moved since the last one. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, fetched there or not: when no fetch happens the
    block index has not moved since the last one. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point, fetched there or not: when no fetch happens the
    block index has not moved since the last one. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's staging buffer holds its block at every point, fetched there or not: when no fetch happens the
    block index has not moved since the last one. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions over the grid, and where the output window is idle

The grid is (batch, node tile, neighbour tile) = (4, 8, 4) in row-major order, so the neighbour tile of point t is
t mod 4. -/

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- Unless the neighbour tile is the last, the body stores nothing into the output block and the block is not written back. -/
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
theorem liveAt1_8 : ∀ t : Fin cfg1.N, cond1_1 (grid1.coords t) → cfg1.idle 8 (grid1.coords t) = false := by decide +kernel

/-! ## The memrefs the body is called with -/

abbrev VO1_8 : View sig .tc .vmem S1x64x128 .f32 := (Memref.whole cc1_stg8_0 : Memref sig .tc .vmem S1x64x128 .f32).view
abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)
abbrev ms1_7 (t : Fin cfg1.N) := win1_7.stage (cfg1.slots t 7)
abbrev hs1_7 (t : Fin cfg1.N) : (ms1_7 t).IsWhole := hstage1_7 ((cfg1.slots t 7).cast nbuf1_7)
abbrev ms1_8 (t : Fin cfg1.N) := win1_8.stage (cfg1.slots t 8)
abbrev hs1_8 (t : Fin cfg1.N) : (ms1_8 t).IsWhole := hstage1_8 ((cfg1.slots t 8).cast nbuf1_8)
/-- The running sum's scratch buffer. -/
abbrev scM1_0 : Memref sig .tc .vmem S64x128 .f32 := Memref.whole cc1_scratch0
abbrev VS1_0 : View sig .tc .vmem S64x128 .f32 := scM1_0.view

/-- What the call's invariant holds besides the staging buffers: every other scoped buffer of the core at some
    contents (the running sum's scratch among them) and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## What each case leaves, read back from the run's stores -/

theorem scover1_A_0 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : cond1_0 i) (hc1 : ¬cond1_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (y : S64x128.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5 x6 x7).2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5 x6 x7).2.1 S64x128.size (by sl_kernel_rfl) y
theorem scover1_B_0 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond1_0 i) (hc1 : ¬cond1_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) (y : S64x128.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 x6 x7 xs0).2.1 S64x128.size (by sl_kernel_rfl) y
theorem scover1_C_0 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond1_0 i) (hc1 : cond1_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) (y : S64x128.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 x6 x7 xs0).2.1 S64x128.size (by sl_kernel_rfl) y
theorem cover1_C_8 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond1_0 i) (hc1 : cond1_1 i)
    (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) (y : S1x64x128.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 x6 x7 xs0).1 S1x64x128.size (by sl_kernel_rfl) y

/-- The running sum after a first tile. -/
def sout1_A (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : cond1_0 i) (hc1 : ¬cond1_1 i) (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) : Vec F S64x128 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 arg12 harg12 hc0 hc1 x0 x1 x2 x3 x4 x5 x6 x7).2.1)
/-- The running sum after a middle tile, from the sum before it. -/
def sout1_B (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond1_0 i) (hc1 : ¬cond1_1 i) (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) : Vec F S64x128 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 arg12 harg12 hc0 hc1 x0 x1 x2 x3 x4 x5 x6 x7 xs0).2.1)
/-- The running sum after the last tile, from the sum before it. -/
def sout1_C (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond1_0 i) (hc1 : cond1_1 i) (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) : Vec F S64x128 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 arg12 harg12 hc0 hc1 x0 x1 x2 x3 x4 x5 x6 x7 xs0).2.1)
/-- The output block stored at the last tile. -/
def out1_C (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond1_0 i) (hc1 : cond1_1 i) (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) : Vec F S1x64x128 .f32 :=
  VO1_8.read (Elt F) (VO1_8.writes (Elt F) VO1_8.junk (kernelRun1_C c i arg3 harg3 arg4 harg4 arg5 harg5 arg6 harg6 arg7 harg7 arg8 harg8 arg9 harg9 arg10 harg10 arg11 harg11 arg12 harg12 hc0 hc1 x0 x1 x2 x3 x4 x5 x6 x7 xs0).1)

/-! ## The accumulation over the grid points -/

/-- What the output's staging buffer and the running-sum scratch hold after the body at point n: by the neighbour tile
    n mod 4, a first tile starts the sum afresh, a later one continues from what the point before left. Where the
    output block is not stored (every tile but the last) its component is a placeholder nothing consults. -/
def outsAt1 (c : Dev nD) : (n : ℕ) → n < cfg1.N → Vec F S1x64x128 .f32 × Vec F S64x128 .f32
  | 0, hn => (VO1_8.read (Elt F) VO1_8.junk, (fun (t : Fin cfg1.N) (h0 : t.val % 4 = 0) (h1 : ¬t.val % 4 = 3) => sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)) ⟨0, hn⟩ (Nat.zero_mod _) (show ¬(0 % 4 = 3) from by decide))
  | n + 1, hn =>
    if h0 : (n + 1) % 4 = 0 then
      (VO1_8.read (Elt F) VO1_8.junk, (fun (t : Fin cfg1.N) (h0 : t.val % 4 = 0) (h1 : ¬t.val % 4 = 3) => sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)) ⟨n + 1, hn⟩ h0 (show ¬((n + 1) % 4 = 3) from by omega))
    else if h1 : (n + 1) % 4 = 3 then
      ((fun (t : Fin cfg1.N) (h0 : ¬t.val % 4 = 0) (h1 : t.val % 4 = 3) (xs : Vec F S64x128 .f32) => out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) xs) ⟨n + 1, hn⟩ h0 h1 (outsAt1 c n (Nat.lt_of_succ_lt hn)).2,
       (fun (t : Fin cfg1.N) (h0 : ¬t.val % 4 = 0) (h1 : t.val % 4 = 3) (xs : Vec F S64x128 .f32) => sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) xs) ⟨n + 1, hn⟩ h0 h1 (outsAt1 c n (Nat.lt_of_succ_lt hn)).2)
    else
      (VO1_8.read (Elt F) VO1_8.junk, (fun (t : Fin cfg1.N) (h0 : ¬t.val % 4 = 0) (h1 : ¬t.val % 4 = 3) (xs : Vec F S64x128 .f32) => sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) xs) ⟨n + 1, hn⟩ h0 h1 (outsAt1 c n (Nat.lt_of_succ_lt hn)).2)

theorem outsAt1_A (c : Dev nD) (t : Fin cfg1.N) (h0 : t.val % 4 = 0) (h1 : ¬t.val % 4 = 3) :
    (outsAt1 V c t.val t.isLt).2 = sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) := by
  obtain ⟨n, hn⟩ := t
  cases n with
  | zero => rfl
  | succ n => exact congrArg Prod.snd ((dif_pos h0 : outsAt1 V c (n + 1) hn = _))

theorem outsAt1_B (c : Dev nD) (t : Fin cfg1.N) (h0 : ¬t.val % 4 = 0) (h1 : ¬t.val % 4 = 3) :
    (outsAt1 V c t.val t.isLt).2 = sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2 := by
  obtain ⟨n, hn⟩ := t
  cases n with
  | zero => exact absurd (Nat.zero_mod _) h0
  | succ n => exact congrArg Prod.snd (((dif_neg h0).trans (dif_neg h1) : outsAt1 V c (n + 1) hn = _))

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact absurd (Nat.zero_mod _) h0
  | succ n => exact ((dif_neg h0).trans (dif_pos h1) : outsAt1 V c (n + 1) hn = _)

/-- The call's invariant before position n: before the first point every scoped buffer at anything; afterwards the
    running-sum scratch at what the point before left, the other scoped buffers at anything; the generator register at
    some state throughout. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data of the call -/

/-- The arrays as the call finds them; after the body each input's buffer at its block, the output's at what the
    accumulation says; the two windows on the node-feature array hold half of it each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 8000000 in
/-- The body at any grid point: the inputs' buffers hold their blocks; the neighbour tile decides the case; the invariant
    hands the body the running sum the point before left (anything, at a first tile) and takes back this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  by_cases h0 : t.val % 4 = 0
  · have h1 : ¬t.val % 4 = 3 := by omega
    rw [Dat.leavesExact_idle (dat1 V c) 8 t (idleAt1_8 t (fun h => h1 ((hcond1_1 t).mp h))) (noFlush1_8 t (fun h => h1 ((hcond1_1 t).mp h)))]
    rw [outsAt1_A V c t h0 h1]
    unfold sout1_A; (try dsimp only)
    by_cases hz : t.val = 0
    ·
      rw [PhiS1_castSucc V c t, PhiS1_zero V c _ _ hz, PhiA1_eq]
      iintro ⟨⟨⟨R0, R1, R2, R3, R4, R5, R6, R7, R8, R9, R10, R11, R12, R13, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, ⟨%es0, HS0⟩⟩
      isplitl [R0 R1 R2 R3 R4 R5 R6 R7 R8 R9 R10 R11 R12 R13 HS0 Hg]
      · isplitl [R0 R1 R2 R3 R4 R5 R6 R7 R8 R9 R10 R11 R12 R13 HS0]
        · isplitl [R0]
          · iexact R0
          isplitl [R1]
          · iexact R1
          isplitl [R2]
          · iexact R2
          isplitl [R3]
          · iexact R3
          isplitl [R4]
          · iexact R4
          isplitl [R5]
          · iexact R5
          isplitl [R6]
          · iexact R6
          isplitl [R7]
          · iexact R7
          isplitl [R8]
          · iexact R8
          isplitl [R9]
          · iexact R9
          isplitl [R10]
          · iexact R10
          isplitl [R11]
          · iexact R11
          isplitl [R12]
          · iexact R12
          isplitl [R13]
          · iexact R13
          unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    ·
      rw [PhiS1_castSucc V c t, PhiS1_pos V c _ _ hz]
      iintro ⟨⟨⟨R0, R1, R2, R3, R4, R5, R6, R7, R8, R9, R10, R11, R12, R13, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexists _; iexact HS0
      iintro ⟨H0, H1, H2, H3, H4, H5, H6, H7, H8, ⟨%es0, HS0⟩⟩
      isplitl [R0 R1 R2 R3 R4 R5 R6 R7 R8 R9 R10 R11 R12 R13 HS0 Hg]
      · isplitl [R0 R1 R2 R3 R4 R5 R6 R7 R8 R9 R10 R11 R12 R13 HS0]
        · isplitl [R0]
          · iexact R0
          isplitl [R1]
          · iexact R1
          isplitl [R2]
          · iexact R2
          isplitl [R3]
          · iexact R3
          isplitl [R4]
          · iexact R4
          isplitl [R5]
          · iexact R5
          isplitl [R6]
          · iexact R6
          isplitl [R7]
          · iexact R7
          isplitl [R8]
          · iexact R8
          isplitl [R9]
          · iexact R9
          isplitl [R10]
          · iexact R10
          isplitl [R11]
          · iexact R11
          isplitl [R12]
          · iexact R12
          isplitl [R13]
          · iexact R13
          unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz : t.val ≠ 0 := fun e => h0 (by rw [e])
    by_cases h1 : t.val % 4 = 3
    · rw [show (dat1 V c).leavesExact 8 t = owns (c : Thread nD τ) (ms1_8 t) fullShare ((dat1 V c).after 8 t) from by
        unfold Dat.leavesExact; rw [liveAt1_8 t ((hcond1_1 t).mpr h1)], after1_8]
      rw [outsAt1_C V c t h0 h1]
      unfold out1_C sout1_C; (try dsimp only)
      rw [PhiS1_castSucc V c t, PhiS1_pos V c _ _ hz]
      iintro ⟨⟨⟨R0, R1, R2, R3, R4, R5, R6, R7, R8, R9, R10, R11, R12, R13, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [R0 R1 R2 R3 R4 R5 R6 R7 R8 R9 R10 R11 R12 R13 HS0 Hg]
      · isplitl [R0 R1 R2 R3 R4 R5 R6 R7 R8 R9 R10 R11 R12 R13 HS0]
        · isplitl [R0]
          · iexact R0
          isplitl [R1]
          · iexact R1
          isplitl [R2]
          · iexact R2
          isplitl [R3]
          · iexact R3
          isplitl [R4]
          · iexact R4
          isplitl [R5]
          · iexact R5
          isplitl [R6]
          · iexact R6
          isplitl [R7]
          · iexact R7
          isplitl [R8]
          · iexact R8
          isplitl [R9]
          · iexact R9
          isplitl [R10]
          · iexact R10
          isplitl [R11]
          · iexact R11
          isplitl [R12]
          · iexact R12
          isplitl [R13]
          · iexact R13
          unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_C_8 c _ _ _ _ _ _ _ _ _ _ _ _ _ _ _ _ _ _ _ _ _ _ _ _ _ _ _ _ _ _ _ _)
    · rw [Dat.leavesExact_idle (dat1 V c) 8 t (idleAt1_8 t (fun h => h1 ((hcond1_1 t).mp h))) (noFlush1_8 t (fun h => h1 ((hcond1_1 t).mp h)))]
      rw [outsAt1_B V c t h0 h1]
      unfold sout1_B; (try dsimp only)
      rw [PhiS1_castSucc V c t, PhiS1_pos V c _ _ hz]
      iintro ⟨⟨⟨R0, R1, R2, R3, R4, R5, R6, R7, R8, R9, R10, R11, R12, R13, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, ⟨%es0, HS0⟩⟩
      isplitl [R0 R1 R2 R3 R4 R5 R6 R7 R8 R9 R10 R11 R12 R13 HS0 Hg]
      · isplitl [R0 R1 R2 R3 R4 R5 R6 R7 R8 R9 R10 R11 R12 R13 HS0]
        · isplitl [R0]
          · iexact R0
          isplitl [R1]
          · iexact R1
          isplitl [R2]
          · iexact R2
          isplitl [R3]
          · iexact R3
          isplitl [R4]
          · iexact R4
          isplitl [R5]
          · iexact R5
          isplitl [R6]
          · iexact R6
          isplitl [R7]
          · iexact R7
          isplitl [R8]
          · iexact R8
          isplitl [R9]
          · iexact R9
          isplitl [R10]
          · iexact R10
          isplitl [R11]
          · iexact R11
          isplitl [R12]
          · iexact R12
          isplitl [R13]
          · iexact R13
          unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives every scoped buffer back at some contents. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨R0, R1, R2, R3, R4, R5, R6, R7, R8, R9, R10, R11, R12, R13, HS0⟩, Hg⟩
  isplitl [R0 R1 R2 R3 R4 R5 R6 R7 R8 R9 R10 R11 R12 R13 HS0]
  · isplitl [R0]
    · iexact R0
    isplitl [R1]
    · iexact R1
    isplitl [R2]
    · iexact R2
    isplitl [R3]
    · iexact R3
    isplitl [R4]
    · iexact R4
    isplitl [R5]
    · iexact R5
    isplitl [R6]
    · iexact R6
    isplitl [R7]
    · iexact R7
    isplitl [R8]
    · iexact R8
    isplitl [R9]
    · iexact R9
    isplitl [R10]
    · iexact R10
    isplitl [R11]
    · iexact R11
    isplitl [R12]
    · iexact R12
    isplitl [R13]
    · iexact R13
    iexists _; iexact HS0
  iexact Hg

end Cert.KernelIdeal.Hand

end
-- ==== Proof.KI.Regions.lean ====
import proofs.«117494_j19645180411919_1_alg».proof.Proof.KI.Frame0
import proofs.«117494_j19645180411919_1_alg».proof.Proof.KI.Frame1
import proofs.«117494_j19645180411919_1_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! # The whole program: host stretch, kernel call 0, host stretch, kernel call 1

## The buffer contents at each boundary, a fold from the launch memory -/

/-- At launch. -/
abbrev W0 : Dev nD → Valuation τ sig (Elt F) := fun c b => m (c, b)
/-- After the first stretch of host operations (the first layer's weights sliced, transposed and converted). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After kernel call 0: its output array holds what its write-backs leave, everything else is as before. -/
def W2 (c : Dev nD) : Valuation τ sig (Elt F) :=
  Function.update (W1 m c) (Proc.devRef .tc main_v20) ((dat0 (V1 m) c).arrAt 8 cfg0.N)
abbrev V2 : (c : Dev nD) → (b : Ref sig .tc) → Buf (Elt F) ((c : Thread nD τ).loc b) := fun c b => W2 m c b
/-- After the second stretch of host operations (the second layer's weights). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After kernel call 1. -/
def W4 (c : Dev nD) : Valuation τ sig (Elt F) :=
  Function.update (W3 m c) (Proc.devRef .tc main_v41) ((dat1 (V3 m) c).arrAt 8 cfg1.N)
abbrev V4 : (c : Dev nD) → (b : Ref sig .tc) → Buf (Elt F) ((c : Thread nD τ).loc b) := fun c b => W4 m c b

/-! ## Call 0: its arrays out of the core's unscoped buffers and back

The two node-feature windows of the call read ONE array; each holds half of it while the call runs. The facts are stated
for arbitrary contents V, so that nothing about how the contents were computed is ever opened. -/

section
variable (V : (c : Dev nD) → (b : Ref sig .tc) → Buf (Elt F) ((c : Thread nD τ).loc b))

theorem share0_0 (c : Dev nD) : (dat0 (F := F) V c).share 0 = fullShare.left := rfl
theorem share0_1 (c : Dev nD) : (dat0 (F := F) V c).share 1 = fullShare.right := rfl
theorem share0_2 (c : Dev nD) : (dat0 (F := F) V c).share 2 = fullShare := rfl
theorem share0_3 (c : Dev nD) : (dat0 (F := F) V c).share 3 = fullShare := rfl
theorem share0_4 (c : Dev nD) : (dat0 (F := F) V c).share 4 = fullShare := rfl
theorem share0_5 (c : Dev nD) : (dat0 (F := F) V c).share 5 = fullShare := rfl
theorem share0_6 (c : Dev nD) : (dat0 (F := F) V c).share 6 = fullShare := rfl
theorem share0_7 (c : Dev nD) : (dat0 (F := F) V c).share 7 = fullShare := rfl
theorem share0_8 (c : Dev nD) : (dat0 (F := F) V c).share 8 = fullShare := rfl

/-- The call's arrays, window by window, each a whole buffer at its window's share. -/
theorem arrays0_eq (c : Dev nD) (G : (w : Fin cfg0.W) → Buf (Elt F) ((cfg0.win w).arr.view.loc (c : Thread nD τ))) :
    ((dat0 (F := F) V c).arrays G : sProp 𝕄)
      = iprop((((c : Thread nD τ).loc main_arg0) ↦{fullShare.left} G 0) ∗ (((c : Thread nD τ).loc main_arg0) ↦{fullShare.right} G 1) ∗ (((c : Thread nD τ).loc main_arg1) ↦{fullShare} G 2) ∗ (((c : Thread nD τ).loc main_v7) ↦{fullShare} G 3) ∗ (((c : Thread nD τ).loc main_v9) ↦{fullShare} G 4) ∗ (((c : Thread nD τ).loc main_v16) ↦{fullShare} G 5) ∗ (((c : Thread nD τ).loc main_v13) ↦{fullShare} G 6) ∗ (((c : Thread nD τ).loc main_v19) ↦{fullShare} G 7) ∗ (((c : Thread nD τ).loc main_v20) ↦{fullShare} G 8)) := by
  unfold Dat.arrays
  rw [bigSep_W0]
  simp only [share0_0, share0_1, share0_2, share0_3, share0_4, share0_5, share0_6, share0_7, share0_8, (arr_whole0 0).set_eq_univ, (arr_whole0 1).set_eq_univ, (arr_whole0 2).set_eq_univ, (arr_whole0 3).set_eq_univ, (arr_whole0 4).set_eq_univ, (arr_whole0 5).set_eq_univ, (arr_whole0 6).set_eq_univ, (arr_whole0 7).set_eq_univ, (arr_whole0 8).set_eq_univ]

/-- The distinct buffers behind the call's windows, one by one. -/
theorem arrBufs0_eq (c : Dev nD) (U : (b : Ref sig .tc) → Buf (Elt F) ((c : Thread nD τ).loc b)) :
    (Pipeline.arrBufs (Ix := Unit) (Name := ℕ) (U := UR sig nD τ) (Lvl := ℕ) spec0 c U : sProp 𝕄)
      = iprop((((c : Thread nD τ).loc main_arg0) ↦{fullShare} U main_arg0) ∗ (((c : Thread nD τ).loc main_arg1) ↦{fullShare} U main_arg1) ∗ (((c : Thread nD τ).loc main_v7) ↦{fullShare} U main_v7) ∗ (((c : Thread nD τ).loc main_v9) ↦{fullShare} U main_v9) ∗ (((c : Thread nD τ).loc main_v16) ↦{fullShare} U main_v16) ∗ (((c : Thread nD τ).loc main_v13) ↦{fullShare} U main_v13) ∗ (((c : Thread nD τ).loc main_v19) ↦{fullShare} U main_v19) ∗ (((c : Thread nD τ).loc main_v20) ↦{fullShare} U main_v20)) := by
  unfold Pipeline.arrBufs
  rw [bigSep_eq_bigSepL_of_eq [main_arg0, main_arg1, main_v7, main_v9, main_v16, main_v13, main_v19, main_v20] (by decide) (by decide)]
  rfl

set_option maxHeartbeats 2000000 in
/-- ENTRY: the buffers behind the windows, each whole, are the call's arrays: the node-feature array split in two halves
    between its two windows. -/
theorem entryG0 (c : Dev nD) :
    (Pipeline.arrBufs (Ix := Unit) (Name := ℕ) (U := UR sig nD τ) (Lvl := ℕ) spec0 c (V c) : sProp 𝕄) ⊢ (dat0 V c).arrays (dat0 V c).A := by
  rw [arrBufs0_eq, arrays0_eq]
  simp only [A_eq0]
  iintro ⟨A0, A1, A2, A3, A4, A5, A6, A7⟩
  ihave Hs := (pointsTo_share (PosShare.mem_left_op_right fullShare)).1 $$ A0
  icases Hs with ⟨A0l, A0r⟩
  isplitl [A0l]; · iexact A0l
  isplitl [A0r]; · iexact A0r
  isplitl [A1]; · iexact A1
  isplitl [A2]; · iexact A2
  isplitl [A3]; · iexact A3
  isplitl [A4]; · iexact A4
  isplitl [A5]; · iexact A5
  isplitl [A6]; · iexact A6
  iexact A7

set_option maxHeartbeats 2000000 in
/-- EXIT: the call's arrays as its write-backs leave them — the inputs as found, the two halves of the node-feature array
    joined again, the output folded — are the buffers behind the windows at any contents that have the output's array at
    what the write-backs leave and agree with the entry contents elsewhere. -/
theorem exitG0 (c : Dev nD) (U : (b : Ref sig .tc) → Buf (Elt F) ((c : Thread nD τ).loc b))
    (hout : U main_v20 = (dat0 V c).arrAt 8 cfg0.N) (hne : ∀ b : Ref sig .tc, b ≠ main_v20 → U b = V c b) :
    ((dat0 V c).arrays ((dat0 V c).arrAt · cfg0.N) : sProp 𝕄) ⊢ Pipeline.arrBufs (Ix := Unit) (Name := ℕ) (U := UR sig nD τ) (Lvl := ℕ) spec0 c U := by
  rw [arrBufs0_eq, arrays0_eq]
  rw [(dat0 V c).arrAt_in 0 rfl cfg0.N, (dat0 V c).arrAt_in 1 rfl cfg0.N, (dat0 V c).arrAt_in 2 rfl cfg0.N, (dat0 V c).arrAt_in 3 rfl cfg0.N, (dat0 V c).arrAt_in 4 rfl cfg0.N, (dat0 V c).arrAt_in 5 rfl cfg0.N, (dat0 V c).arrAt_in 6 rfl cfg0.N, (dat0 V c).arrAt_in 7 rfl cfg0.N]
  simp only [A_eq0]
  rw [hne main_arg0 (by decide), hne main_arg1 (by decide), hne main_v7 (by decide), hne main_v9 (by decide), hne main_v16 (by decide), hne main_v13 (by decide), hne main_v19 (by decide), hout]
  iintro ⟨A0l, A0r, A1, A2, A3, A4, A5, A6, A7⟩
  isplitl [A0l A0r]
  · iapply (pointsTo_share (PosShare.mem_left_op_right fullShare)).2
    isplitl [A0l]; · iexact A0l
    iexact A0r
  isplitl [A1]; · iexact A1
  isplitl [A2]; · iexact A2
  isplitl [A3]; · iexact A3
  isplitl [A4]; · iexact A4
  isplitl [A5]; · iexact A5
  isplitl [A6]; · iexact A6
  iexact A7

/-- The buffers the call does not touch are the same collection at any contents that agree with the entry contents off
    the output's array. -/
theorem restG0 (c : Dev nD) (U : (b : Ref sig .tc) → Buf (Elt F) ((c : Thread nD τ).loc b)) (hne : ∀ b : Ref sig .tc, b ≠ main_v20 → U b = V c b) :
    (Pipeline.unscopedRest (Ix := Unit) (Name := ℕ) (U := UR sig nD τ) (Lvl := ℕ) spec0 c (V c) : sProp 𝕄) = Pipeline.unscopedRest spec0 c U := by
  unfold Pipeline.unscopedRest
  refine bigSep_congr fun b hb => ?_
  have hb' : b ≠ main_v20 := fun e => (Finset.mem_sdiff.mp hb).2 (Finset.mem_image.mpr ⟨8, Finset.mem_univ _, e.symm⟩)
  rw [hne b hb']

end

/-- The contents after the call agree with those before it at every buffer but the output's. -/
theorem W2_of_ne (c : Dev nD) (b : Ref sig .tc) (hb : b ≠ main_v20) : V2 m c b = V1 m c b := by
  show W2 m c (Proc.devRef .tc b) = W1 m c (Proc.devRef .tc b)
  unfold W2; exact Function.update_of_ne (StableHlo.devRef_ne_of_ne hb) _ _
/-- The output's buffer holds what the write-backs of the call leave. -/
theorem W2_out (c : Dev nD) : V2 m c main_v20 = (dat0 (V1 m) c).arrAt 8 cfg0.N := by
  show W2 m c (Proc.devRef .tc main_v20) = _
  unfold W2; exact Function.update_self _ _ _

theorem entry0 (c : Dev nD) :
    (StableHlo.held (c : Thread nD τ) (Pipeline.ucRefs τ sig) (W1 m c) : sProp 𝕄)
      ⊢ iprop((dat0 (V1 m) c).arrays (dat0 (V1 m) c).A ∗ Pipeline.unscopedRest (Ix := Unit) (Name := ℕ) (U := UR sig nD τ) (Lvl := ℕ) spec0 c (V1 m c)) := by
  rw [← Pipeline.unscopedBufs_held (Ix := Unit) (Name := ℕ) (U := UR sig nD τ) (Lvl := ℕ) c (W1 m c),
    Pipeline.unscopedBufs_split₀ cfgs 0 winFacts₀0.arr_unscoped c (V1 m c)]
  exact sep_mono (entryG0 (V1 m) c) .rfl

theorem exit0 (c : Dev nD) :
    iprop((dat0 (V1 m) c).arrays ((dat0 (V1 m) c).arrAt · cfg0.N) ∗ Pipeline.unscopedRest (Ix := Unit) (Name := ℕ) (U := UR sig nD τ) (Lvl := ℕ) spec0 c (V1 m c))
      ⊢ (StableHlo.held (c : Thread nD τ) (Pipeline.ucRefs τ sig) (W2 m c) : sProp 𝕄) := by
  rw [← Pipeline.unscopedBufs_held (Ix := Unit) (Name := ℕ) (U := UR sig nD τ) (Lvl := ℕ) c (W2 m c),
    Pipeline.unscopedBufs_split₀ cfgs 0 winFacts₀0.arr_unscoped c (V2 m c)]
  exact Idealize.SL.BI.sep_mono (exitG0 (V1 m) c (V2 m c) (W2_out m c) (fun b hb => W2_of_ne m c b hb))
    (Entails.of_eq (restG0 (V1 m) c (V2 m c) (fun b hb => W2_of_ne m c b hb)))

/-! ## Call 1: its arrays out of the core's unscoped buffers and back

The two node-feature windows of the call read ONE array; each holds half of it while the call runs. The facts are stated
for arbitrary contents V, so that nothing about how the contents were computed is ever opened. -/

section
variable (V : (c : Dev nD) → (b : Ref sig .tc) → Buf (Elt F) ((c : Thread nD τ).loc b))

theorem share1_0 (c : Dev nD) : (dat1 (F := F) V c).share 0 = fullShare.left := rfl
theorem share1_1 (c : Dev nD) : (dat1 (F := F) V c).share 1 = fullShare.right := rfl
theorem share1_2 (c : Dev nD) : (dat1 (F := F) V c).share 2 = fullShare := rfl
theorem share1_3 (c : Dev nD) : (dat1 (F := F) V c).share 3 = fullShare := rfl
theorem share1_4 (c : Dev nD) : (dat1 (F := F) V c).share 4 = fullShare := rfl
theorem share1_5 (c : Dev nD) : (dat1 (F := F) V c).share 5 = fullShare := rfl
theorem share1_6 (c : Dev nD) : (dat1 (F := F) V c).share 6 = fullShare := rfl
theorem share1_7 (c : Dev nD) : (dat1 (F := F) V c).share 7 = fullShare := rfl
theorem share1_8 (c : Dev nD) : (dat1 (F := F) V c).share 8 = fullShare := rfl

/-- The call's arrays, window by window, each a whole buffer at its window's share. -/
theorem arrays1_eq (c : Dev nD) (G : (w : Fin cfg1.W) → Buf (Elt F) ((cfg1.win w).arr.view.loc (c : Thread nD τ))) :
    ((dat1 (F := F) V c).arrays G : sProp 𝕄)
      = iprop((((c : Thread nD τ).loc main_v20) ↦{fullShare.left} G 0) ∗ (((c : Thread nD τ).loc main_v20) ↦{fullShare.right} G 1) ∗ (((c : Thread nD τ).loc main_arg1) ↦{fullShare} G 2) ∗ (((c : Thread nD τ).loc main_v28) ↦{fullShare} G 3) ∗ (((c : Thread nD τ).loc main_v30) ↦{fullShare} G 4) ∗ (((c : Thread nD τ).loc main_v37) ↦{fullShare} G 5) ∗ (((c : Thread nD τ).loc main_v34) ↦{fullShare} G 6) ∗ (((c : Thread nD τ).loc main_v40) ↦{fullShare} G 7) ∗ (((c : Thread nD τ).loc main_v41) ↦{fullShare} G 8)) := by
  unfold Dat.arrays
  rw [bigSep_W1]
  simp only [share1_0, share1_1, share1_2, share1_3, share1_4, share1_5, share1_6, share1_7, share1_8, (arr_whole1 0).set_eq_univ, (arr_whole1 1).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ]

/-- The distinct buffers behind the call's windows, one by one. -/
theorem arrBufs1_eq (c : Dev nD) (U : (b : Ref sig .tc) → Buf (Elt F) ((c : Thread nD τ).loc b)) :
    (Pipeline.arrBufs (Ix := Unit) (Name := ℕ) (U := UR sig nD τ) (Lvl := ℕ) spec1 c U : sProp 𝕄)
      = iprop((((c : Thread nD τ).loc main_v20) ↦{fullShare} U main_v20) ∗ (((c : Thread nD τ).loc main_arg1) ↦{fullShare} U main_arg1) ∗ (((c : Thread nD τ).loc main_v28) ↦{fullShare} U main_v28) ∗ (((c : Thread nD τ).loc main_v30) ↦{fullShare} U main_v30) ∗ (((c : Thread nD τ).loc main_v37) ↦{fullShare} U main_v37) ∗ (((c : Thread nD τ).loc main_v34) ↦{fullShare} U main_v34) ∗ (((c : Thread nD τ).loc main_v40) ↦{fullShare} U main_v40) ∗ (((c : Thread nD τ).loc main_v41) ↦{fullShare} U main_v41)) := by
  unfold Pipeline.arrBufs
  rw [bigSep_eq_bigSepL_of_eq [main_v20, main_arg1, main_v28, main_v30, main_v37, main_v34, main_v40, main_v41] (by decide) (by decide)]
  rfl

set_option maxHeartbeats 2000000 in
/-- ENTRY: the buffers behind the windows, each whole, are the call's arrays: the node-feature array split in two halves
    between its two windows. -/
theorem entryG1 (c : Dev nD) :
    (Pipeline.arrBufs (Ix := Unit) (Name := ℕ) (U := UR sig nD τ) (Lvl := ℕ) spec1 c (V c) : sProp 𝕄) ⊢ (dat1 V c).arrays (dat1 V c).A := by
  rw [arrBufs1_eq, arrays1_eq]
  simp only [A_eq1]
  iintro ⟨A0, A1, A2, A3, A4, A5, A6, A7⟩
  ihave Hs := (pointsTo_share (PosShare.mem_left_op_right fullShare)).1 $$ A0
  icases Hs with ⟨A0l, A0r⟩
  isplitl [A0l]; · iexact A0l
  isplitl [A0r]; · iexact A0r
  isplitl [A1]; · iexact A1
  isplitl [A2]; · iexact A2
  isplitl [A3]; · iexact A3
  isplitl [A4]; · iexact A4
  isplitl [A5]; · iexact A5
  isplitl [A6]; · iexact A6
  iexact A7

set_option maxHeartbeats 2000000 in
/-- EXIT: the call's arrays as its write-backs leave them — the inputs as found, the two halves of the node-feature array
    joined again, the output folded — are the buffers behind the windows at any contents that have the output's array at
    what the write-backs leave and agree with the entry contents elsewhere. -/
theorem exitG1 (c : Dev nD) (U : (b : Ref sig .tc) → Buf (Elt F) ((c : Thread nD τ).loc b))
    (hout : U main_v41 = (dat1 V c).arrAt 8 cfg1.N) (hne : ∀ b : Ref sig .tc, b ≠ main_v41 → U b = V c b) :
    ((dat1 V c).arrays ((dat1 V c).arrAt · cfg1.N) : sProp 𝕄) ⊢ Pipeline.arrBufs (Ix := Unit) (Name := ℕ) (U := UR sig nD τ) (Lvl := ℕ) spec1 c U := by
  rw [arrBufs1_eq, arrays1_eq]
  rw [(dat1 V c).arrAt_in 0 rfl cfg1.N, (dat1 V c).arrAt_in 1 rfl cfg1.N, (dat1 V c).arrAt_in 2 rfl cfg1.N, (dat1 V c).arrAt_in 3 rfl cfg1.N, (dat1 V c).arrAt_in 4 rfl cfg1.N, (dat1 V c).arrAt_in 5 rfl cfg1.N, (dat1 V c).arrAt_in 6 rfl cfg1.N, (dat1 V c).arrAt_in 7 rfl cfg1.N]
  simp only [A_eq1]
  rw [hne main_v20 (by decide), hne main_arg1 (by decide), hne main_v28 (by decide), hne main_v30 (by decide), hne main_v37 (by decide), hne main_v34 (by decide), hne main_v40 (by decide), hout]
  iintro ⟨A0l, A0r, A1, A2, A3, A4, A5, A6, A7⟩
  isplitl [A0l A0r]
  · iapply (pointsTo_share (PosShare.mem_left_op_right fullShare)).2
    isplitl [A0l]; · iexact A0l
    iexact A0r
  isplitl [A1]; · iexact A1
  isplitl [A2]; · iexact A2
  isplitl [A3]; · iexact A3
  isplitl [A4]; · iexact A4
  isplitl [A5]; · iexact A5
  isplitl [A6]; · iexact A6
  iexact A7

/-- The buffers the call does not touch are the same collection at any contents that agree with the entry contents off
    the output's array. -/
theorem restG1 (c : Dev nD) (U : (b : Ref sig .tc) → Buf (Elt F) ((c : Thread nD τ).loc b)) (hne : ∀ b : Ref sig .tc, b ≠ main_v41 → U b = V c b) :
    (Pipeline.unscopedRest (Ix := Unit) (Name := ℕ) (U := UR sig nD τ) (Lvl := ℕ) spec1 c (V c) : sProp 𝕄) = Pipeline.unscopedRest spec1 c U := by
  unfold Pipeline.unscopedRest
  refine bigSep_congr fun b hb => ?_
  have hb' : b ≠ main_v41 := fun e => (Finset.mem_sdiff.mp hb).2 (Finset.mem_image.mpr ⟨8, Finset.mem_univ _, e.symm⟩)
  rw [hne b hb']

end

/-- The contents after the call agree with those before it at every buffer but the output's. -/
theorem W4_of_ne (c : Dev nD) (b : Ref sig .tc) (hb : b ≠ main_v41) : V4 m c b = V3 m c b := by
  show W4 m c (Proc.devRef .tc b) = W3 m c (Proc.devRef .tc b)
  unfold W4; exact Function.update_of_ne (StableHlo.devRef_ne_of_ne hb) _ _
/-- The output's buffer holds what the write-backs of the call leave. -/
theorem W4_out (c : Dev nD) : V4 m c main_v41 = (dat1 (V3 m) c).arrAt 8 cfg1.N := by
  show W4 m c (Proc.devRef .tc main_v41) = _
  unfold W4; exact Function.update_self _ _ _

theorem entry1 (c : Dev nD) :
    (StableHlo.held (c : Thread nD τ) (Pipeline.ucRefs τ sig) (W3 m c) : sProp 𝕄)
      ⊢ iprop((dat1 (V3 m) c).arrays (dat1 (V3 m) c).A ∗ Pipeline.unscopedRest (Ix := Unit) (Name := ℕ) (U := UR sig nD τ) (Lvl := ℕ) spec1 c (V3 m c)) := by
  rw [← Pipeline.unscopedBufs_held (Ix := Unit) (Name := ℕ) (U := UR sig nD τ) (Lvl := ℕ) c (W3 m c),
    Pipeline.unscopedBufs_split₀ cfgs 1 winFacts₀1.arr_unscoped c (V3 m c)]
  exact sep_mono (entryG1 (V3 m) c) .rfl

theorem exit1 (c : Dev nD) :
    iprop((dat1 (V3 m) c).arrays ((dat1 (V3 m) c).arrAt · cfg1.N) ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := by
  rw [← Pipeline.unscopedBufs_held (Ix := Unit) (Name := ℕ) (U := UR sig nD τ) (Lvl := ℕ) c (W4 m c),
    Pipeline.unscopedBufs_split₀ cfgs 1 winFacts₀1.arr_unscoped c (V4 m c)]
  exact Idealize.SL.BI.sep_mono (exitG1 (V3 m) c (V4 m c) (W4_out m c) (fun b hb => W4_of_ne m c b hb))
    (Entails.of_eq (restG1 (V3 m) c (V4 m c) (fun b hb => W4_of_ne m c b hb)))

/-! ## The proof data family, the thread state, and the two calls as segments -/

/-- Both calls' proof data, each at the contents its call finds. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- Kernel call 0 as a segment of the program: entered with every unscoped buffer at the contents before it, left with
    them at the contents after it; the generator register goes into the call's invariant and comes back; nothing is owed. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    iintro ⟨Hp, -, Hr⟩
    iapply (hin0 (V1 m) c)
    unfold Pipeline.ΦA
    isplitl [Hr]; · iexact Hr
    iexact Hp
  hout c := by
    rw [Pipeline.ownSems0_none, show (pdats m 0 c).Φ (Fin.last _) = (dat0 (V1 m) c).Φ (Fin.last cfg0.N) from rfl]
    iintro H
    ihave H' := (hout0 (V1 m) c) $$ H
    unfold Pipeline.ΦA
    icases H' with ⟨Hr, Hp⟩
    isplitl [Hp]; · iexact Hp
    isplitr; · iempintro
    iexact Hr
  hexit c := by
    show iprop((dat0 (V1 m) c).arrays ((dat0 (V1 m) c).arrAt · cfg0.N) ∗ (dat0 (V1 m) c).owesAt () (Fin.last cfg0.N) ∗ _ ∗ _) ⊢ _
    iintro ⟨Ha, HO, HY, Hrest⟩
    imodintro
    isplitl [Ha Hrest]
    · iapply (exit0 m c); isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel call 1 as a segment of the program: entered with every unscoped buffer at the contents before it, left with
    them at the contents after it; the generator register goes into the call's invariant and comes back; nothing is owed. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    iintro ⟨Hp, -, Hr⟩
    iapply (hin1 (V3 m) c)
    unfold Pipeline.ΦA
    isplitl [Hr]; · iexact Hr
    iexact Hp
  hout c := by
    rw [Pipeline.ownSems0_none, show (pdats m 1 c).Φ (Fin.last _) = (dat1 (V3 m) c).Φ (Fin.last cfg1.N) from rfl]
    iintro H
    ihave H' := (hout1 (V3 m) c) $$ H
    unfold Pipeline.ΦA
    icases H' with ⟨Hr, Hp⟩
    isplitl [Hp]; · iexact Hp
    isplitr; · iempintro
    iexact Hr
  hexit c := by
    show iprop((dat1 (V3 m) c).arrays ((dat1 (V3 m) c).arrAt · cfg1.N) ∗ (dat1 (V3 m) c).owesAt () (Fin.last cfg1.N) ∗ _ ∗ _) ⊢ _
    iintro ⟨Ha, HO, HY, Hrest⟩
    imodintro
    isplitl [Ha Hrest]
    · iapply (exit1 m c); isplitl [Ha] <;> iassumption
    isplitl [HY]; · iexact HY
    unfold Pipeline.Dat.owesAt Pipeline.owesWithin
    icases HO with ⟨%W, -, HO⟩; iexists W; iexact HO

/-- The program's four segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing faulting,
    and every unscoped buffer of every core ends at the last boundary's contents: the arguments as launched, the result
    array at what kernel call 1's write-backs leave. -/
theorem run_full : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show iprop(StableHlo.held (c : Thread nD τ) (Pipeline.ucRefs τ sig) (W4 m c) ∗ R c) ⊢ _
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.KI.Frames.lean ====
import proofs.«117494_j19645180411919_1_alg».proof.Proof.KI.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched, and the frame -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that neither host stretch writes and that is neither call's output reaches the end as launched. -/
theorem W4_kept (c : Dev nD) (b : Ref sig .tc) (h0 : b ∉ (hostOps0_W : List (Ref sig .tc))) (h1 : b ∉ (hostOps1_W : List (Ref sig .tc)))
    (h20 : b ≠ main_v20) (h41 : b ≠ main_v41) : W4 m c (Proc.devRef .tc b) = m ((c : Thread nD τ).loc b) :=
  (W4_of_ne m c b h41).trans <| (StableHlo.after_of_writes_sub hostOps1 _ hostOps1_writes h1).trans <|
    (W2_of_ne m c b h20).trans <| (StableHlo.after_of_writes_sub hostOps0 _ hostOps0_writes h0).trans rfl

/-- The result array ends at what kernel call 1's write-backs leave. -/
theorem W4_result (c : Dev nD) : W4 m c (Proc.devRef .tc main_v41) = (dat1 (V3 m) c).arrAt 8 cfg1.N := W4_out m c

/-- THE FRAME: every weakly fair execution terminates, nothing faulting, and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide))⟩) (run_full m ρ)

end Cert.KernelIdeal.Hand

end
-- ==== Proof.GnnSpec.lean ====
/-
  One message-passing layer of the network, as a function of whole arrays over the extended reals, entry by entry,
  and the two-layer network. For a batch b, a node i and an output feature o the layer adds to the node's feature
  the sum over ALL nodes j of the masked edge message

      ( sum_d  max( <h[b,i,:], W1[l,d,0:128]> + <h[b,j,:], W1[l,d,128:256]> + b1[l,d] , 0 ) * W2[l,o,d]  +  b2[l,o] ) * mask[b,i,j].

  Nothing here mentions a program: both programs are shown to compute this function.
-/
import Idealize.ShloMosaic.PureOps.Ideal
import Idealize.ShloMosaic.Lib.ValueIdx

noncomputable section

open scoped BigOperators

namespace Cert.Gnn

open Idealize.ShloMosaic Idealize.ShloMosaic.ValueIdx

/-- Node features [4, 512, 128]. -/
abbrev SH : Shape := ⟨3, ![4, 512, 128]⟩
/-- Adjacency mask [4, 512, 512]. -/
abbrev SM : Shape := ⟨3, ![4, 512, 512]⟩
/-- First-layer weights of the edge network [2, 128, 256] (layer, hidden feature, concatenated input feature). -/
abbrev SW1 : Shape := ⟨3, ![2, 128, 256]⟩
/-- Biases [2, 128]. -/
abbrev SB : Shape := ⟨2, ![2, 128]⟩
/-- Second-layer weights [2, 128, 128] (layer, output feature, hidden feature). -/
abbrev SW2 : Shape := ⟨3, ![2, 128, 128]⟩

/-- Column e of the left half of the concatenated input (the receiving node's features). -/
def lo (e : Fin 128) : Fin 256 := ⟨e.val, by omega⟩
/-- Column e of the right half of the concatenated input (the sending node's features). -/
def hi (e : Fin 128) : Fin 256 := ⟨128 + e.val, by omega⟩

variable (h : SH.Idx → EReal) (mask : SM.Idx → EReal) (w1 : SW1.Idx → EReal) (b1 : SB.Idx → EReal)
  (w2 : SW2.Idx → EReal) (b2 : SB.Idx → EReal)

/-- The receiving node's contribution to hidden feature d: its features against the left half of W1[l,d,:]. -/
def projI (l : Fin 2) (b : Fin 4) (n : Fin 512) (d : Fin 128) : EReal :=
  ∑ e : Fin 128, h (ix3 b n e) * w1 (ix3 l d (lo e))

/-- The sending node's contribution to hidden feature d: its features against the right half of W1[l,d,:]. -/
def projJ (l : Fin 2) (b : Fin 4) (n : Fin 512) (d : Fin 128) : EReal :=
  ∑ e : Fin 128, h (ix3 b n e) * w1 (ix3 l d (hi e))

/-- The message of edge (i, j) at output feature o, before masking. -/
def edge (l : Fin 2) (b : Fin 4) (i j : Fin 512) (o : Fin 128) : EReal :=
  (∑ d : Fin 128, max (projI h w1 l b i d + projJ h w1 l b j d + b1 (ix2 l d)) 0 * w2 (ix3 l o d)) + b2 (ix2 l o)

/-- The layer's result at (b, i, o): the node's feature plus the masked messages of every node j. -/
def layerAt (l : Fin 2) (b : Fin 4) (i : Fin 512) (o : Fin 128) : EReal :=
  h (ix3 b i o) + ∑ j : Fin 512, edge h w1 b1 w2 b2 l b i j o * mask (ix3 b i j)

/-- The layer as a function of whole arrays. -/
def layer (l : Fin 2) : SH.Idx → EReal := fun y => layerAt h mask w1 b1 w2 b2 l (y 0) (y 1) (y 2)

theorem layer_ix3 (l : Fin 2) (b : Fin 4) (i : Fin 512) (o : Fin 128) :
    layer h mask w1 b1 w2 b2 l (ix3 b i o) = layerAt h mask w1 b1 w2 b2 l b i o := rfl

/-- The two layers, one after the other, with the same mask. -/
def net : SH.Idx → EReal := layer (layer h mask w1 b1 w2 b2 0) mask w1 b1 w2 b2 1

end Cert.Gnn

end
-- ==== Proof.KI.HostGlue.lean ====
/-
  The host operations that stage the weights and biases before each of the two kernel calls, read entry by entry.

  Before kernel call l (l = 0, 1) the program cuts layer l out of each parameter array and lays it out as the kernel
  reads it: the first-layer weights W1[l] : [128, 256] are split into their left and right column halves and each half
  is transposed, the second-layer weights W2[l] : [128, 128] are transposed, the biases b1[l], b2[l] become [1, 128] rows;
  the three weight matrices are then converted to bf16, which over the extended reals changes nothing. So

      left  half at (e, d) = W1[l, d, e]          right half at (e, d) = W1[l, d, 128 + e]
      second-layer weights at (d, o) = W2[l, o, d]     biases at (0, d) = b1[l, d], b2[l, d]

  and every array the stretch does not write keeps its contents.
-/
import proofs.«117494_j19645180411919_1_alg».proof.Proof.Gen.KernelIdeal.Launch
import proofs.«117494_j19645180411919_1_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value
import proofs.«117494_j19645180411919_1_alg».proof.Proof.GnnSpec

set_option maxRecDepth 16384

noncomputable section

namespace Cert.KernelIdeal.HostGlue

open Cert.KernelIdeal Cert.KernelIdeal.Gen
open Idealize.ShloMosaic Idealize.ShloMosaic.ValueIdx

section Layout
variable {α : Type}

/-- A rank-3 array cut along its leading axis from `o` reads, at `(j, b, c)`, the source at `(k, b, c)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (c : Fin n2) (k : Fin n0) (hk : k.val = o + j.val) :
    extractStridedSlice ⟨3, ![m, n1, n2]⟩ ![o, 0, 0] X h (ix3 j b c) = X (ix3 k b c) :=
  extractStridedSlice_apply _ _ _ _ _ (fun ax => by
    match ax with
    | ⟨0, _⟩ => exact hk
    | ⟨1, _⟩ => exact (Nat.zero_add _).symm
    | ⟨2, _⟩ => exact (Nat.zero_add _).symm)

/-- Row `l` of a `[2, 128]` array, taken as a `[1, 128]` slice, flattened to `[128]` and put back as `[1, 128]`,
    reads at `(0, d)` the array at `(l, d)`. -/
theorem bias_row_apply (o : Nat) (l : Fin 2) (hl : l.val = o) (X : S2x128.Idx → α) (h : S2x128.Slices ![o, 0] S1x128) (d : Fin 128) :
    shapeCast S1x128 (shapeCast S128 (extractStridedSlice S1x128 ![o, 0] X h) shapeCasts_S1x128_S128) shapeCasts_S128_S1x128
        (ix2 0 d) = X (ix2 l d) := by
  refine (shapeCast_a_1a_apply _ _ 0 d).trans ?_
  refine (shapeCast_1a_a_apply _ _ d).trans ?_
  exact slice2_axis0_apply _ _ _ _ _ l (by show l.val = o + 0; omega)

/-- Layer `l` of the `[2, 128, 128]` second-layer weights, taken as a `[1, 128, 128]` slice, viewed `[128, 128]` and
    transposed, reads at `(d, p)` the weights at `(l, p, d)`. -/
theorem w2_layer_apply (o : Nat) (l : Fin 2) (hl : l.val = o) (X : S2x128x128.Idx → α) (h : S2x128x128.Slices ![o, 0, 0] S1x128x128)
    (d p : Fin 128) :
    transpose S128x128 [1, 0] (shapeCast S128x128 (extractStridedSlice S1x128x128 ![o, 0, 0] X h) shapeCasts_S1x128x128_S128x128)
        transposes_S128x128_S128x128_1_0 (ix2 d p) = X (ix3 l p d) := by
  refine (transpose_ix2_apply _ _ d p).trans ?_
  refine (shapeCast_1ab_ab_apply _ _ p d).trans ?_
  exact slice3_axis0_apply _ _ _ _ _ _ l (by show l.val = o + 0; omega)

/-- Layer `l` of the `[2, 128, 256]` first-layer weights, taken as a `[1, 128, 256]` slice, viewed `[128, 256]`, its columns
    from `c` on kept (`c = 0` the left half, `c = 128` the right half) and transposed, reads at `(e, d)` the weights at
    `(l, d, k)` with `k = c + e`. -/
theorem w1_half_apply (o : Nat) (l : Fin 2) (hl : l.val = o) (c : Nat) (X : S2x128x256.Idx → α)
    (h : S2x128x256.Slices ![o, 0, 0] S1x128x256) (h' : S128x256.Slices ![0, c] S128x128)
    (e d : Fin 128) (k : Fin 256) (hk : k.val = c + e.val) :
    transpose S128x128 [1, 0]
        (extractStridedSlice S128x128 ![0, c] (shapeCast S128x256 (extractStridedSlice S1x128x256 ![o, 0, 0] X h) shapeCasts_S1x128x256_S128x256) h')
        transposes_S128x128_S128x128_1_0 (ix2 e d) = X (ix3 l d k) := by
  refine (transpose_ix2_apply _ _ e d).trans ?_
  refine (slice2_axis1_apply _ _ _ d e k hk).trans ?_
  refine (shapeCast_1ab_ab_apply _ _ d k).trans ?_
  exact slice3_axis0_apply _ _ _ _ _ _ l (by show l.val = o + 0; omega)

end Layout

/-! ## The staged arrays as terms over the argument arrays, for any float instance -/

section Terms
variable {F : FTy → Type} [FloatOps F] (W : Valuation τ sig (Elt F))

theorem after0_v7 :
    (StableHlo.after hostOps0 W (Proc.devRef .tc main_v7) : FVec F S128x128 .bf16)
      = truncf .bf16 (transpose S128x128 [1, 0] (extractStridedSlice S128x128 ![0, 0] (shapeCast S128x256 (extractStridedSlice S1x128x256 ![0, 0, 0] (W (Proc.devRef .tc main_arg2) : FVec F S2x128x256 .f32) slices_S2x128x256_S1x128x256_0_0_0) shapeCasts_S1x128x256_S128x256) slices_S128x256_S128x128_0_0) transposes_S128x128_S128x128_1_0) bitsLt_bf16_f32 := by
  dsimp only [hostOps0]; after_results; rfl

theorem after0_v9 :
    (StableHlo.after hostOps0 W (Proc.devRef .tc main_v9) : FVec F S128x128 .bf16)
      = truncf .bf16 (transpose S128x128 [1, 0] (extractStridedSlice S128x128 ![0, 128] (shapeCast S128x256 (extractStridedSlice S1x128x256 ![0, 0, 0] (W (Proc.devRef .tc main_arg2) : FVec F S2x128x256 .f32) slices_S2x128x256_S1x128x256_0_0_0) shapeCasts_S1x128x256_S128x256) slices_S128x256_S128x128_0_128) transposes_S128x128_S128x128_1_0) bitsLt_bf16_f32 := by
  dsimp only [hostOps0]; after_results; rfl

theorem after0_v13 :
    (StableHlo.after hostOps0 W (Proc.devRef .tc main_v13) : FVec F S128x128 .bf16)
      = truncf .bf16 (transpose S128x128 [1, 0] (shapeCast S128x128 (extractStridedSlice S1x128x128 ![0, 0, 0] (W (Proc.devRef .tc main_arg4) : FVec F S2x128x128 .f32) slices_S2x128x128_S1x128x128_0_0_0) shapeCasts_S1x128x128_S128x128) transposes_S128x128_S128x128_1_0) bitsLt_bf16_f32 := by
  dsimp only [hostOps0]; after_results; rfl

theorem after0_v16 :
    (StableHlo.after hostOps0 W (Proc.devRef .tc main_v16) : FVec F S1x128 .f32)
      = shapeCast S1x128 (shapeCast S128 (extractStridedSlice S1x128 ![0, 0] (W (Proc.devRef .tc main_arg3) : FVec F S2x128 .f32) slices_S2x128_S1x128_0_0) shapeCasts_S1x128_S128) shapeCasts_S128_S1x128 := by
  dsimp only [hostOps0]; after_results; rfl

theorem after0_v19 :
    (StableHlo.after hostOps0 W (Proc.devRef .tc main_v19) : FVec F S1x128 .f32)
      = shapeCast S1x128 (shapeCast S128 (extractStridedSlice S1x128 ![0, 0] (W (Proc.devRef .tc main_arg5) : FVec F S2x128 .f32) slices_S2x128_S1x128_0_0) shapeCasts_S1x128_S128) shapeCasts_S128_S1x128 := by
  dsimp only [hostOps0]; after_results; rfl

theorem after1_v28 :
    (StableHlo.after hostOps1 W (Proc.devRef .tc main_v28) : FVec F S128x128 .bf16)
      = truncf .bf16 (transpose S128x128 [1, 0] (extractStridedSlice S128x128 ![0, 0] (shapeCast S128x256 (extractStridedSlice S1x128x256 ![1, 0, 0] (W (Proc.devRef .tc main_arg2) : FVec F S2x128x256 .f32) slices_S2x128x256_S1x128x256_1_0_0) shapeCasts_S1x128x256_S128x256) slices_S128x256_S128x128_0_0) transposes_S128x128_S128x128_1_0) bitsLt_bf16_f32 := by
  dsimp only [hostOps1]; after_results; rfl

theorem after1_v30 :
    (StableHlo.after hostOps1 W (Proc.devRef .tc main_v30) : FVec F S128x128 .bf16)
      = truncf .bf16 (transpose S128x128 [1, 0] (extractStridedSlice S128x128 ![0, 128] (shapeCast S128x256 (extractStridedSlice S1x128x256 ![1, 0, 0] (W (Proc.devRef .tc main_arg2) : FVec F S2x128x256 .f32) slices_S2x128x256_S1x128x256_1_0_0) shapeCasts_S1x128x256_S128x256) slices_S128x256_S128x128_0_128) transposes_S128x128_S128x128_1_0) bitsLt_bf16_f32 := by
  dsimp only [hostOps1]; after_results; rfl

theorem after1_v34 :
    (StableHlo.after hostOps1 W (Proc.devRef .tc main_v34) : FVec F S128x128 .bf16)
      = truncf .bf16 (transpose S128x128 [1, 0] (shapeCast S128x128 (extractStridedSlice S1x128x128 ![1, 0, 0] (W (Proc.devRef .tc main_arg4) : FVec F S2x128x128 .f32) slices_S2x128x128_S1x128x128_1_0_0) shapeCasts_S1x128x128_S128x128) transposes_S128x128_S128x128_1_0) bitsLt_bf16_f32 := by
  dsimp only [hostOps1]; after_results; rfl

theorem after1_v37 :
    (StableHlo.after hostOps1 W (Proc.devRef .tc main_v37) : FVec F S1x128 .f32)
      = shapeCast S1x128 (shapeCast S128 (extractStridedSlice S1x128 ![1, 0] (W (Proc.devRef .tc main_arg3) : FVec F S2x128 .f32) slices_S2x128_S1x128_1_0) shapeCasts_S1x128_S128) shapeCasts_S128_S1x128 := by
  dsimp only [hostOps1]; after_results; rfl

theorem after1_v40 :
    (StableHlo.after hostOps1 W (Proc.devRef .tc main_v40) : FVec F S1x128 .f32)
      = shapeCast S1x128 (shapeCast S128 (extractStridedSlice S1x128 ![1, 0] (W (Proc.devRef .tc main_arg5) : FVec F S2x128 .f32) slices_S2x128_S1x128_1_0) shapeCasts_S1x128_S128) shapeCasts_S128_S1x128 := by
  dsimp only [hostOps1]; after_results; rfl

/-! ### The same, with the layout operations read through -/

/-- For any float instance: the staged left half of the first-layer weights is the conversion of `(e, d) ↦ W1[0, d, e]`. -/
theorem after0_v7_fun :
    (StableHlo.after hostOps0 W (Proc.devRef .tc main_v7) : FVec F S128x128 .bf16)
      = truncf .bf16 (fun y : S128x128.Idx => (W (Proc.devRef .tc main_arg2) : FVec F S2x128x256 .f32) (ix3 0 (y 1) (Cert.Gnn.lo (y 0)))) bitsLt_bf16_f32 := by
  rw [after0_v7]
  congr 1
  funext y
  obtain ⟨a, b, rfl⟩ : ∃ a b, y = ix2 a b := ⟨y 0, y 1, eq_ix2 y⟩
  exact w1_half_apply 0 0 rfl 0 _ _ _ a b (Cert.Gnn.lo a) (Nat.zero_add _).symm

/-- For any float instance: the staged right half of the first-layer weights is the conversion of `(e, d) ↦ W1[0, d, 128 + e]`. -/
theorem after0_v9_fun :
    (StableHlo.after hostOps0 W (Proc.devRef .tc main_v9) : FVec F S128x128 .bf16)
      = truncf .bf16 (fun y : S128x128.Idx => (W (Proc.devRef .tc main_arg2) : FVec F S2x128x256 .f32) (ix3 0 (y 1) (Cert.Gnn.hi (y 0)))) bitsLt_bf16_f32 := by
  rw [after0_v9]
  congr 1
  funext y
  obtain ⟨a, b, rfl⟩ : ∃ a b, y = ix2 a b := ⟨y 0, y 1, eq_ix2 y⟩
  exact w1_half_apply 0 0 rfl 128 _ _ _ a b (Cert.Gnn.hi a) rfl

/-- For any float instance: the staged second-layer weights are the conversion of `(d, o) ↦ W2[0, o, d]`. -/
theorem after0_v13_fun :
    (StableHlo.after hostOps0 W (Proc.devRef .tc main_v13) : FVec F S128x128 .bf16)
      = truncf .bf16 (fun y : S128x128.Idx => (W (Proc.devRef .tc main_arg4) : FVec F S2x128x128 .f32) (ix3 0 (y 1) (y 0))) bitsLt_bf16_f32 := by
  rw [after0_v13]
  congr 1
  funext y
  obtain ⟨a, b, rfl⟩ : ∃ a b, y = ix2 a b := ⟨y 0, y 1, eq_ix2 y⟩
  exact w2_layer_apply 0 0 rfl _ _ a b

/-- For any float instance: the staged first bias at `(0, d)` is `b1[0, d]`. -/
theorem after0_v16_apply (d : Fin 128) :
    (StableHlo.after hostOps0 W (Proc.devRef .tc main_v16) : FVec F S1x128 .f32) (ix2 0 d)
      = (W (Proc.devRef .tc main_arg3) : FVec F S2x128 .f32) (ix2 0 d) := by
  rw [after0_v16]
  exact bias_row_apply 0 0 rfl _ _ d

/-- For any float instance: the staged second bias at `(0, o)` is `b2[0, o]`. -/
theorem after0_v19_apply (o : Fin 128) :
    (StableHlo.after hostOps0 W (Proc.devRef .tc main_v19) : FVec F S1x128 .f32) (ix2 0 o)
      = (W (Proc.devRef .tc main_arg5) : FVec F S2x128 .f32) (ix2 0 o) := by
  rw [after0_v19]
  exact bias_row_apply 0 0 rfl _ _ o

/-- Host stretch 0 leaves every array it does not write as it was. -/
theorem after0_keeps (b : Ref sig .tc) (hb : b ∉ (hostOps0_W : List (Ref sig .tc))) :
    StableHlo.after hostOps0 W (Proc.devRef .tc b) = W (Proc.devRef .tc b) :=
  StableHlo.after_of_writes_sub hostOps0 W hostOps0_writes hb

/-- For any float instance: the staged left half of the first-layer weights is the conversion of `(e, d) ↦ W1[1, d, e]`. -/
theorem after1_v28_fun :
    (StableHlo.after hostOps1 W (Proc.devRef .tc main_v28) : FVec F S128x128 .bf16)
      = truncf .bf16 (fun y : S128x128.Idx => (W (Proc.devRef .tc main_arg2) : FVec F S2x128x256 .f32) (ix3 1 (y 1) (Cert.Gnn.lo (y 0)))) bitsLt_bf16_f32 := by
  rw [after1_v28]
  congr 1
  funext y
  obtain ⟨a, b, rfl⟩ : ∃ a b, y = ix2 a b := ⟨y 0, y 1, eq_ix2 y⟩
  exact w1_half_apply 1 1 rfl 0 _ _ _ a b (Cert.Gnn.lo a) (Nat.zero_add _).symm

/-- For any float instance: the staged right half of the first-layer weights is the conversion of `(e, d) ↦ W1[1, d, 128 + e]`. -/
theorem after1_v30_fun :
    (StableHlo.after hostOps1 W (Proc.devRef .tc main_v30) : FVec F S128x128 .bf16)
      = truncf .bf16 (fun y : S128x128.Idx => (W (Proc.devRef .tc main_arg2) : FVec F S2x128x256 .f32) (ix3 1 (y 1) (Cert.Gnn.hi (y 0)))) bitsLt_bf16_f32 := by
  rw [after1_v30]
  congr 1
  funext y
  obtain ⟨a, b, rfl⟩ : ∃ a b, y = ix2 a b := ⟨y 0, y 1, eq_ix2 y⟩
  exact w1_half_apply 1 1 rfl 128 _ _ _ a b (Cert.Gnn.hi a) rfl

/-- For any float instance: the staged second-layer weights are the conversion of `(d, o) ↦ W2[1, o, d]`. -/
theorem after1_v34_fun :
    (StableHlo.after hostOps1 W (Proc.devRef .tc main_v34) : FVec F S128x128 .bf16)
      = truncf .bf16 (fun y : S128x128.Idx => (W (Proc.devRef .tc main_arg4) : FVec F S2x128x128 .f32) (ix3 1 (y 1) (y 0))) bitsLt_bf16_f32 := by
  rw [after1_v34]
  congr 1
  funext y
  obtain ⟨a, b, rfl⟩ : ∃ a b, y = ix2 a b := ⟨y 0, y 1, eq_ix2 y⟩
  exact w2_layer_apply 1 1 rfl _ _ a b

/-- For any float instance: the staged first bias at `(0, d)` is `b1[1, d]`. -/
theorem after1_v37_apply (d : Fin 128) :
    (StableHlo.after hostOps1 W (Proc.devRef .tc main_v37) : FVec F S1x128 .f32) (ix2 0 d)
      = (W (Proc.devRef .tc main_arg3) : FVec F S2x128 .f32) (ix2 1 d) := by
  rw [after1_v37]
  exact bias_row_apply 1 1 rfl _ _ d

/-- For any float instance: the staged second bias at `(0, o)` is `b2[1, o]`. -/
theorem after1_v40_apply (o : Fin 128) :
    (StableHlo.after hostOps1 W (Proc.devRef .tc main_v40) : FVec F S1x128 .f32) (ix2 0 o)
      = (W (Proc.devRef .tc main_arg5) : FVec F S2x128 .f32) (ix2 1 o) := by
  rw [after1_v40]
  exact bias_row_apply 1 1 rfl _ _ o

/-- Host stretch 1 leaves every array it does not write as it was. -/
theorem after1_keeps (b : Ref sig .tc) (hb : b ∉ (hostOps1_W : List (Ref sig .tc))) :
    StableHlo.after hostOps1 W (Proc.devRef .tc b) = W (Proc.devRef .tc b) :=
  StableHlo.after_of_writes_sub hostOps1 W hostOps1_writes hb

end Terms

/-! ## The staged arrays entry by entry, over the extended reals

Each weight or bias the kernel calls read was sliced out of layer `l` of an argument array, reshaped, for the weights
transposed and converted to bf16 (the identity over the extended reals). Read at an index, each is one entry of the
argument array. -/

section Ideal
variable (W : Valuation τ sig (Elt Ideal))

/-- Before kernel call 0: the staged left half of the first-layer weights at `(e, d)` is `W1[0, d, e]`. -/
theorem glue0_v7 (e d : Fin 128) :
    (StableHlo.after (hostOps0 (F := Ideal)) W (Proc.devRef .tc main_v7) : S128x128.Idx → EReal) (ix2 e d)
      = (W (Proc.devRef .tc main_arg2) : S2x128x256.Idx → EReal) (ix3 0 d (Cert.Gnn.lo e)) := by
  rw [after0_v7]
  refine Eq.trans (truncf_apply (φ := .f32) (ψ := .bf16) _ bitsLt_bf16_f32 _) ?_
  exact w1_half_apply 0 0 rfl 0 _ _ _ e d (Cert.Gnn.lo e) (Nat.zero_add _).symm

/-- Before kernel call 0: the staged right half of the first-layer weights at `(e, d)` is `W1[0, d, 128 + e]`. -/
theorem glue0_v9 (e d : Fin 128) :
    (StableHlo.after (hostOps0 (F := Ideal)) W (Proc.devRef .tc main_v9) : S128x128.Idx → EReal) (ix2 e d)
      = (W (Proc.devRef .tc main_arg2) : S2x128x256.Idx → EReal) (ix3 0 d (Cert.Gnn.hi e)) := by
  rw [after0_v9]
  refine Eq.trans (truncf_apply (φ := .f32) (ψ := .bf16) _ bitsLt_bf16_f32 _) ?_
  exact w1_half_apply 0 0 rfl 128 _ _ _ e d (Cert.Gnn.hi e) rfl

/-- Before kernel call 0: the staged second-layer weights at `(d, o)` are `W2[0, o, d]`. -/
theorem glue0_v13 (d o : Fin 128) :
    (StableHlo.after (hostOps0 (F := Ideal)) W (Proc.devRef .tc main_v13) : S128x128.Idx → EReal) (ix2 d o)
      = (W (Proc.devRef .tc main_arg4) : S2x128x128.Idx → EReal) (ix3 0 o d) := by
  rw [after0_v13]
  refine Eq.trans (truncf_apply (φ := .f32) (ψ := .bf16) _ bitsLt_bf16_f32 _) ?_
  exact w2_layer_apply 0 0 rfl _ _ d o

/-- Before kernel call 0: the staged first bias at `(0, d)` is `b1[0, d]`. -/
theorem glue0_v16 (d : Fin 128) :
    (StableHlo.after (hostOps0 (F := Ideal)) W (Proc.devRef .tc main_v16) : S1x128.Idx → EReal) (ix2 0 d)
      = (W (Proc.devRef .tc main_arg3) : S2x128.Idx → EReal) (ix2 0 d) := by
  rw [after0_v16]
  exact bias_row_apply 0 0 rfl _ _ d

/-- Before kernel call 0: the staged second bias at `(0, o)` is `b2[0, o]`. -/
theorem glue0_v19 (o : Fin 128) :
    (StableHlo.after (hostOps0 (F := Ideal)) W (Proc.devRef .tc main_v19) : S1x128.Idx → EReal) (ix2 0 o)
      = (W (Proc.devRef .tc main_arg5) : S2x128.Idx → EReal) (ix2 0 o) := by
  rw [after0_v19]
  exact bias_row_apply 0 0 rfl _ _ o

/-- Host stretch 0 leaves every array it does not write as it was. -/
theorem glue0_keeps (b : Ref sig .tc) (hb : b ∉ (hostOps0_W : List (Ref sig .tc))) :
    StableHlo.after (hostOps0 (F := Ideal)) W (Proc.devRef .tc b) = W (Proc.devRef .tc b) :=
  StableHlo.after_of_writes_sub hostOps0 W hostOps0_writes hb

/-- Before kernel call 1: the staged left half of the first-layer weights at `(e, d)` is `W1[1, d, e]`. -/
theorem glue1_v28 (e d : Fin 128) :
    (StableHlo.after (hostOps1 (F := Ideal)) W (Proc.devRef .tc main_v28) : S128x128.Idx → EReal) (ix2 e d)
      = (W (Proc.devRef .tc main_arg2) : S2x128x256.Idx → EReal) (ix3 1 d (Cert.Gnn.lo e)) := by
  rw [after1_v28]
  refine Eq.trans (truncf_apply (φ := .f32) (ψ := .bf16) _ bitsLt_bf16_f32 _) ?_
  exact w1_half_apply 1 1 rfl 0 _ _ _ e d (Cert.Gnn.lo e) (Nat.zero_add _).symm

/-- Before kernel call 1: the staged right half of the first-layer weights at `(e, d)` is `W1[1, d, 128 + e]`. -/
theorem glue1_v30 (e d : Fin 128) :
    (StableHlo.after (hostOps1 (F := Ideal)) W (Proc.devRef .tc main_v30) : S128x128.Idx → EReal) (ix2 e d)
      = (W (Proc.devRef .tc main_arg2) : S2x128x256.Idx → EReal) (ix3 1 d (Cert.Gnn.hi e)) := by
  rw [after1_v30]
  refine Eq.trans (truncf_apply (φ := .f32) (ψ := .bf16) _ bitsLt_bf16_f32 _) ?_
  exact w1_half_apply 1 1 rfl 128 _ _ _ e d (Cert.Gnn.hi e) rfl

/-- Before kernel call 1: the staged second-layer weights at `(d, o)` are `W2[1, o, d]`. -/
theorem glue1_v34 (d o : Fin 128) :
    (StableHlo.after (hostOps1 (F := Ideal)) W (Proc.devRef .tc main_v34) : S128x128.Idx → EReal) (ix2 d o)
      = (W (Proc.devRef .tc main_arg4) : S2x128x128.Idx → EReal) (ix3 1 o d) := by
  rw [after1_v34]
  refine Eq.trans (truncf_apply (φ := .f32) (ψ := .bf16) _ bitsLt_bf16_f32 _) ?_
  exact w2_layer_apply 1 1 rfl _ _ d o

/-- Before kernel call 1: the staged first bias at `(0, d)` is `b1[1, d]`. -/
theorem glue1_v37 (d : Fin 128) :
    (StableHlo.after (hostOps1 (F := Ideal)) W (Proc.devRef .tc main_v37) : S1x128.Idx → EReal) (ix2 0 d)
      = (W (Proc.devRef .tc main_arg3) : S2x128.Idx → EReal) (ix2 1 d) := by
  rw [after1_v37]
  exact bias_row_apply 1 1 rfl _ _ d

/-- Before kernel call 1: the staged second bias at `(0, o)` is `b2[1, o]`. -/
theorem glue1_v40 (o : Fin 128) :
    (StableHlo.after (hostOps1 (F := Ideal)) W (Proc.devRef .tc main_v40) : S1x128.Idx → EReal) (ix2 0 o)
      = (W (Proc.devRef .tc main_arg5) : S2x128.Idx → EReal) (ix2 1 o) := by
  rw [after1_v40]
  exact bias_row_apply 1 1 rfl _ _ o

/-- Host stretch 1 leaves every array it does not write as it was. -/
theorem glue1_keeps (b : Ref sig .tc) (hb : b ∉ (hostOps1_W : List (Ref sig .tc))) :
    StableHlo.after (hostOps1 (F := Ideal)) W (Proc.devRef .tc b) = W (Proc.devRef .tc b) :=
  StableHlo.after_of_writes_sub hostOps1 W hostOps1_writes hb

end Ideal

end Cert.KernelIdeal.HostGlue

end
-- ==== Proof.KLayer.lean ====
/-
  The algebra that joins a tiled accumulation of masked edge messages to the layer of the specification. A layer's
  entry at node i is the node's feature plus the sum over all 512 nodes j of the masked message of edge (i, j). Computed
  in tiles, the 512 neighbours come as four groups of 128, accumulated one group after the other from zero, and the
  weights come staged: the two halves of the first weight matrix and the second weight matrix transposed, the biases as
  rows. Here: the message over the staged operands is the specification's masked message; a sum over m * n positions is the
  sum over m groups of n; and so the accumulation is the layer's entry. Only the commutative monoid structure of addition
  is used, and rewriting under sums.
-/
import proofs.«117494_j19645180411919_1_alg».proof.Proof.GnnSpec
import Idealize.ShloMosaic.Lib.ValueIdx

noncomputable section

open scoped BigOperators

namespace Cert.Gnn

open Idealize.ShloMosaic Idealize.ShloMosaic.ValueIdx

/-- A staged, transposed weight matrix [128, 128]. -/
abbrev SWT : Shape := ⟨2, ![128, 128]⟩
/-- A staged bias row [1, 128]. -/
abbrev SBR : Shape := ⟨2, ![1, 128]⟩

/-- The masked message of neighbour j over the STAGED operands (weights transposed, biases as rows). -/
def kterm (h : SH.Idx → EReal) (mask : SM.Idx → EReal) (wiT wjT w2T : SWT.Idx → EReal) (b1r b2r : SBR.Idx → EReal)
    (b : Fin 4) (i j : Fin 512) (o : Fin 128) : EReal :=
  ((∑ d : Fin 128, max ((∑ e : Fin 128, h (ix3 b i e) * wiT (ix2 e d)) + (∑ e : Fin 128, h (ix3 b j e) * wjT (ix2 e d))
      + b1r (ix2 0 d)) 0 * w2T (ix2 d o)) + b2r (ix2 0 o)) * mask (ix3 b i j)

/-- When the staged operands are layer l's weights and biases, the message over them is the specification's masked
message of edge (i, j). -/
theorem kterm_eq (h : SH.Idx → EReal) (mask : SM.Idx → EReal) (wiT wjT w2T : SWT.Idx → EReal) (b1r b2r : SBR.Idx → EReal)
    (l : Fin 2) (w1 : SW1.Idx → EReal) (b1 : SB.Idx → EReal) (w2 : SW2.Idx → EReal) (b2 : SB.Idx → EReal)
    (hwi : ∀ e d : Fin 128, wiT (ix2 e d) = w1 (ix3 l d (lo e)))
    (hwj : ∀ e d : Fin 128, wjT (ix2 e d) = w1 (ix3 l d (hi e)))
    (hw2 : ∀ d o : Fin 128, w2T (ix2 d o) = w2 (ix3 l o d))
    (hb1 : ∀ d : Fin 128, b1r (ix2 0 d) = b1 (ix2 l d))
    (hb2 : ∀ o : Fin 128, b2r (ix2 0 o) = b2 (ix2 l o))
    (b : Fin 4) (i j : Fin 512) (o : Fin 128) :
    kterm h mask wiT wjT w2T b1r b2r b i j o = edge h w1 b1 w2 b2 l b i j o * mask (ix3 b i j) := by
  unfold kterm edge projI projJ
  simp only [hwi, hwj, hw2, hb1, hb2]

/-! ## A sum over m * n positions as m groups of n -/

/-- Position q of group a lies below m * n. -/
theorem tile_lt {m n : ℕ} (a : Fin m) (q : Fin n) : a.val * n + q.val < m * n :=
  calc a.val * n + q.val < a.val * n + n := Nat.add_lt_add_left q.isLt _
    _ = (a.val + 1) * n := (Nat.succ_mul _ _).symm
    _ ≤ m * n := Nat.mul_le_mul_right _ a.isLt

/-- In any commutative additive monoid, a sum over m * n positions is the sum over the m groups of the sums over each
group's n positions. -/
theorem sum_tiles {M : Type*} [AddCommMonoid M] (m n : ℕ) (T : Fin (m * n) → M) :
    ∑ j : Fin (m * n), T j = ∑ a : Fin m, ∑ q : Fin n, T ⟨a.val * n + q.val, tile_lt a q⟩ := by
  rw [← Equiv.sum_comp finProdFinEquiv T, Fintype.sum_prod_type]
  refine Finset.sum_congr rfl fun a _ => Finset.sum_congr rfl fun q _ => congrArg T (Fin.ext ?_)
  show q.val + n * a.val = a.val * n + q.val
  rw [Nat.mul_comm, Nat.add_comm]

/-- A sum over 512 neighbours in four tiles of 128, accumulated from zero one tile after the other. -/
theorem sum512_tiles {M : Type*} [AddCommMonoid M] (T : Fin 512 → M) :
    ((((0 + ∑ q : Fin 128, T ⟨q.val, by omega⟩) + ∑ q : Fin 128, T ⟨128 + q.val, by omega⟩)
        + ∑ q : Fin 128, T ⟨256 + q.val, by omega⟩) + ∑ q : Fin 128, T ⟨384 + q.val, by omega⟩)
      = ∑ j : Fin 512, T j := by
  rw [zero_add]
  refine Eq.trans ?_ (sum_tiles 4 128 T).symm
  rw [Fin.sum_univ_four]
  refine congrArg₂ (· + ·) (congrArg₂ (· + ·) (congrArg₂ (· + ·) ?_ ?_) ?_) ?_ <;>
    exact Finset.sum_congr rfl fun q _ => congrArg T (Fin.ext (by simp))

/-! ## The layer's entry from the tiled accumulation -/

/-- The layer's entry from the tiled accumulation: node i = it * 64 + p, the four neighbour tiles accumulated from zero,
added to the node's feature. -/
theorem layerAt_of_tiles (h : SH.Idx → EReal) (mask : SM.Idx → EReal) (wiT wjT w2T : SWT.Idx → EReal)
    (b1r b2r : SBR.Idx → EReal)
    (l : Fin 2) (w1 : SW1.Idx → EReal) (b1 : SB.Idx → EReal) (w2 : SW2.Idx → EReal) (b2 : SB.Idx → EReal)
    (hwi : ∀ e d : Fin 128, wiT (ix2 e d) = w1 (ix3 l d (lo e)))
    (hwj : ∀ e d : Fin 128, wjT (ix2 e d) = w1 (ix3 l d (hi e)))
    (hw2 : ∀ d o : Fin 128, w2T (ix2 d o) = w2 (ix3 l o d))
    (hb1 : ∀ d : Fin 128, b1r (ix2 0 d) = b1 (ix2 l d))
    (hb2 : ∀ o : Fin 128, b2r (ix2 0 o) = b2 (ix2 l o))
    (b : Fin 4) (it : Fin 8) (p : Fin 64) (o : Fin 128) :
    h (ix3 b ⟨it.val * 64 + p.val, by omega⟩ o)
      + ((((0 + ∑ q : Fin 128, kterm h mask wiT wjT w2T b1r b2r b ⟨it.val * 64 + p.val, by omega⟩ ⟨q.val, by omega⟩ o)
          + ∑ q : Fin 128, kterm h mask wiT wjT w2T b1r b2r b ⟨it.val * 64 + p.val, by omega⟩ ⟨128 + q.val, by omega⟩ o)
          + ∑ q : Fin 128, kterm h mask wiT wjT w2T b1r b2r b ⟨it.val * 64 + p.val, by omega⟩ ⟨256 + q.val, by omega⟩ o)
          + ∑ q : Fin 128, kterm h mask wiT wjT w2T b1r b2r b ⟨it.val * 64 + p.val, by omega⟩ ⟨384 + q.val, by omega⟩ o)
      = layerAt h mask w1 b1 w2 b2 l b ⟨it.val * 64 + p.val, by omega⟩ o := by
  unfold layerAt
  refine congrArg (h (ix3 b ⟨it.val * 64 + p.val, by omega⟩ o) + ·) ?_
  refine (sum512_tiles fun j => kterm h mask wiT wjT w2T b1r b2r b ⟨it.val * 64 + p.val, by omega⟩ j o).trans ?_
  exact Finset.sum_congr rfl fun j _ =>
    kterm_eq h mask wiT wjT w2T b1r b2r l w1 b1 w2 b2 hwi hwj hw2 hb1 hb2 b _ j o

end Cert.Gnn

end
-- ==== Proof.KFun.lean ====
/-
  The layer over the staged operands as a function of the whole node-feature array: at each entry, the node's feature plus
  the sum over all nodes j of the masked message of edge (i, j). When the staged operands are layer l's weights and biases
  it is the specification's layer.
-/
import proofs.«117494_j19645180411919_1_alg».proof.Proof.KLayer

noncomputable section

open scoped BigOperators

namespace Cert.Gnn

open Idealize.ShloMosaic Idealize.ShloMosaic.ValueIdx

/-- The layer over the staged operands, entry by entry. -/
def kfun (h : SH.Idx → EReal) (mask : SM.Idx → EReal) (wiT wjT w2T : SWT.Idx → EReal) (b1r b2r : SBR.Idx → EReal) :
    SH.Idx → EReal :=
  fun y => h y + ∑ j : Fin 512, kterm h mask wiT wjT w2T b1r b2r (y 0) (y 1) j (y 2)

/-- When the staged operands are layer l's weights and biases, the layer over them is the specification's layer l. -/
theorem kfun_eq_layer (h : SH.Idx → EReal) (mask : SM.Idx → EReal) (wiT wjT w2T : SWT.Idx → EReal) (b1r b2r : SBR.Idx → EReal)
    (l : Fin 2) (w1 : SW1.Idx → EReal) (b1 : SB.Idx → EReal) (w2 : SW2.Idx → EReal) (b2 : SB.Idx → EReal)
    (hwi : ∀ e d : Fin 128, wiT (ix2 e d) = w1 (ix3 l d (lo e)))
    (hwj : ∀ e d : Fin 128, wjT (ix2 e d) = w1 (ix3 l d (hi e)))
    (hw2 : ∀ d o : Fin 128, w2T (ix2 d o) = w2 (ix3 l o d))
    (hb1 : ∀ d : Fin 128, b1r (ix2 0 d) = b1 (ix2 l d))
    (hb2 : ∀ o : Fin 128, b2r (ix2 0 o) = b2 (ix2 l o)) :
    kfun h mask wiT wjT w2T b1r b2r = layer h mask w1 b1 w2 b2 l := by
  funext y
  show h y + ∑ j : Fin 512, kterm h mask wiT wjT w2T b1r b2r (y 0) (y 1) j (y 2)
    = h (ix3 (y 0) (y 1) (y 2)) + ∑ j : Fin 512, edge h w1 b1 w2 b2 l (y 0) (y 1) j (y 2) * mask (ix3 (y 0) (y 1) j)
  exact congrArg₂ (· + ·) (congrArg h (eq_ix3 (n0 := 4) (n1 := 512) (n2 := 128) y))
    (Finset.sum_congr rfl fun j _ => kterm_eq h mask wiT wjT w2T b1r b2r l w1 b1 w2 b2 hwi hwj hw2 hb1 hb2 (y 0) (y 1) j (y 2))

end Cert.Gnn

end
-- ==== Proof.KI.KGlue.lean ====
/-
  A layer's kernel call, fed the arrays the host operations before it staged, computes the specification's layer of the
  arrays those host operations started from: the staged weights and biases are entries of the argument arrays, and the
  node features and the mask pass through the host operations untouched.
-/
import proofs.«117494_j19645180411919_1_alg».proof.Proof.KI.HostGlue
import proofs.«117494_j19645180411919_1_alg».proof.Proof.KFun

set_option maxRecDepth 16384

noncomputable section

namespace Cert.KernelIdeal.HostGlue

open Cert.KernelIdeal Cert.KernelIdeal.Gen
open Idealize.ShloMosaic Idealize.ShloMosaic.ValueIdx

variable (W : Valuation τ sig (Elt Ideal))

/-- The first layer: over the arrays staged before the first call, the layer function is layer 0 of the argument arrays. -/
theorem layer0_of :
    Cert.Gnn.kfun (StableHlo.after (hostOps0 (F := Ideal)) W (Proc.devRef .tc main_arg0) : S4x512x128.Idx → EReal)
        (StableHlo.after (hostOps0 (F := Ideal)) W (Proc.devRef .tc main_arg1) : S4x512x512.Idx → EReal)
        (StableHlo.after (hostOps0 (F := Ideal)) W (Proc.devRef .tc main_v7) : S128x128.Idx → EReal)
        (StableHlo.after (hostOps0 (F := Ideal)) W (Proc.devRef .tc main_v9) : S128x128.Idx → EReal)
        (StableHlo.after (hostOps0 (F := Ideal)) W (Proc.devRef .tc main_v13) : S128x128.Idx → EReal)
        (StableHlo.after (hostOps0 (F := Ideal)) W (Proc.devRef .tc main_v16) : S1x128.Idx → EReal)
        (StableHlo.after (hostOps0 (F := Ideal)) W (Proc.devRef .tc main_v19) : S1x128.Idx → EReal)
      = Cert.Gnn.layer (W (Proc.devRef .tc main_arg0) : S4x512x128.Idx → EReal) (W (Proc.devRef .tc main_arg1) : S4x512x512.Idx → EReal)
          (W (Proc.devRef .tc main_arg2) : S2x128x256.Idx → EReal) (W (Proc.devRef .tc main_arg3) : S2x128.Idx → EReal)
          (W (Proc.devRef .tc main_arg4) : S2x128x128.Idx → EReal) (W (Proc.devRef .tc main_arg5) : S2x128.Idx → EReal) 0 := by
  rw [glue0_keeps W main_arg0 (by decide), glue0_keeps W main_arg1 (by decide)]
  exact Cert.Gnn.kfun_eq_layer _ _ _ _ _ _ _ 0 _ _ _ _ (glue0_v7 W) (glue0_v9 W) (glue0_v13 W) (glue0_v16 W) (glue0_v19 W)

/-- The second layer: over the arrays staged before the second call, with the first call's result as the node features,
the layer function is layer 1 of that result and the argument arrays. -/
theorem layer1_of :
    Cert.Gnn.kfun (StableHlo.after (hostOps1 (F := Ideal)) W (Proc.devRef .tc main_v20) : S4x512x128.Idx → EReal)
        (StableHlo.after (hostOps1 (F := Ideal)) W (Proc.devRef .tc main_arg1) : S4x512x512.Idx → EReal)
        (StableHlo.after (hostOps1 (F := Ideal)) W (Proc.devRef .tc main_v28) : S128x128.Idx → EReal)
        (StableHlo.after (hostOps1 (F := Ideal)) W (Proc.devRef .tc main_v30) : S128x128.Idx → EReal)
        (StableHlo.after (hostOps1 (F := Ideal)) W (Proc.devRef .tc main_v34) : S128x128.Idx → EReal)
        (StableHlo.after (hostOps1 (F := Ideal)) W (Proc.devRef .tc main_v37) : S1x128.Idx → EReal)
        (StableHlo.after (hostOps1 (F := Ideal)) W (Proc.devRef .tc main_v40) : S1x128.Idx → EReal)
      = Cert.Gnn.layer (W (Proc.devRef .tc main_v20) : S4x512x128.Idx → EReal) (W (Proc.devRef .tc main_arg1) : S4x512x512.Idx → EReal)
          (W (Proc.devRef .tc main_arg2) : S2x128x256.Idx → EReal) (W (Proc.devRef .tc main_arg3) : S2x128.Idx → EReal)
          (W (Proc.devRef .tc main_arg4) : S2x128x128.Idx → EReal) (W (Proc.devRef .tc main_arg5) : S2x128.Idx → EReal) 1 := by
  rw [glue1_keeps W main_v20 (by decide), glue1_keeps W main_arg1 (by decide)]
  exact Cert.Gnn.kfun_eq_layer _ _ _ _ _ _ _ 1 _ _ _ _ (glue1_v28 W) (glue1_v30 W) (glue1_v34 W) (glue1_v37 W) (glue1_v40 W)

end Cert.KernelIdeal.HostGlue

end
-- ==== Proof.KI.KValue.lean ====
/-
  The program's result is the two-layer network. The second call's output array holds the layer function of the arrays
  staged before it; those are layer 1's weights and biases, the mask, and the first call's output; that output holds the
  layer function of the arrays staged before the first call, which are layer 0's weights and biases, the mask and the
  node features the program was launched with. So the result is layer 1 of layer 0 of the launch arrays.
-/
import proofs.«117494_j19645180411919_1_alg».proof.Proof.KI.Regions
import proofs.«117494_j19645180411919_1_alg».proof.Proof.KI.KGlue

set_option maxRecDepth 16384

noncomputable section

namespace Cert.KernelIdeal.Hand

open Cert.KernelIdeal Cert.KernelIdeal.Gen
open Idealize.ShloMosaic Idealize.ShloMosaic.TcCoe Idealize.ShloMosaic.ValueIdx

/-- From the two calls' final output arrays, each the layer function of the arrays staged before its call, the buffer
of the program's result holds the two-layer network of the arrays the program was launched with. -/
theorem result_net (m : (ℓ : Loc nD τ sig) → Buf (Elt Ideal) ℓ) (c : Dev nD)
    (hfin0 : (dat0 (F := Ideal) (V1 m) c).arrAt 8 cfg0.N
      = Cert.Gnn.kfun (V1 m c main_arg0) (V1 m c main_arg1) (V1 m c main_v7) (V1 m c main_v9) (V1 m c main_v13)
          (V1 m c main_v16) (V1 m c main_v19))
    (hfin1 : (dat1 (F := Ideal) (V3 m) c).arrAt 8 cfg1.N
      = Cert.Gnn.kfun (V3 m c main_v20) (V3 m c main_arg1) (V3 m c main_v28) (V3 m c main_v30) (V3 m c main_v34)
          (V3 m c main_v37) (V3 m c main_v40)) :
    W4 m c (Proc.devRef .tc main_v41)
      = Cert.Gnn.net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  -- the second call's output, then the layer over what was staged before it
  refine (W4_out m c).trans (hfin1.trans ((HostGlue.layer1_of (W2 m c)).trans ?_))
  -- the arrays the second stretch of host operations started from
  have k0 : (W2 m c (Proc.devRef .tc main_v20) : S4x512x128.Idx → EReal)
      = Cert.Gnn.layer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) 0 :=
    (W2_out m c).trans (hfin0.trans (HostGlue.layer0_of (W0 m c)))
  have a1 : (W2 m c (Proc.devRef .tc main_arg1) : S4x512x512.Idx → EReal) = m ((c.tc : Thread nD τ).loc main_arg1) :=
    (W2_of_ne m c main_arg1 (by decide)).trans (HostGlue.glue0_keeps (W0 m c) main_arg1 (by decide))
  have a2 : (W2 m c (Proc.devRef .tc main_arg2) : S2x128x256.Idx → EReal) = m ((c.tc : Thread nD τ).loc main_arg2) :=
    (W2_of_ne m c main_arg2 (by decide)).trans (HostGlue.glue0_keeps (W0 m c) main_arg2 (by decide))
  have a3 : (W2 m c (Proc.devRef .tc main_arg3) : S2x128.Idx → EReal) = m ((c.tc : Thread nD τ).loc main_arg3) :=
    (W2_of_ne m c main_arg3 (by decide)).trans (HostGlue.glue0_keeps (W0 m c) main_arg3 (by decide))
  have a4 : (W2 m c (Proc.devRef .tc main_arg4) : S2x128x128.Idx → EReal) = m ((c.tc : Thread nD τ).loc main_arg4) :=
    (W2_of_ne m c main_arg4 (by decide)).trans (HostGlue.glue0_keeps (W0 m c) main_arg4 (by decide))
  have a5 : (W2 m c (Proc.devRef .tc main_arg5) : S2x128.Idx → EReal) = m ((c.tc : Thread nD τ).loc main_arg5) :=
    (W2_of_ne m c main_arg5 (by decide)).trans (HostGlue.glue0_keeps (W0 m c) main_arg5 (by decide))
  rw [k0, a1, a2, a3, a4, a5]
  rfl

end Cert.KernelIdeal.Hand

end
-- ==== Proof.KI.Pieces0.lean ====
/-
  What the body of the first layer's kernel leaves, in each of its three control cases, as a function of the blocks it
  reads. The body adds to a running sum (one 64×128 block per node tile) the masked messages of one neighbour tile:
  at the first neighbour tile the sum starts from the zero block, at a later one from what the tile before left, and at
  the last one the output block is the node features plus the completed sum. Each statement reads the one covering
  store the case ends with: a load through the whole block at zero offsets reads the block, and a store through it
  leaves its payload.
-/
import proofs.«117494_j19645180411919_1_alg».proof.Proof.KI.Frame0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rank-2 zero offsets, as the constant function. -/
theorem hz0_2 : (![0, 0] : Fin 2 → Nat) = fun _ => 0 := funext fun a => by fin_cases a <;> rfl
/-- The rank-3 zero offsets, as the constant function. -/
theorem hz0_3 : (![0, 0, 0] : Fin 3 → Nat) = fun _ => 0 := funext fun a => by fin_cases a <;> rfl

/-- First neighbour tile: the running sum is the zero block plus this tile's masked messages (the zero block is
    stored, read back, and the sum stored over it: the later store is the one that stays). -/
theorem sout0_A_eq (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : cond0_0 i) (hc1 : ¬cond0_1 i) (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) :
    sout0_A c i arg3 harg3 arg4 harg4 arg5 harg5 arg6 harg6 arg7 harg7 arg8 harg8 arg9 harg9 arg10 harg10 arg11 harg11 arg12 harg12 hc0 hc1 x0 x1 x2 x3 x4 x5 x6 x7 = k0_pay1 (k0_pay5 x0 x1 x3 x4 x5 x6) x7 x2 (k0_pay3 (F := F)) := by
  unfold sout0_A
  rw [View.read_writes_eq_canon _ _ _ (scover0_A_0 c i arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S64x128) hz0_2, View.readCov_unit_zero (S := S64x128) _ hz0_2]
  simp only [View.readAt_eq_ld, harg3.read_unread, harg4.read_unread, harg5.read_unread, harg6.read_unread, harg7.read_unread,
    harg8.read_unread, harg9.read_unread, harg10.read_unread, harg12.read_unread,
    View.ld_unit_zero (S := S1x64x128) hz0_3, View.ld_unit_zero (S := S1x128x128) hz0_3, View.ld_unit_zero (S := S128x128) hz0_2,
    View.ld_unit_zero (S := S1x128) hz0_2, View.ld_unit_zero (S := S64x128) hz0_2]

/-- A middle neighbour tile: the running sum is what the tile before left plus this tile's masked messages. -/
theorem sout0_B_eq (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond0_0 i) (hc1 : ¬cond0_1 i) (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) :
    sout0_B c i arg3 harg3 arg4 harg4 arg5 harg5 arg6 harg6 arg7 harg7 arg8 harg8 arg9 harg9 arg10 harg10 arg11 harg11 arg12 harg12 hc0 hc1 x0 x1 x2 x3 x4 x5 x6 x7 xs0 = k0_pay1 (k0_pay5 x0 x1 x3 x4 x5 x6) x7 x2 xs0 := by
  unfold sout0_B
  rw [View.read_writes_eq_canon _ _ _ (scover0_B_0 c i arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_B
  dsimp only
  sl_unfold_words
  rw [View.canon_unit_zero hz0_2]
  simp only [View.readAt_eq_ld, harg3.read_unread, harg4.read_unread, harg5.read_unread, harg6.read_unread, harg7.read_unread,
    harg8.read_unread, harg9.read_unread, harg10.read_unread, harg12.read_unread,
    View.ld_unit_zero (S := S1x64x128) hz0_3, View.ld_unit_zero (S := S1x128x128) hz0_3, View.ld_unit_zero (S := S128x128) hz0_2,
    View.ld_unit_zero (S := S1x128) hz0_2, View.ld_unit_zero (S := S64x128) hz0_2]

/-- The last neighbour tile: the running sum is again what the tile before left plus this tile's masked messages. -/
theorem sout0_C_eq (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond0_0 i) (hc1 : cond0_1 i) (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) :
    sout0_C c i arg3 harg3 arg4 harg4 arg5 harg5 arg6 harg6 arg7 harg7 arg8 harg8 arg9 harg9 arg10 harg10 arg11 harg11 arg12 harg12 hc0 hc1 x0 x1 x2 x3 x4 x5 x6 x7 xs0 = k0_pay1 (k0_pay5 x0 x1 x3 x4 x5 x6) x7 x2 xs0 := by
  unfold sout0_C
  rw [View.read_writes_eq_canon _ _ _ (scover0_C_0 c i arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  sl_unfold_words
  rw [View.canon_unit_zero hz0_2]
  simp only [View.readAt_eq_ld, harg3.read_unread, harg4.read_unread, harg5.read_unread, harg6.read_unread, harg7.read_unread,
    harg8.read_unread, harg9.read_unread, harg10.read_unread, harg12.read_unread,
    View.ld_unit_zero (S := S1x64x128) hz0_3, View.ld_unit_zero (S := S1x128x128) hz0_3, View.ld_unit_zero (S := S128x128) hz0_2,
    View.ld_unit_zero (S := S1x128) hz0_2, View.ld_unit_zero (S := S64x128) hz0_2]

/-- The last neighbour tile: the output block is the node-feature block plus the completed running sum (the sum just
    stored is read back whole). -/
theorem out0_C_eq (c : Dev nD) (i : grid0.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond0_0 i) (hc1 : cond0_1 i) (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) :
    out0_C c i arg3 harg3 arg4 harg4 arg5 harg5 arg6 harg6 arg7 harg7 arg8 harg8 arg9 harg9 arg10 harg10 arg11 harg11 arg12 harg12 hc0 hc1 x0 x1 x2 x3 x4 x5 x6 x7 xs0 = k0_pay2 (k0_pay4 x0) (k0_pay1 (k0_pay5 x0 x1 x3 x4 x5 x6) x7 x2 xs0) := by
  unfold out0_C
  rw [View.read_writes_eq_canon _ _ _ (cover0_C_8 c i arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  sl_unfold_words
  rw [View.canon_unit_zero hz0_3, View.readCov_unit_zero _ hz0_2]
  simp only [View.readAt_eq_ld, harg3.read_unread, harg4.read_unread, harg5.read_unread, harg6.read_unread, harg7.read_unread,
    harg8.read_unread, harg9.read_unread, harg10.read_unread, harg12.read_unread,
    View.ld_unit_zero (S := S1x64x128) hz0_3, View.ld_unit_zero (S := S1x128x128) hz0_3, View.ld_unit_zero (S := S128x128) hz0_2,
    View.ld_unit_zero (S := S1x128) hz0_2, View.ld_unit_zero (S := S64x128) hz0_2]

end Cert.KernelIdeal.Hand

end
-- ==== Proof.KI.Unroll0.lean ====
/-
  The output block the first layer's kernel stores at the last neighbour tile of a node tile, unrolled over the node tile's
  four grid points. The grid runs the neighbour tile fastest, so the four points of a node tile are consecutive: the
  first starts the running sum from the zero block, each later one adds its tile's masked messages to what the point
  before left, and the last one stores the node features plus the completed sum.
-/
import proofs.«117494_j19645180411919_1_alg».proof.Proof.KI.Frame0
import proofs.«117494_j19645180411919_1_alg».proof.Proof.KI.Pieces0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## The running sum over the four neighbour tiles of a node tile -/

/-- One accumulation step at grid point t: the running sum xs plus the masked messages of t's neighbour tile, from the
    blocks the point reads. -/
abbrev accStep0 (c : Dev nD) (t : Fin cfg0.N) (xs : Vec F S64x128 .f32) : Vec F S64x128 .f32 :=
  (k0_pay1 (k0_pay5 (iblk0 V c 0 t) (iblk0 V c 1 t) (iblk0 V c 3 t) (iblk0 V c 4 t) (iblk0 V c 5 t) (iblk0 V c 6 t)) (iblk0 V c 7 t) (iblk0 V c 2 t) xs)

/-- At a first neighbour tile the running sum is one step from the zero block. -/
theorem sum0_first (c : Dev nD) (t : Fin cfg0.N) (h0 : t.val % 4 = 0) (h1 : ¬t.val % 4 = 3) :
    (outsAt0 V c t.val t.isLt).2 = accStep0 V c t (k0_pay3 (F := F)) :=
  (outsAt0_A V c t h0 h1).trans (sout0_A_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t))

/-- At a middle neighbour tile the running sum is one step from the sum the point before left. -/
theorem sum0_next (c : Dev nD) (t : Fin cfg0.N) (h0 : ¬t.val % 4 = 0) (h1 : ¬t.val % 4 = 3) :
    (outsAt0 V c t.val t.isLt).2
      = accStep0 V c t (outsAt0 V c (t.val - 1) (Nat.lt_of_le_of_lt (Nat.sub_le _ _) t.isLt)).2 :=
  (outsAt0_B V c t h0 h1).trans (sout0_B_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2)

/-- At the last neighbour tile the output block is the node-feature block plus one more step from the sum the point
    before left. -/
theorem out0_last (c : Dev nD) (t : Fin cfg0.N) (h0 : ¬t.val % 4 = 0) (h1 : t.val % 4 = 3) :
    (outsAt0 V c t.val t.isLt).1
      = k0_pay2 (k0_pay4 (iblk0 V c 0 t)) (accStep0 V c t (outsAt0 V c (t.val - 1) (Nat.lt_of_le_of_lt (Nat.sub_le _ _) t.isLt)).2) :=
  (congrArg Prod.fst (outsAt0_C V c t h0 h1)).trans (out0_C_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2)

/-- The output block stored at a last neighbour tile t, unrolled over the four points t − 3, …, t of its node tile: the
    node features plus four accumulation steps from the zero block, in point order. -/
theorem after0_8_unrolled (c : Dev nD) (t : Fin cfg0.N) (h3 : t.val % 4 = 3) :
    (dat0 V c).after 8 t
      = k0_pay2 (k0_pay4 (iblk0 V c 0 t))
          (accStep0 V c t
            (accStep0 V c ⟨t.val - 1, Nat.lt_of_le_of_lt (Nat.sub_le _ _) t.isLt⟩
              (accStep0 V c ⟨t.val - 2, Nat.lt_of_le_of_lt (Nat.sub_le _ _) t.isLt⟩
                (accStep0 V c ⟨t.val - 3, Nat.lt_of_le_of_lt (Nat.sub_le _ _) t.isLt⟩ (k0_pay3 (F := F)))))) := by
  rw [after0_8]
  obtain ⟨n, hn⟩ := t
  obtain ⟨m, rfl⟩ : ∃ m, n = m + 3 := ⟨n - 3, by dsimp only at h3; omega⟩
  have hm : m % 4 = 0 := by dsimp only at h3; omega
  have hn2 : m + 2 < cfg0.N := by omega
  have hn1 : m + 1 < cfg0.N := by omega
  have hn0 : m < cfg0.N := by omega
  refine (out0_last V c ⟨m + 3, hn⟩ (by dsimp only; omega) h3).trans ?_
  refine congrArg (fun xs => k0_pay2 (k0_pay4 (iblk0 V c 0 ⟨m + 3, hn⟩)) (accStep0 V c ⟨m + 3, hn⟩ xs)) ?_
  refine (sum0_next V c ⟨m + 2, hn2⟩ (by dsimp only; omega) (by dsimp only; omega)).trans ?_
  refine congrArg (accStep0 V c ⟨m + 2, hn2⟩) ?_
  refine (sum0_next V c ⟨m + 1, hn1⟩ (by dsimp only; omega) (by dsimp only; omega)).trans ?_
  refine congrArg (accStep0 V c ⟨m + 1, hn1⟩) ?_
  exact sum0_first V c ⟨m, hn0⟩ hm (by dsimp only; omega)

end Cert.KernelIdeal.Hand

end
-- ==== Proof.KI.GridPt.lean ====
/-
  The grid of each of the two kernel calls is (batch, node tile, neighbour tile) = (4, 8, 4), its 128 points numbered in
  row-major order: point n has batch n / 32, node tile (n / 4) mod 8 and neighbour tile n mod 4. A node tile is 64
  rows of the 512 nodes, a neighbour tile 128 of them. Here: the batch of a point, and the node a row of its node
  tile or a column of its neighbour tile is.
-/
import Idealize.ShloMosaic.Lib.ValueIdx

namespace Cert.KernelIdeal.Hand

/-- The batch of grid point n. -/
def ptB (n : ℕ) (h : n < 128) : Fin 4 := ⟨n / 32, by omega⟩
/-- The node that row p of grid point n's node tile is. -/
def ptRow (n : ℕ) (h : n < 128) (p : Fin 64) : Fin 512 := ⟨(n / 4 % 8) * 64 + p.val, by omega⟩
/-- The node that column q of grid point n's neighbour tile is. -/
def ptCol (n : ℕ) (h : n < 128) (q : Fin 128) : Fin 512 := ⟨(n % 4) * 128 + q.val, by omega⟩

@[simp] theorem ptB_val (n : ℕ) (h : n < 128) : (ptB n h).val = n / 32 := rfl
@[simp] theorem ptRow_val (n : ℕ) (h : n < 128) (p : Fin 64) : (ptRow n h p).val = (n / 4 % 8) * 64 + p.val := rfl
@[simp] theorem ptCol_val (n : ℕ) (h : n < 128) (q : Fin 128) : (ptCol n h q).val = (n % 4) * 128 + q.val := rfl

/-- The last neighbour tile's point of batch b and of the node tile node r lies in: the point that writes node r's row back. -/
def ptOf (b : Fin 4) (r : Fin 512) : ℕ := 32 * b.val + 4 * (r.val / 64) + 3

theorem ptOf_lt (b : Fin 4) (r : Fin 512) : ptOf b r < 128 := by unfold ptOf; omega
theorem ptOf_mod (b : Fin 4) (r : Fin 512) : ptOf b r % 4 = 3 := by unfold ptOf; omega
theorem ptOf_batch (b : Fin 4) (r : Fin 512) : ptOf b r / 32 = b.val := by unfold ptOf; omega
theorem ptOf_tile (b : Fin 4) (r : Fin 512) : ptOf b r / 4 % 8 = r.val / 64 := by unfold ptOf; omega

end Cert.KernelIdeal.Hand
-- ==== Proof.KI.Blocks0.lean ====
/-
  Where the blocks of kernel call 0 sit in their arrays.

  The call's grid is (batch, node tile, neighbour tile) = (4, 8, 4) in row-major order, so point t has batch t / 32,
  node tile (t / 4) mod 8 and neighbour tile t mod 4. At point t the call reads rows 64 * (node tile) … + 63 of the
  node features and of the mask of that batch, rows 128 * (neighbour tile) … + 127 of the node features again (the
  sending nodes), columns 128 * (neighbour tile) … + 127 of the mask, and the whole of each staged weight and bias; at
  the last neighbour tile it writes rows 64 * (node tile) … + 63 of the output back. Those 32 output blocks tile the
  output array.
-/
import proofs.«117494_j19645180411919_1_alg».proof.Proof.KI.Frame0
import Idealize.ShloMosaic.Lib.Pipeline.Value
import Idealize.ShloMosaic.Lib.ValueIdx
import proofs.«117494_j19645180411919_1_alg».proof.Proof.KI.GridPt

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The grid has 128 points. -/
theorem lt0 (t : Fin cfg0.N) : t.val < 128 := lt_of_lt_of_eq t.isLt N_0

/-! ## The block index of each window at each grid point -/

theorem idx0_0 : ∀ t : Fin cfg0.N, win0_0.index t (0 : Fin 3) = t.val / 32 ∧ win0_0.index t (1 : Fin 3) = (t.val / 4) % 8
    ∧ win0_0.index t (2 : Fin 3) = 0 :=
  (by decide +kernel : ∀ t : Fin grid0.N, _)
theorem idx0_1 : ∀ t : Fin cfg0.N, win0_1.index t (0 : Fin 3) = t.val / 32 ∧ win0_1.index t (1 : Fin 3) = t.val % 4
    ∧ win0_1.index t (2 : Fin 3) = 0 :=
  (by decide +kernel : ∀ t : Fin grid0.N, _)
theorem idx0_2 : ∀ t : Fin cfg0.N, win0_2.index t (0 : Fin 3) = t.val / 32 ∧ win0_2.index t (1 : Fin 3) = (t.val / 4) % 8
    ∧ win0_2.index t (2 : Fin 3) = t.val % 4 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 3) = t.val / 32 ∧ win0_8.index t (1 : Fin 3) = (t.val / 4) % 8
    ∧ win0_8.index t (2 : Fin 3) = 0 :=
  (by decide +kernel : ∀ t : Fin grid0.N, _)

/-! ## Each input block, entry by entry -/

/-- The receiving nodes' block at point t: row p is node (node tile) * 64 + p of the point's batch. -/
theorem iblk0_0_apply (c : Dev nD) (t : Fin cfg0.N) (p : Fin 64) (e : Fin 128) :
    (iblk0 V c 0 t : S1x64x128.Idx → Elt F .f32) (ix3 0 p e)
      = (V c main_arg0 : S4x512x128.Idx → Elt F .f32) (ix3 (ptB t.val (lt0 t)) (ptRow t.val (lt0 t) p) e) := by
  obtain ⟨e0, e1, e2⟩ := idx0_0 t
  unfold iblk0
  rw [View.read_apply]
  show V c main_arg0 _ = V c main_arg0 _
  congr 1
  funext a
  apply Fin.ext
  match a with
  | ⟨0, _⟩ => show win0_0.index t (0 : Fin 3) * 1 + 1 * 0 = t.val / 32; rw [e0]; omega
  | ⟨1, _⟩ => show win0_0.index t (1 : Fin 3) * 64 + 1 * p.val = (t.val / 4 % 8) * 64 + p.val; rw [e1]; omega
  | ⟨2, _⟩ => show win0_0.index t (2 : Fin 3) * 128 + 1 * e.val = e.val; rw [e2]; omega

/-- The sending nodes' block at point t: row q is node (neighbour tile) * 128 + q of the point's batch. -/
theorem iblk0_1_apply (c : Dev nD) (t : Fin cfg0.N) (q e : Fin 128) :
    (iblk0 V c 1 t : S1x128x128.Idx → Elt F .f32) (ix3 0 q e)
      = (V c main_arg0 : S4x512x128.Idx → Elt F .f32) (ix3 (ptB t.val (lt0 t)) (ptCol t.val (lt0 t) q) e) := by
  obtain ⟨e0, e1, e2⟩ := idx0_1 t
  unfold iblk0
  rw [View.read_apply]
  show V c main_arg0 _ = V c main_arg0 _
  congr 1
  funext a
  apply Fin.ext
  match a with
  | ⟨0, _⟩ => show win0_1.index t (0 : Fin 3) * 1 + 1 * 0 = t.val / 32; rw [e0]; omega
  | ⟨1, _⟩ => show win0_1.index t (1 : Fin 3) * 128 + 1 * q.val = (t.val % 4) * 128 + q.val; rw [e1]; omega
  | ⟨2, _⟩ => show win0_1.index t (2 : Fin 3) * 128 + 1 * e.val = e.val; rw [e2]; omega

/-- The mask's block at point t: entry (p, q) is the mask between receiving node (node tile) * 64 + p and sending node
    (neighbour tile) * 128 + q of the point's batch. -/
theorem iblk0_2_apply (c : Dev nD) (t : Fin cfg0.N) (p : Fin 64) (q : Fin 128) :
    (iblk0 V c 2 t : S1x64x128.Idx → Elt F .f32) (ix3 0 p q)
      = (V c main_arg1 : S4x512x512.Idx → Elt F .f32) (ix3 (ptB t.val (lt0 t)) (ptRow t.val (lt0 t) p) (ptCol t.val (lt0 t) q)) := by
  obtain ⟨e0, e1, e2⟩ := idx0_2 t
  unfold iblk0
  rw [View.read_apply]
  show V c main_arg1 _ = V c main_arg1 _
  congr 1
  funext a
  apply Fin.ext
  match a with
  | ⟨0, _⟩ => show win0_2.index t (0 : Fin 3) * 1 + 1 * 0 = t.val / 32; rw [e0]; omega
  | ⟨1, _⟩ => show win0_2.index t (1 : Fin 3) * 64 + 1 * p.val = (t.val / 4 % 8) * 64 + p.val; rw [e1]; omega
  | ⟨2, _⟩ => show win0_2.index t (2 : Fin 3) * 128 + 1 * q.val = (t.val % 4) * 128 + q.val; rw [e2]; omega

/-- The left half of the staged first-layer weights is read whole at every point. -/
theorem iblk0_3_apply (c : Dev nD) (t : Fin cfg0.N) (e d : Fin 128) :
    (iblk0 V c 3 t : S128x128.Idx → Elt F .bf16) (ix2 e d) = (V c main_v7 : S128x128.Idx → Elt F .bf16) (ix2 e d) := by
  obtain ⟨e0, e1⟩ := idx0_3 t
  unfold iblk0
  rw [View.read_apply]
  show V c main_v7 _ = V c main_v7 _
  congr 1
  funext a
  apply Fin.ext
  match a with
  | ⟨0, _⟩ => show win0_3.index t (0 : Fin 2) * 128 + 1 * e.val = e.val; rw [e0]; omega
  | ⟨1, _⟩ => show win0_3.index t (1 : Fin 2) * 128 + 1 * d.val = d.val; rw [e1]; omega

/-- The right half of the staged first-layer weights is read whole at every point. -/
theorem iblk0_4_apply (c : Dev nD) (t : Fin cfg0.N) (e d : Fin 128) :
    (iblk0 V c 4 t : S128x128.Idx → Elt F .bf16) (ix2 e d) = (V c main_v9 : S128x128.Idx → Elt F .bf16) (ix2 e d) := by
  obtain ⟨e0, e1⟩ := idx0_4 t
  unfold iblk0
  rw [View.read_apply]
  show V c main_v9 _ = V c main_v9 _
  congr 1
  funext a
  apply Fin.ext
  match a with
  | ⟨0, _⟩ => show win0_4.index t (0 : Fin 2) * 128 + 1 * e.val = e.val; rw [e0]; omega
  | ⟨1, _⟩ => show win0_4.index t (1 : Fin 2) * 128 + 1 * d.val = d.val; rw [e1]; omega

/-- The staged first bias is read whole at every point. -/
theorem iblk0_5_apply (c : Dev nD) (t : Fin cfg0.N) (d : Fin 128) :
    (iblk0 V c 5 t : S1x128.Idx → Elt F .f32) (ix2 0 d) = (V c main_v16 : S1x128.Idx → Elt F .f32) (ix2 0 d) := by
  obtain ⟨e0, e1⟩ := idx0_5 t
  unfold iblk0
  rw [View.read_apply]
  show V c main_v16 _ = V c main_v16 _
  congr 1
  funext a
  apply Fin.ext
  match a with
  | ⟨0, _⟩ => show win0_5.index t (0 : Fin 2) * 1 + 1 * 0 = 0; rw [e0]
  | ⟨1, _⟩ => show win0_5.index t (1 : Fin 2) * 128 + 1 * d.val = d.val; rw [e1]; omega

/-- The staged second-layer weights are read whole at every point. -/
theorem iblk0_6_apply (c : Dev nD) (t : Fin cfg0.N) (d o : Fin 128) :
    (iblk0 V c 6 t : S128x128.Idx → Elt F .bf16) (ix2 d o) = (V c main_v13 : S128x128.Idx → Elt F .bf16) (ix2 d o) := by
  obtain ⟨e0, e1⟩ := idx0_6 t
  unfold iblk0
  rw [View.read_apply]
  show V c main_v13 _ = V c main_v13 _
  congr 1
  funext a
  apply Fin.ext
  match a with
  | ⟨0, _⟩ => show win0_6.index t (0 : Fin 2) * 128 + 1 * d.val = d.val; rw [e0]; omega
  | ⟨1, _⟩ => show win0_6.index t (1 : Fin 2) * 128 + 1 * o.val = o.val; rw [e1]; omega

/-- The staged second bias is read whole at every point. -/
theorem iblk0_7_apply (c : Dev nD) (t : Fin cfg0.N) (o : Fin 128) :
    (iblk0 V c 7 t : S1x128.Idx → Elt F .f32) (ix2 0 o) = (V c main_v19 : S1x128.Idx → Elt F .f32) (ix2 0 o) := by
  obtain ⟨e0, e1⟩ := idx0_7 t
  unfold iblk0
  rw [View.read_apply]
  show V c main_v19 _ = V c main_v19 _
  congr 1
  funext a
  apply Fin.ext
  match a with
  | ⟨0, _⟩ => show win0_7.index t (0 : Fin 2) * 1 + 1 * 0 = 0; rw [e0]
  | ⟨1, _⟩ => show win0_7.index t (1 : Fin 2) * 128 + 1 * o.val = o.val; rw [e1]; omega

/-! ## The output's blocks -/

/-- An index of the output array is in point t's block iff each coordinate is in the block's range on its axis. -/
theorem mem_blk0_8_axes (t : Fin cfg0.N) (i : S4x512x128.Idx) :
    i ∈ ((cfg0.win 8).blk t).view.set ↔ ∀ a : Fin 3, win0_8.index t a * S1x64x128.size a ≤ (i a).val ∧ (i a).val < win0_8.index t a * S1x64x128.size a + S1x64x128.size a := by
  show i ∈ ((View.whole main_v20).slice (win0_8.rect t)).set ↔ _
  rw [View.set_slice_whole, Rect.mem_set_unit]
  exact Iff.rfl

/-- Row r of batch b of the output lies in point t's block iff t has batch b and the node tile r lies in. -/
theorem mem_blk0_8 (t : Fin cfg0.N) (b : Fin 4) (r : Fin 512) (o : Fin 128) :
    (ix3 b r o : S4x512x128.Idx) ∈ ((cfg0.win 8).blk t).view.set ↔ t.val / 32 = b.val ∧ (t.val / 4) % 8 = r.val / 64 := by
  rw [mem_blk0_8_axes]
  obtain ⟨e0, e1, e2⟩ := idx0_8 t
  have ho : o.val < 128 := o.isLt
  constructor
  · intro h
    have h0 : win0_8.index t (0 : Fin 3) * 1 ≤ b.val ∧ b.val < win0_8.index t (0 : Fin 3) * 1 + 1 := h 0
    have h1 : win0_8.index t (1 : Fin 3) * 64 ≤ r.val ∧ r.val < win0_8.index t (1 : Fin 3) * 64 + 64 := h 1
    rw [e0] at h0; rw [e1] at h1
    omega
  · rintro ⟨hb, hr⟩ a
    match a with
    | ⟨0, _⟩ => show win0_8.index t (0 : Fin 3) * 1 ≤ b.val ∧ b.val < win0_8.index t (0 : Fin 3) * 1 + 1; rw [e0]; omega
    | ⟨1, _⟩ => show win0_8.index t (1 : Fin 3) * 64 ≤ r.val ∧ r.val < win0_8.index t (1 : Fin 3) * 64 + 64; rw [e1]; omega
    | ⟨2, _⟩ => show win0_8.index t (2 : Fin 3) * 128 ≤ o.val ∧ o.val < win0_8.index t (2 : Fin 3) * 128 + 128; rw [e2]; omega

/-- Row r of batch b of the output is written back by the last neighbour tile's point of that batch and of r's node tile. -/
theorem cover0_8_ix (b : Fin 4) (r : Fin 512) (o : Fin 128) :
    ∃ t : Fin cfg0.N, (cfg0.win 8).flush t = true ∧ (ix3 b r o : S4x512x128.Idx) ∈ ((cfg0.win 8).blk t).view.set :=
  ⟨⟨ptOf b r, lt_of_lt_of_eq (ptOf_lt b r) N_0.symm⟩, (flush0_8 _).mpr (ptOf_mod b r),
    (mem_blk0_8 _ b r o).mpr ⟨ptOf_batch b r, ptOf_tile b r⟩⟩

/-- Every index of the output array is in the block of some point that writes back. -/
theorem cover0_8 (c : Dev nD) (i : ((cfg0.win 8).arr.view.loc (c.tc : Thread nD τ)).2.ty.Idx) :
    ∃ t : Fin cfg0.N, (cfg0.win 8).flush t = true ∧ i ∈ ((cfg0.win 8).blk t).view.set := by
  obtain ⟨b, r, o, rfl⟩ : ∃ (b : Fin 4) (r : Fin 512) (o : Fin 128), i = (ix3 b r o : S4x512x128.Idx) :=
    ⟨i 0, i 1, i 2, eq_ix3 (n0 := 4) (n1 := 512) (n2 := 128) i⟩
  exact cover0_8_ix b r o

/-- Point t's block of a function of the whole output array: row p is node (node tile) * 64 + p of the point's batch. -/
theorem read_blk0_8 (G : S4x512x128.Idx → Elt F .f32) (t : Fin cfg0.N) (p : Fin 64) (o : Fin 128) :
    (((cfg0.win 8).blk t).view.read (Elt F) G : S1x64x128.Idx → Elt F .f32) (ix3 0 p o)
      = G (ix3 (ptB t.val (lt0 t)) (ptRow t.val (lt0 t) p) o) := by
  obtain ⟨e0, e1, e2⟩ := idx0_8 t
  rw [View.read_apply]
  show G _ = G _
  congr 1
  funext a
  apply Fin.ext
  match a with
  | ⟨0, _⟩ => show win0_8.index t (0 : Fin 3) * 1 + 1 * 0 = t.val / 32; rw [e0]; omega
  | ⟨1, _⟩ => show win0_8.index t (1 : Fin 3) * 64 + 1 * p.val = (t.val / 4 % 8) * 64 + p.val; rw [e1]; omega
  | ⟨2, _⟩ => show win0_8.index t (2 : Fin 3) * 128 + 1 * o.val = o.val; rw [e2]; omega

end Cert.KernelIdeal.Hand

end
-- ==== Proof.KI.PayLayout.lean ====
/-
  Layout operations of a message-passing kernel's body read at an index given by coordinates: the shape casts that add a
  unit axis in the middle or at the end of a matrix's shape, the casts between [a, b, c] and [a * b, c], the broadcasts of
  a rank-3 block along one or two of its axes, a sum over the middle axis of a rank-3 block, and a plain matrix product
  (rows by contraction times contraction by columns) accumulated into the zero splat, as a sum over the contraction
  coordinate.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayLayout

open Idealize.ShloMosaic Idealize.ShloMosaic.ValueIdx

variable {α : Type}

/-! ## Shape casts -/

/-- An `[a]` array cast to `[1, 1, a]` reads, at `(u, v, i)`, the operand at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]
    simp)

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, c]` array cast to `[n, c]` reads, at row `r = i * b + j` and column `k`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` array cast to `[a, b, c]` reads, at `(i, j, k)`, the operand at row `r = i * b + j` and column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-! ## Broadcasts of a rank-3 block -/

/-- A `[1, 1, c]` array broadcast to `[a, b, c]` reads, at `(i, j, k)`, the operand's one row at `k`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## A sum over the middle axis -/

/-- At the ideal values a sum over the middle axis of an `[a, b, c]` block reads, at `(i, k)`, the sum over `j` of the
block at `(i, j, k)`. -/
theorem multiReduction_add_mid_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction (F := Ideal) .add [1] ⟨2, ![a, c]⟩ src acc h hφ hacc (ix2 i k) = ∑ j : Fin b, src (ix3 i j k) := by
  refine (Ideal.multiReduction_add_single src acc h hφ hacc (ix2 i k)).trans ?_
  refine Finset.sum_congr rfl fun j _ => congrArg src (funext fun ax => Fin.ext ?_)
  match ax with
  | ⟨0, _⟩ => rfl
  | ⟨1, _⟩ => rfl
  | ⟨2, _⟩ => rfl

/-! ## A plain matrix product into the zero accumulator -/

/-- At the ideal values a matrix product of an `[m, k]` by a `[k, n]` operand accumulated into the zero splat reads, at
`(i, j)`, the sum over the contraction coordinate `e` of the products of the operands at `(i, e)` and `(e, j)`. The
dimension numbers enter through what they say of the operand indices (`hl0` … `hr1`): the left operand is read at the
result's row and the contraction coordinate, the right operand at the contraction coordinate and the result's column. -/
theorem matmul_plain_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ (y : (⟨2, ![m, n]⟩ : Shape).Idx) (q : D.contr.Idx), (D.lhsIdx y q 0).val = (y 0).val)
    (hl1 : ∀ (y : (⟨2, ![m, n]⟩ : Shape).Idx) (q : D.contr.Idx), (D.lhsIdx y q 1).val = (q ⟨0, by omega⟩).val)
    (hr0 : ∀ (y : (⟨2, ![m, n]⟩ : Shape).Idx) (q : D.contr.Idx), (D.rhsIdx y q 0).val = (q ⟨0, by omega⟩).val)
    (hr1 : ∀ (y : (⟨2, ![m, n]⟩ : Shape).Idx) (q : D.contr.Idx), (D.rhsIdx y q 1).val = (y 1).val)
    (prec : Option ContractPrecision) (lhs : FVec Ideal ⟨2, ![m, k]⟩ φ₁) (rhs : FVec Ideal ⟨2, ![k, n]⟩ φ₂)
    (i : Fin m) (j : Fin n) :
    matmul (F := Ideal) D prec lhs rhs (constant (F := Ideal) ⟨2, ![m, n]⟩ .f32 0x00000000#32) (ix2 i j)
      = ∑ e : Fin k, lhs (ix2 i e) * rhs (ix2 e j) := by
  refine (Ideal.matmul_constant_zero_apply D prec lhs rhs (ix2 i j)).trans ?_
  rw [← Equiv.sum_comp (contrEquiv1 D k hr hs).symm]
  refine Finset.sum_congr rfl fun e _ => ?_
  have he := contrEquiv1_symm_val D k hr hs e
  have el : D.lhsIdx (ix2 i j) ((contrEquiv1 D k hr hs).symm e) = ix2 i e := funext fun ax => Fin.ext (by
    match ax with
    | ⟨0, _⟩ => exact hl0 _ _
    | ⟨1, _⟩ => exact (hl1 _ _).trans he)
  have er : D.rhsIdx (ix2 i j) ((contrEquiv1 D k hr hs).symm e) = ix2 e j := funext fun ax => Fin.ext (by
    match ax with
    | ⟨0, _⟩ => exact (hr0 _ _).trans he
    | ⟨1, _⟩ => exact hr1 _ _)
  rw [el, er]

end Cert.KernelIdeal.PayLayout

end
-- ==== Proof.KI.PaySmall.lean ====
/-
  The small payloads of the two layers' kernels read at an index, at the ideal values: the node block with its unit
  axis dropped, the zero the accumulator starts from, the accumulator's update over one block of sending nodes, and the
  result block.
-/
import proofs.«117494_j19645180411919_1_alg».proof.Proof.Gen.KernelIdeal.Skeleton
import proofs.«117494_j19645180411919_1_alg».proof.Proof.KI.PayLayout

noncomputable section

open scoped BigOperators

namespace Cert.KernelIdeal.PayValue

open Cert.KernelIdeal Cert.KernelIdeal.Gen Cert.KernelIdeal.PayLayout Idealize.ShloMosaic Idealize.ShloMosaic.ValueIdx

/-! ## Layer one's kernel -/

/-- The node block with its leading unit axis dropped. -/
theorem pay4_0_apply (x0 : Vec Ideal S1x64x128 .f32) (p : Fin 64) (o : Fin 128) :
    k0_pay4 (F := Ideal) x0 (ix2 p o) = x0 (ix3 0 p o) := by
  unfold k0_pay4
  exact shapeCast_1ab_ab_apply x0 shapeCasts_S1x64x128_S64x128 p o

/-- The accumulator's initial value is zero everywhere. -/
theorem pay3_0_apply (y : S64x128.Idx) : k0_pay3 (F := Ideal) y = 0 := by
  unfold k0_pay3
  show shapeCast S64x128 (broadcast S64x128 (Scalar.ofBits (F := Ideal) .f32 0x00000000#32)) shapeCasts_S64x128_S64x128 y = 0
  rw [shapeCast_self]
  exact Ideal.ofBits_zero_f32

/-- The result block: the node's features plus the accumulated messages. -/
theorem pay2_0_apply (v4 : FVec Ideal S64x128 .f32) (v52 : Vec Ideal S64x128 .f32) (p : Fin 64) (o : Fin 128) :
    k0_pay2 (F := Ideal) v4 v52 (ix3 0 p o) = v4 (ix2 p o) + v52 (ix2 p o) := by
  unfold k0_pay2
  exact shapeCast_ab_1ab_apply (addf v4 v52) shapeCasts_S64x128_S1x64x128 0 p o

/-- The accumulator after one block of sending nodes: what it held plus, over the block's nodes q, the edge message
with its bias, times the mask's entry. -/
theorem pay1_0_apply (v32 : FVec Ideal S64x128x128 .f32) (x7 : Vec Ideal S1x128 .f32) (x2 : Vec Ideal S1x64x128 .f32)
    (v44 : Vec Ideal S64x128 .f32) (p : Fin 64) (o : Fin 128) :
    k0_pay1 (F := Ideal) v32 x7 x2 v44 (ix2 p o)
      = v44 (ix2 p o) + ∑ q : Fin 128, (v32 (ix3 p q o) + x7 (ix2 0 o)) * x2 (ix3 0 p q) := by
  unfold k0_pay1
  simp only []
  rw [shapeCast_self]
  show v44 (ix2 p o) + multiReduction (F := Ideal) .add [1] S64x128 _ 0x00000000#32 reduces_S64x128x128_S64x128 (.inl rfl) rfl (ix2 p o) = _
  refine congrArg (v44 (ix2 p o) + ·) ?_
  refine (multiReduction_add_mid_apply _ _ reduces_S64x128x128_S64x128 _ _ p o).trans ?_
  refine Finset.sum_congr rfl fun q _ => ?_
  show (v32 (ix3 p q o) + broadcastTo S64x128x128 _ broadcasts_S1x1x128_S64x128x128 (ix3 p q o))
      * broadcastTo S64x128x128 _ broadcasts_S64x128x1_S64x128x128 (ix3 p q o) = _
  rw [broadcastTo_11c_abc_apply, broadcastTo_ab1_abc_apply, shapeCast_a_11a_apply, shapeCast_ab_ab1_apply,
    shapeCast_1a_a_apply, shapeCast_1ab_ab_apply]

/-! ## Layer two's kernel -/

/-- The node block with its leading unit axis dropped. -/
theorem pay4_1_apply (x0 : Vec Ideal S1x64x128 .f32) (p : Fin 64) (o : Fin 128) :
    k1_pay4 (F := Ideal) x0 (ix2 p o) = x0 (ix3 0 p o) := by
  unfold k1_pay4
  exact shapeCast_1ab_ab_apply x0 shapeCasts_S1x64x128_S64x128 p o

/-- The accumulator's initial value is zero everywhere. -/
theorem pay3_1_apply (y : S64x128.Idx) : k1_pay3 (F := Ideal) y = 0 := by
  unfold k1_pay3
  show shapeCast S64x128 (broadcast S64x128 (Scalar.ofBits (F := Ideal) .f32 0x00000000#32)) shapeCasts_S64x128_S64x128 y = 0
  rw [shapeCast_self]
  exact Ideal.ofBits_zero_f32

/-- The result block: the node's features plus the accumulated messages. -/
theorem pay2_1_apply (v4 : FVec Ideal S64x128 .f32) (v52 : Vec Ideal S64x128 .f32) (p : Fin 64) (o : Fin 128) :
    k1_pay2 (F := Ideal) v4 v52 (ix3 0 p o) = v4 (ix2 p o) + v52 (ix2 p o) := by
  unfold k1_pay2
  exact shapeCast_ab_1ab_apply (addf v4 v52) shapeCasts_S64x128_S1x64x128 0 p o

/-- The accumulator after one block of sending nodes: what it held plus, over the block's nodes q, the edge message
with its bias, times the mask's entry. -/
theorem pay1_1_apply (v32 : FVec Ideal S64x128x128 .f32) (x7 : Vec Ideal S1x128 .f32) (x2 : Vec Ideal S1x64x128 .f32)
    (v44 : Vec Ideal S64x128 .f32) (p : Fin 64) (o : Fin 128) :
    k1_pay1 (F := Ideal) v32 x7 x2 v44 (ix2 p o)
      = v44 (ix2 p o) + ∑ q : Fin 128, (v32 (ix3 p q o) + x7 (ix2 0 o)) * x2 (ix3 0 p q) := by
  unfold k1_pay1
  simp only []
  rw [shapeCast_self]
  show v44 (ix2 p o) + multiReduction (F := Ideal) .add [1] S64x128 _ 0x00000000#32 reduces_S64x128x128_S64x128 (.inl rfl) rfl (ix2 p o) = _
  refine congrArg (v44 (ix2 p o) + ·) ?_
  refine (multiReduction_add_mid_apply _ _ reduces_S64x128x128_S64x128 _ _ p o).trans ?_
  refine Finset.sum_congr rfl fun q _ => ?_
  show (v32 (ix3 p q o) + broadcastTo S64x128x128 _ broadcasts_S1x1x128_S64x128x128 (ix3 p q o))
      * broadcastTo S64x128x128 _ broadcasts_S64x128x1_S64x128x128 (ix3 p q o) = _
  rw [broadcastTo_11c_abc_apply, broadcastTo_ab1_abc_apply, shapeCast_a_11a_apply, shapeCast_ab_ab1_apply,
    shapeCast_1a_a_apply, shapeCast_1ab_ab_apply]

end Cert.KernelIdeal.PayValue

end
-- ==== Proof.KI.PayDots.lean ====
/-
  The three matrix products of a layer's kernel read at an index, at the ideal values: each contracts the left operand's
  columns with the right operand's rows, into the zero splat.
-/
import proofs.«117494_j19645180411919_1_alg».proof.Proof.Gen.KernelIdeal.Skeleton
import proofs.«117494_j19645180411919_1_alg».proof.Proof.KI.PayLayout

noncomputable section

open scoped BigOperators

namespace Cert.KernelIdeal.PayValue

open Cert.KernelIdeal Cert.KernelIdeal.Gen Cert.KernelIdeal.PayLayout Idealize.ShloMosaic Idealize.ShloMosaic.ValueIdx

theorem dotA_l0 (y : S64x128.Idx) (q : dot_S64x128_S128x128_S64x128_1_0_0_1_n_n.contr.Idx) : (dot_S64x128_S128x128_S64x128_1_0_0_1_n_n.lhsIdx y q 0).val = (y 0).val := by
  unfold DotDims.lhsIdx
  rw [dif_neg (show ¬(0 : Fin S64x128.rank) ∈ dot_S64x128_S128x128_S64x128_1_0_0_1_n_n.lhsBatch by decide),
    dif_pos (show (0 : Fin S64x128.rank) ∈ dot_S64x128_S128x128_S64x128_1_0_0_1_n_n.lhsNonContracting by decide)]
  rfl
theorem dotA_l1 (y : S64x128.Idx) (q : dot_S64x128_S128x128_S64x128_1_0_0_1_n_n.contr.Idx) : (dot_S64x128_S128x128_S64x128_1_0_0_1_n_n.lhsIdx y q 1).val = (q ⟨0, by decide⟩).val :=
  dot_S64x128_S128x128_S64x128_1_0_0_1_n_n.lhsIdx_val_of_single rfl y q
theorem dotA_r0 (y : S64x128.Idx) (q : dot_S64x128_S128x128_S64x128_1_0_0_1_n_n.contr.Idx) : (dot_S64x128_S128x128_S64x128_1_0_0_1_n_n.rhsIdx y q 0).val = (q ⟨0, by decide⟩).val :=
  dot_S64x128_S128x128_S64x128_1_0_0_1_n_n.rhsIdx_val_of_single rfl y q
theorem dotA_r1 (y : S64x128.Idx) (q : dot_S64x128_S128x128_S64x128_1_0_0_1_n_n.contr.Idx) : (dot_S64x128_S128x128_S64x128_1_0_0_1_n_n.rhsIdx y q 1).val = (y 1).val := by
  unfold DotDims.rhsIdx
  rw [dif_neg (show ¬(1 : Fin S128x128.rank) ∈ dot_S64x128_S128x128_S64x128_1_0_0_1_n_n.rhsBatch by decide),
    dif_pos (show (1 : Fin S128x128.rank) ∈ dot_S64x128_S128x128_S64x128_1_0_0_1_n_n.rhsNonContracting by decide)]
  rfl
/-- The product of a [64, 128] by a [128, 128] matrix into the zero splat, at (i, j). -/
theorem matmulA_apply (lhs : FVec Ideal S64x128 .bf16) (rhs : FVec Ideal S128x128 .bf16) (i : Fin 64) (j : Fin 128) :
    matmul (F := Ideal) dot_S64x128_S128x128_S64x128_1_0_0_1_n_n none lhs rhs (constant (F := Ideal) S64x128 .f32 0x00000000#32) (ix2 i j)
      = ∑ e : Fin 128, lhs (ix2 i e) * rhs (ix2 e j) :=
  matmul_plain_zero_apply dot_S64x128_S128x128_S64x128_1_0_0_1_n_n rfl rfl dotA_l0 dotA_l1 dotA_r0 dotA_r1 none lhs rhs i j

theorem dotB_l0 (y : S128x128.Idx) (q : dot_S128x128_S128x128_S128x128_1_0_0_1_n_n.contr.Idx) : (dot_S128x128_S128x128_S128x128_1_0_0_1_n_n.lhsIdx y q 0).val = (y 0).val := by
  unfold DotDims.lhsIdx
  rw [dif_neg (show ¬(0 : Fin S128x128.rank) ∈ dot_S128x128_S128x128_S128x128_1_0_0_1_n_n.lhsBatch by decide),
    dif_pos (show (0 : Fin S128x128.rank) ∈ dot_S128x128_S128x128_S128x128_1_0_0_1_n_n.lhsNonContracting by decide)]
  rfl
theorem dotB_l1 (y : S128x128.Idx) (q : dot_S128x128_S128x128_S128x128_1_0_0_1_n_n.contr.Idx) : (dot_S128x128_S128x128_S128x128_1_0_0_1_n_n.lhsIdx y q 1).val = (q ⟨0, by decide⟩).val :=
  dot_S128x128_S128x128_S128x128_1_0_0_1_n_n.lhsIdx_val_of_single rfl y q
theorem dotB_r0 (y : S128x128.Idx) (q : dot_S128x128_S128x128_S128x128_1_0_0_1_n_n.contr.Idx) : (dot_S128x128_S128x128_S128x128_1_0_0_1_n_n.rhsIdx y q 0).val = (q ⟨0, by decide⟩).val :=
  dot_S128x128_S128x128_S128x128_1_0_0_1_n_n.rhsIdx_val_of_single rfl y q
theorem dotB_r1 (y : S128x128.Idx) (q : dot_S128x128_S128x128_S128x128_1_0_0_1_n_n.contr.Idx) : (dot_S128x128_S128x128_S128x128_1_0_0_1_n_n.rhsIdx y q 1).val = (y 1).val := by
  unfold DotDims.rhsIdx
  rw [dif_neg (show ¬(1 : Fin S128x128.rank) ∈ dot_S128x128_S128x128_S128x128_1_0_0_1_n_n.rhsBatch by decide),
    dif_pos (show (1 : Fin S128x128.rank) ∈ dot_S128x128_S128x128_S128x128_1_0_0_1_n_n.rhsNonContracting by decide)]
  rfl
/-- The product of a [128, 128] by a [128, 128] matrix into the zero splat, at (i, j). -/
theorem matmulB_apply (lhs : FVec Ideal S128x128 .bf16) (rhs : FVec Ideal S128x128 .bf16) (i : Fin 128) (j : Fin 128) :
    matmul (F := Ideal) dot_S128x128_S128x128_S128x128_1_0_0_1_n_n none lhs rhs (constant (F := Ideal) S128x128 .f32 0x00000000#32) (ix2 i j)
      = ∑ e : Fin 128, lhs (ix2 i e) * rhs (ix2 e j) :=
  matmul_plain_zero_apply dot_S128x128_S128x128_S128x128_1_0_0_1_n_n rfl rfl dotB_l0 dotB_l1 dotB_r0 dotB_r1 none lhs rhs i j

theorem dotC_l0 (y : S8192x128.Idx) (q : dot_S8192x128_S128x128_S8192x128_1_0_0_1_n_n.contr.Idx) : (dot_S8192x128_S128x128_S8192x128_1_0_0_1_n_n.lhsIdx y q 0).val = (y 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl
theorem dotC_l1 (y : S8192x128.Idx) (q : dot_S8192x128_S128x128_S8192x128_1_0_0_1_n_n.contr.Idx) : (dot_S8192x128_S128x128_S8192x128_1_0_0_1_n_n.lhsIdx y q 1).val = (q ⟨0, by decide⟩).val :=
  dot_S8192x128_S128x128_S8192x128_1_0_0_1_n_n.lhsIdx_val_of_single rfl y q
theorem dotC_r0 (y : S8192x128.Idx) (q : dot_S8192x128_S128x128_S8192x128_1_0_0_1_n_n.contr.Idx) : (dot_S8192x128_S128x128_S8192x128_1_0_0_1_n_n.rhsIdx y q 0).val = (q ⟨0, by decide⟩).val :=
  dot_S8192x128_S128x128_S8192x128_1_0_0_1_n_n.rhsIdx_val_of_single rfl y q
theorem dotC_r1 (y : S8192x128.Idx) (q : dot_S8192x128_S128x128_S8192x128_1_0_0_1_n_n.contr.Idx) : (dot_S8192x128_S128x128_S8192x128_1_0_0_1_n_n.rhsIdx y q 1).val = (y 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl
/-- The product of a [8192, 128] by a [128, 128] matrix into the zero splat, at (i, j). -/
theorem matmulC_apply (lhs : FVec Ideal S8192x128 .bf16) (rhs : FVec Ideal S128x128 .bf16) (i : Fin 8192) (j : Fin 128) :
    matmul (F := Ideal) dot_S8192x128_S128x128_S8192x128_1_0_0_1_n_n none lhs rhs (constant (F := Ideal) S8192x128 .f32 0x00000000#32) (ix2 i j)
      = ∑ e : Fin 128, lhs (ix2 i e) * rhs (ix2 e j) :=
  matmul_plain_zero_apply dot_S8192x128_S128x128_S8192x128_1_0_0_1_n_n rfl rfl dotC_l0 dotC_l1 dotC_r0 dotC_r1 none lhs rhs i j

end Cert.KernelIdeal.PayValue

end
-- ==== Proof.KI.Pay5.lean ====
/-
  The large payload of the two layers' kernels read at an index, at the ideal values: the edge messages of a block of
  receiving nodes against a block of sending nodes.
-/
import proofs.«117494_j19645180411919_1_alg».proof.Proof.KI.PayDots
import proofs.«117494_j19645180411919_1_alg».proof.Proof.KI.PaySmall

noncomputable section

open scoped BigOperators

namespace Cert.KernelIdeal.PayValue

open Cert.KernelIdeal Cert.KernelIdeal.Gen Cert.KernelIdeal.PayLayout Idealize.ShloMosaic Idealize.ShloMosaic.ValueIdx

/-! ## Layer one's kernel -/

/-- The edge messages of one block of receiving nodes p against one block of sending nodes q, before the bias and the
mask: over the hidden features d, the rectified sum of the two projections and the first bias, times the second layer's
weight. -/
theorem pay5_0_apply (x0 : Vec Ideal S1x64x128 .f32) (x1 : Vec Ideal S1x128x128 .f32) (x3 x4 : Vec Ideal S128x128 .bf16)
    (x5 : Vec Ideal S1x128 .f32) (x6 : Vec Ideal S128x128 .bf16) (p : Fin 64) (q : Fin 128) (o : Fin 128) :
    k0_pay5 (F := Ideal) x0 x1 x3 x4 x5 x6 (ix3 p q o)
      = ∑ d : Fin 128, max ((∑ e : Fin 128, x0 (ix3 0 p e) * x3 (ix2 e d))
          + (∑ e : Fin 128, x1 (ix3 0 q e) * x4 (ix2 e d)) + x5 (ix2 0 d)) 0 * x6 (ix2 d o) := by
  unfold k0_pay5
  have hr : p.val * 128 + q.val < 8192 := by have := p.isLt; have := q.isLt; omega
  refine (shapeCast_nc_abc_apply _ shapeCasts_S8192x128_S64x128x128 p q o ⟨p.val * 128 + q.val, hr⟩ rfl).trans ?_
  refine (matmulC_apply _ _ _ o).trans ?_
  refine Finset.sum_congr rfl fun d _ => ?_
  simp only [shapeCast_self, truncf_apply]
  refine congrArg (· * x6 (ix2 d o)) ?_
  refine (shapeCast_abc_nc_apply _ shapeCasts_S64x128x128_S8192x128 p q d ⟨p.val * 128 + q.val, hr⟩ rfl).trans ?_
  simp only [maximumf_apply, addf_apply, broadcast_apply]
  rw [broadcastTo_a1c_abc_apply, broadcastTo_1bc_abc_apply, broadcastTo_11c_abc_apply, shapeCast_ab_a1b_apply,
    shapeCast_ab_1ab_apply, shapeCast_a_11a_apply, shapeCast_1a_a_apply, matmulA_apply, matmulB_apply]
  simp only [truncf_apply, pay4_0_apply, shapeCast_1ab_ab_apply]
  exact congrArg (max _) Ideal.ofBits_zero_f32

/-! ## Layer two's kernel -/

/-- The edge messages of one block of receiving nodes p against one block of sending nodes q, before the bias and the
mask: over the hidden features d, the rectified sum of the two projections and the first bias, times the second layer's
weight. -/
theorem pay5_1_apply (x0 : Vec Ideal S1x64x128 .f32) (x1 : Vec Ideal S1x128x128 .f32) (x3 x4 : Vec Ideal S128x128 .bf16)
    (x5 : Vec Ideal S1x128 .f32) (x6 : Vec Ideal S128x128 .bf16) (p : Fin 64) (q : Fin 128) (o : Fin 128) :
    k1_pay5 (F := Ideal) x0 x1 x3 x4 x5 x6 (ix3 p q o)
      = ∑ d : Fin 128, max ((∑ e : Fin 128, x0 (ix3 0 p e) * x3 (ix2 e d))
          + (∑ e : Fin 128, x1 (ix3 0 q e) * x4 (ix2 e d)) + x5 (ix2 0 d)) 0 * x6 (ix2 d o) := by
  unfold k1_pay5
  have hr : p.val * 128 + q.val < 8192 := by have := p.isLt; have := q.isLt; omega
  refine (shapeCast_nc_abc_apply _ shapeCasts_S8192x128_S64x128x128 p q o ⟨p.val * 128 + q.val, hr⟩ rfl).trans ?_
  refine (matmulC_apply _ _ _ o).trans ?_
  refine Finset.sum_congr rfl fun d _ => ?_
  simp only [shapeCast_self, truncf_apply]
  refine congrArg (· * x6 (ix2 d o)) ?_
  refine (shapeCast_abc_nc_apply _ shapeCasts_S64x128x128_S8192x128 p q d ⟨p.val * 128 + q.val, hr⟩ rfl).trans ?_
  simp only [maximumf_apply, addf_apply, broadcast_apply]
  rw [broadcastTo_a1c_abc_apply, broadcastTo_1bc_abc_apply, broadcastTo_11c_abc_apply, shapeCast_ab_a1b_apply,
    shapeCast_ab_1ab_apply, shapeCast_a_11a_apply, shapeCast_1a_a_apply, matmulA_apply, matmulB_apply]
  simp only [truncf_apply, pay4_1_apply, shapeCast_1ab_ab_apply]
  exact congrArg (max _) Ideal.ofBits_zero_f32

end Cert.KernelIdeal.PayValue

end
-- ==== Proof.KI.PayValue.lean ====
/-
  The payloads of the two layers' kernels read at an index, at the ideal values: the small ones and the edge messages,
  gathered under one import.
-/
import proofs.«117494_j19645180411919_1_alg».proof.Proof.KI.PaySmall
import proofs.«117494_j19645180411919_1_alg».proof.Proof.KI.Pay5
-- ==== Proof.KI.Acc4.lean ====
/-
  The accumulation over the four tiles of sending nodes, over the loaded blocks, at the ideal values: each step adds to
  the accumulator one tile's masked messages, and the result block is the node's feature plus the four tiles' sums added
  from zero in the order of the steps.
-/
import proofs.«117494_j19645180411919_1_alg».proof.Proof.KI.PayValue

noncomputable section

open scoped BigOperators

namespace Cert.KernelIdeal.PayValue

open Cert.KernelIdeal Cert.KernelIdeal.Gen Idealize.ShloMosaic Idealize.ShloMosaic.ValueIdx

/-- One neighbour tile's masked messages for row p and feature o, over the loaded blocks. -/
def tileSum (x0 : Vec Ideal S1x64x128 .f32) (x1 : Vec Ideal S1x128x128 .f32) (x2 : Vec Ideal S1x64x128 .f32)
    (x3 x4 : Vec Ideal S128x128 .bf16) (x5 : Vec Ideal S1x128 .f32) (x6 : Vec Ideal S128x128 .bf16) (x7 : Vec Ideal S1x128 .f32)
    (p : Fin 64) (o : Fin 128) : EReal :=
  ∑ q : Fin 128, ((∑ d : Fin 128, max ((∑ e : Fin 128, x0 (ix3 0 p e) * x3 (ix2 e d))
      + (∑ e : Fin 128, x1 (ix3 0 q e) * x4 (ix2 e d)) + x5 (ix2 0 d)) 0 * x6 (ix2 d o)) + x7 (ix2 0 o)) * x2 (ix3 0 p q)

/-! ## Layer one's kernel -/

/-- One step of the accumulation: the accumulator gains the tile's masked messages. -/
theorem step_0 (x0 : Vec Ideal S1x64x128 .f32) (x1 : Vec Ideal S1x128x128 .f32) (x2 : Vec Ideal S1x64x128 .f32)
    (x3 x4 : Vec Ideal S128x128 .bf16) (x5 : Vec Ideal S1x128 .f32) (x6 : Vec Ideal S128x128 .bf16) (x7 : Vec Ideal S1x128 .f32)
    (acc : Vec Ideal S64x128 .f32) (p : Fin 64) (o : Fin 128) :
    k0_pay1 (F := Ideal) (k0_pay5 x0 x1 x3 x4 x5 x6) x7 x2 acc (ix2 p o)
      = acc (ix2 p o) + tileSum x0 x1 x2 x3 x4 x5 x6 x7 p o := by
  rw [pay1_0_apply]
  unfold tileSum
  simp only [pay5_0_apply]

/-- The four steps from the zero accumulator, and the result block: the node's feature plus the four tiles' masked
messages, added in the order of the steps. -/
theorem acc4_0 (x0 : Vec Ideal S1x64x128 .f32) (y0 y1 y2 y3 : Vec Ideal S1x128x128 .f32) (z0 z1 z2 z3 : Vec Ideal S1x64x128 .f32)
    (x3 x4 : Vec Ideal S128x128 .bf16) (x5 : Vec Ideal S1x128 .f32) (x6 : Vec Ideal S128x128 .bf16) (x7 : Vec Ideal S1x128 .f32)
    (p : Fin 64) (o : Fin 128) :
    k0_pay2 (F := Ideal) (k0_pay4 x0)
        (k0_pay1 (k0_pay5 x0 y3 x3 x4 x5 x6) x7 z3 (k0_pay1 (k0_pay5 x0 y2 x3 x4 x5 x6) x7 z2
          (k0_pay1 (k0_pay5 x0 y1 x3 x4 x5 x6) x7 z1 (k0_pay1 (k0_pay5 x0 y0 x3 x4 x5 x6) x7 z0 (k0_pay3 (F := Ideal))))))
        (ix3 0 p o)
      = x0 (ix3 0 p o) + ((((0 + tileSum x0 y0 z0 x3 x4 x5 x6 x7 p o) + tileSum x0 y1 z1 x3 x4 x5 x6 x7 p o)
          + tileSum x0 y2 z2 x3 x4 x5 x6 x7 p o) + tileSum x0 y3 z3 x3 x4 x5 x6 x7 p o) := by
  rw [pay2_0_apply, pay4_0_apply, step_0, step_0, step_0, step_0, pay3_0_apply]

/-! ## Layer two's kernel -/

/-- One step of the accumulation: the accumulator gains the tile's masked messages. -/
theorem step_1 (x0 : Vec Ideal S1x64x128 .f32) (x1 : Vec Ideal S1x128x128 .f32) (x2 : Vec Ideal S1x64x128 .f32)
    (x3 x4 : Vec Ideal S128x128 .bf16) (x5 : Vec Ideal S1x128 .f32) (x6 : Vec Ideal S128x128 .bf16) (x7 : Vec Ideal S1x128 .f32)
    (acc : Vec Ideal S64x128 .f32) (p : Fin 64) (o : Fin 128) :
    k1_pay1 (F := Ideal) (k1_pay5 x0 x1 x3 x4 x5 x6) x7 x2 acc (ix2 p o)
      = acc (ix2 p o) + tileSum x0 x1 x2 x3 x4 x5 x6 x7 p o := by
  rw [pay1_1_apply]
  unfold tileSum
  simp only [pay5_1_apply]

/-- The four steps from the zero accumulator, and the result block: the node's feature plus the four tiles' masked
messages, added in the order of the steps. -/
theorem acc4_1 (x0 : Vec Ideal S1x64x128 .f32) (y0 y1 y2 y3 : Vec Ideal S1x128x128 .f32) (z0 z1 z2 z3 : Vec Ideal S1x64x128 .f32)
    (x3 x4 : Vec Ideal S128x128 .bf16) (x5 : Vec Ideal S1x128 .f32) (x6 : Vec Ideal S128x128 .bf16) (x7 : Vec Ideal S1x128 .f32)
    (p : Fin 64) (o : Fin 128) :
    k1_pay2 (F := Ideal) (k1_pay4 x0)
        (k1_pay1 (k1_pay5 x0 y3 x3 x4 x5 x6) x7 z3 (k1_pay1 (k1_pay5 x0 y2 x3 x4 x5 x6) x7 z2
          (k1_pay1 (k1_pay5 x0 y1 x3 x4 x5 x6) x7 z1 (k1_pay1 (k1_pay5 x0 y0 x3 x4 x5 x6) x7 z0 (k1_pay3 (F := Ideal))))))
        (ix3 0 p o)
      = x0 (ix3 0 p o) + ((((0 + tileSum x0 y0 z0 x3 x4 x5 x6 x7 p o) + tileSum x0 y1 z1 x3 x4 x5 x6 x7 p o)
          + tileSum x0 y2 z2 x3 x4 x5 x6 x7 p o) + tileSum x0 y3 z3 x3 x4 x5 x6 x7 p o) := by
  rw [pay2_1_apply, pay4_1_apply, step_1, step_1, step_1, step_1, pay3_1_apply]

end Cert.KernelIdeal.PayValue

end
-- ==== Proof.KLayerFun.lean ====
/-
  The layer over the staged operands as ONE function of whole arrays: at (b, i, o) the node's feature plus the sum over
  all 512 neighbours j of the masked message of j. Two facts about it: a tiled accumulation (the node's feature plus
  four tiles' sums added from zero in order) is its entry; and when the staged operands are layer l's weights and biases
  it is the specification's layer l.
-/
import proofs.«117494_j19645180411919_1_alg».proof.Proof.KLayer

noncomputable section

open scoped BigOperators

namespace Cert.Gnn

open Idealize.ShloMosaic Idealize.ShloMosaic.ValueIdx

variable (h : SH.Idx → EReal) (mask : SM.Idx → EReal) (wiT wjT w2T : SWT.Idx → EReal) (b1r b2r : SBR.Idx → EReal)

/-- The layer over the staged operands, as a function of the whole array's index. -/
def klayer : SH.Idx → EReal := fun y =>
  h y + ∑ j : Fin 512, kterm h mask wiT wjT w2T b1r b2r (y 0) (y 1) j (y 2)

theorem klayer_ix3 (b : Fin 4) (i : Fin 512) (o : Fin 128) :
    klayer h mask wiT wjT w2T b1r b2r (ix3 b i o)
      = h (ix3 b i o) + ∑ j : Fin 512, kterm h mask wiT wjT w2T b1r b2r b i j o := rfl

/-- A tiled accumulation is the layer's entry: the node's feature x plus the four neighbour tiles' sums s0 … s3, added
    from zero in order, when each is the sum of the masked messages of its tile's 128 neighbours. -/
theorem klayer_of_tiles (b : Fin 4) (i : Fin 512) (o : Fin 128) (x s0 s1 s2 s3 : EReal)
    (hx : x = h (ix3 b i o))
    (h0 : s0 = ∑ q : Fin 128, kterm h mask wiT wjT w2T b1r b2r b i ⟨q.val, by omega⟩ o)
    (h1 : s1 = ∑ q : Fin 128, kterm h mask wiT wjT w2T b1r b2r b i ⟨128 + q.val, by omega⟩ o)
    (h2 : s2 = ∑ q : Fin 128, kterm h mask wiT wjT w2T b1r b2r b i ⟨256 + q.val, by omega⟩ o)
    (h3 : s3 = ∑ q : Fin 128, kterm h mask wiT wjT w2T b1r b2r b i ⟨384 + q.val, by omega⟩ o) :
    x + ((((0 + s0) + s1) + s2) + s3) = klayer h mask wiT wjT w2T b1r b2r (ix3 b i o) := by
  subst hx h0 h1 h2 h3
  exact congrArg (h (ix3 b i o) + ·) (sum512_tiles fun j => kterm h mask wiT wjT w2T b1r b2r b i j o)

/-- When the staged operands are layer l's weights and biases, the layer over them is the specification's layer l. -/
theorem klayer_eq_layer (l : Fin 2) (w1 : SW1.Idx → EReal) (b1 : SB.Idx → EReal) (w2 : SW2.Idx → EReal) (b2 : SB.Idx → EReal)
    (hwi : ∀ e d : Fin 128, wiT (ix2 e d) = w1 (ix3 l d (lo e)))
    (hwj : ∀ e d : Fin 128, wjT (ix2 e d) = w1 (ix3 l d (hi e)))
    (hw2 : ∀ d o : Fin 128, w2T (ix2 d o) = w2 (ix3 l o d))
    (hb1 : ∀ d : Fin 128, b1r (ix2 0 d) = b1 (ix2 l d))
    (hb2 : ∀ o : Fin 128, b2r (ix2 0 o) = b2 (ix2 l o)) :
    klayer h mask wiT wjT w2T b1r b2r = layer h mask w1 b1 w2 b2 l := by
  funext y
  obtain ⟨b, i, o, rfl⟩ : ∃ (b : Fin 4) (i : Fin 512) (o : Fin 128), y = ix3 b i o := ⟨y 0, y 1, y 2, eq_ix3 y⟩
  rw [klayer_ix3, layer_ix3]
  unfold layerAt
  refine congrArg (h (ix3 b i o) + ·) (Finset.sum_congr rfl fun j _ => ?_)
  exact kterm_eq h mask wiT wjT w2T b1r b2r l w1 b1 w2 b2 hwi hwj hw2 hb1 hb2 b i j o

end Cert.Gnn

end
-- ==== Proof.KI.Final0.lean ====
/-
  What the first layer's kernel call leaves in its output array, at the ideal values: at every entry (b, i, o) the node's
  feature plus the sum over all 512 neighbours j of the masked message of j over the staged operands.
  A write-back happens at the last neighbour tile of each (batch, node tile); the block written is the node features'
  block plus four accumulation steps from zero, one per neighbour tile, each step adding the tile's 128 masked
  messages; the four tiles' sums, added in that order from zero, are the sum over all 512 neighbours. The 32 blocks
  written back tile the output array.
-/
import proofs.«117494_j19645180411919_1_alg».proof.Proof.KI.Unroll0
import proofs.«117494_j19645180411919_1_alg».proof.Proof.KI.Blocks0
import proofs.«117494_j19645180411919_1_alg».proof.Proof.KI.Acc4
import proofs.«117494_j19645180411919_1_alg».proof.Proof.KLayerFun

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.PayValue (tileSum)

variable (V : (c : Dev nD) → (b : Ref sig .tc) → Buf (Elt Ideal) ((c : Thread nD τ).loc b))

/-- The layer over the staged operands as the call finds them, as a function of the whole output array's index. -/
def klayerFun0 (c : Dev nD) : S4x512x128.Idx → EReal :=
  Cert.Gnn.klayer (V c main_arg0) (V c main_arg1) (V c main_v7) (V c main_v9) (V c main_v13) (V c main_v16) (V c main_v19)

/-- One neighbour tile's masked messages over the blocks of a grid point tk, for row p and feature o: the sum over the
    tile's 128 nodes of the masked message over the staged operands, the receiving node row p of tk's node tile, the
    sending nodes the columns of tk's neighbour tile. -/
theorem tileSum0_eq (c : Dev nD) (tk : Fin cfg0.N) (p : Fin 64) (o : Fin 128) :
    tileSum (iblk0 V c 0 tk) (iblk0 V c 1 tk) (iblk0 V c 2 tk) (iblk0 V c 3 tk) (iblk0 V c 4 tk) (iblk0 V c 5 tk) (iblk0 V c 6 tk) (iblk0 V c 7 tk) p o
      = ∑ q : Fin 128, Cert.Gnn.kterm (V c main_arg0) (V c main_arg1) (V c main_v7) (V c main_v9) (V c main_v13) (V c main_v16) (V c main_v19) (ptB tk.val (lt0 tk)) (ptRow tk.val (lt0 tk) p) (ptCol tk.val (lt0 tk) q) o := by
  unfold tileSum Cert.Gnn.kterm
  simp only [iblk0_0_apply, iblk0_1_apply, iblk0_2_apply, iblk0_3_apply, iblk0_4_apply, iblk0_5_apply, iblk0_6_apply, iblk0_7_apply]

/-- The entry (p, o) of the block written back at a last neighbour tile t is the layer's entry at node
    (node tile) * 64 + p of t's batch. -/
theorem outEntry0 (c : Dev nD) (t : Fin cfg0.N) (h3 : t.val % 4 = 3) (p : Fin 64) (o : Fin 128) :
    (k0_pay2 (F := Ideal) (k0_pay4 (iblk0 V c 0 t))
        (accStep0 V c t
          (accStep0 V c ⟨t.val - 1, Nat.lt_of_le_of_lt (Nat.sub_le _ _) t.isLt⟩
            (accStep0 V c ⟨t.val - 2, Nat.lt_of_le_of_lt (Nat.sub_le _ _) t.isLt⟩
              (accStep0 V c ⟨t.val - 3, Nat.lt_of_le_of_lt (Nat.sub_le _ _) t.isLt⟩ (k0_pay3 (F := Ideal))))))
        : S1x64x128.Idx → EReal) (ix3 0 p o)
      = klayerFun0 V c (ix3 (ptB t.val (lt0 t)) (ptRow t.val (lt0 t) p) o) := by
  have hN := lt0 t
  unfold accStep0
  rw [Cert.KernelIdeal.PayValue.pay2_0_apply, Cert.KernelIdeal.PayValue.pay4_0_apply,
    Cert.KernelIdeal.PayValue.step_0, Cert.KernelIdeal.PayValue.step_0, Cert.KernelIdeal.PayValue.step_0,
    Cert.KernelIdeal.PayValue.step_0, Cert.KernelIdeal.PayValue.pay3_0_apply,
    tileSum0_eq, tileSum0_eq, tileSum0_eq, tileSum0_eq, iblk0_0_apply]
  have hb : ∀ (n : ℕ) (h : n < 128), n / 32 = t.val / 32 → ptB n h = ptB t.val (lt0 t) := fun n h e => Fin.ext e
  have hr : ∀ (n : ℕ) (h : n < 128), n / 4 % 8 = t.val / 4 % 8 → ptRow n h p = ptRow t.val (lt0 t) p :=
    fun n h e => Fin.ext (by simp only [ptRow_val, e])
  have hc : ∀ (n : ℕ) (h : n < 128) (a : ℕ) (q : Fin 128) (h' : a + q.val < 512), n % 4 * 128 = a →
      ptCol n h q = ⟨a + q.val, h'⟩ := fun n h a q h' e => Fin.ext (by simp only [ptCol_val, e])
  unfold klayerFun0
  refine Cert.Gnn.klayer_of_tiles (V c main_arg0) (V c main_arg1) (V c main_v7) (V c main_v9) (V c main_v13) (V c main_v16) (V c main_v19) (ptB t.val (lt0 t)) (ptRow t.val (lt0 t) p) o _ _ _ _ _ rfl ?_ ?_ ?_ ?_
  · refine Finset.sum_congr rfl fun q _ => ?_
    rw [hb (t.val - 3) (by omega) (by omega), hr (t.val - 3) (by omega) (by omega)]
    refine congrArg (fun j => Cert.Gnn.kterm (V c main_arg0) (V c main_arg1) (V c main_v7) (V c main_v9) (V c main_v13) (V c main_v16) (V c main_v19) (ptB t.val (lt0 t)) (ptRow t.val (lt0 t) p) j o) (Fin.ext ?_)
    show (t.val - 3) % 4 * 128 + q.val = q.val
    omega
  · refine Finset.sum_congr rfl fun q _ => ?_
    rw [hb (t.val - 2) (by omega) (by omega), hr (t.val - 2) (by omega) (by omega)]
    refine congrArg (fun j => Cert.Gnn.kterm (V c main_arg0) (V c main_arg1) (V c main_v7) (V c main_v9) (V c main_v13) (V c main_v16) (V c main_v19) (ptB t.val (lt0 t)) (ptRow t.val (lt0 t) p) j o) (Fin.ext ?_)
    show (t.val - 2) % 4 * 128 + q.val = 128 + q.val
    omega
  · refine Finset.sum_congr rfl fun q _ => ?_
    rw [hb (t.val - 1) (by omega) (by omega), hr (t.val - 1) (by omega) (by omega)]
    refine congrArg (fun j => Cert.Gnn.kterm (V c main_arg0) (V c main_arg1) (V c main_v7) (V c main_v9) (V c main_v13) (V c main_v16) (V c main_v19) (ptB t.val (lt0 t)) (ptRow t.val (lt0 t) p) j o) (Fin.ext ?_)
    show (t.val - 1) % 4 * 128 + q.val = 256 + q.val
    omega
  · refine Finset.sum_congr rfl fun q _ => ?_
    refine congrArg (fun j => Cert.Gnn.kterm (V c main_arg0) (V c main_arg1) (V c main_v7) (V c main_v9) (V c main_v13) (V c main_v16) (V c main_v19) (ptB t.val (lt0 t)) (ptRow t.val (lt0 t) p) j o) (Fin.ext ?_)
    show t.val % 4 * 128 + q.val = 384 + q.val
    omega

/-- The block written back at point t is point t's block of the layer. -/
theorem flushed0_eq (c : Dev nD) (t : Fin cfg0.N) (hf : (cfg0.win 8).flush t = true) :
    (dat0 (F := Ideal) V c).flushed 8 t = ((cfg0.win 8).blk t).view.read (Elt Ideal) (klayerFun0 V c) := by
  have h3 : t.val % 4 = 3 := (flush0_8 t).mp hf
  show ((cfg0.win 8).cut (grid0.coords t) ((dat0 V c).after 8 t) : S1x64x128.Idx → EReal) = _
  rw [after0_8_unrolled V c t h3]
  funext y
  obtain ⟨z, p, o, rfl⟩ : ∃ (z : Fin 1) (p : Fin 64) (o : Fin 128), y = ix3 z p o :=
    ⟨y 0, y 1, y 2, eq_ix3 (n0 := 1) (n1 := 64) (n2 := 128) y⟩
  obtain rfl : z = 0 := Subsingleton.elim _ _
  exact (outEntry0 V c t h3 p o).trans (read_blk0_8 (F := Ideal) (klayerFun0 V c) t p o).symm

/-- The output array after the call is the layer over the staged operands. -/
theorem final0 (c : Dev nD) : (dat0 (F := Ideal) V c).arrAt 8 cfg0.N = klayerFun0 V c :=
  (dat0 V c).arrAt_eq_of_cover 8 (klayerFun0 V c) (fun t hf => flushed0_eq V c t hf) (cover0_8 c)

end Cert.KernelIdeal.Hand

end
-- ==== Proof.KI.Pieces1.lean ====
/-
  What the body of the second layer's kernel leaves, in each of its three control cases, as a function of the blocks it
  reads. The body adds to a running sum (one 64×128 block per node tile) the masked messages of one neighbour tile:
  at the first neighbour tile the sum starts from the zero block, at a later one from what the tile before left, and at
  the last one the output block is the node features plus the completed sum. Each statement reads the one covering
  store the case ends with: a load through the whole block at zero offsets reads the block, and a store through it
  leaves its payload.
-/
import proofs.«117494_j19645180411919_1_alg».proof.Proof.KI.Frame1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rank-2 zero offsets, as the constant function. -/
theorem hz1_2 : (![0, 0] : Fin 2 → Nat) = fun _ => 0 := funext fun a => by fin_cases a <;> rfl
/-- The rank-3 zero offsets, as the constant function. -/
theorem hz1_3 : (![0, 0, 0] : Fin 3 → Nat) = fun _ => 0 := funext fun a => by fin_cases a <;> rfl

/-- First neighbour tile: the running sum is the zero block plus this tile's masked messages (the zero block is
    stored, read back, and the sum stored over it: the later store is the one that stays). -/
theorem sout1_A_eq (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : cond1_0 i) (hc1 : ¬cond1_1 i) (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) :
    sout1_A c i arg3 harg3 arg4 harg4 arg5 harg5 arg6 harg6 arg7 harg7 arg8 harg8 arg9 harg9 arg10 harg10 arg11 harg11 arg12 harg12 hc0 hc1 x0 x1 x2 x3 x4 x5 x6 x7 = k1_pay1 (k1_pay5 x0 x1 x3 x4 x5 x6) x7 x2 (k1_pay3 (F := F)) := by
  unfold sout1_A
  rw [View.read_writes_eq_canon _ _ _ (scover1_A_0 c i arg3 harg3 arg4 harg4 arg5 harg5 arg6 harg6 arg7 harg7 arg8 harg8 arg9 harg9 arg10 harg10 arg11 harg11 arg12 harg12 hc0 hc1 x0 x1 x2 x3 x4 x5 x6 x7)]
  unfold kernelRun1_A
  dsimp only
  sl_unfold_words
  rw [View.canon_cons_unit_zero (S := S64x128) hz1_2, View.readCov_unit_zero (S := S64x128) _ hz1_2]
  simp only [View.readAt_eq_ld, harg3.read_unread, harg4.read_unread, harg5.read_unread, harg6.read_unread, harg7.read_unread,
    harg8.read_unread, harg9.read_unread, harg10.read_unread, harg12.read_unread,
    View.ld_unit_zero (S := S1x64x128) hz1_3, View.ld_unit_zero (S := S1x128x128) hz1_3, View.ld_unit_zero (S := S128x128) hz1_2,
    View.ld_unit_zero (S := S1x128) hz1_2, View.ld_unit_zero (S := S64x128) hz1_2]

/-- A middle neighbour tile: the running sum is what the tile before left plus this tile's masked messages. -/
theorem sout1_B_eq (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond1_0 i) (hc1 : ¬cond1_1 i) (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) :
    sout1_B c i arg3 harg3 arg4 harg4 arg5 harg5 arg6 harg6 arg7 harg7 arg8 harg8 arg9 harg9 arg10 harg10 arg11 harg11 arg12 harg12 hc0 hc1 x0 x1 x2 x3 x4 x5 x6 x7 xs0 = k1_pay1 (k1_pay5 x0 x1 x3 x4 x5 x6) x7 x2 xs0 := by
  unfold sout1_B
  rw [View.read_writes_eq_canon _ _ _ (scover1_B_0 c i arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun1_B
  dsimp only
  sl_unfold_words
  rw [View.canon_unit_zero hz1_2]
  simp only [View.readAt_eq_ld, harg3.read_unread, harg4.read_unread, harg5.read_unread, harg6.read_unread, harg7.read_unread,
    harg8.read_unread, harg9.read_unread, harg10.read_unread, harg12.read_unread,
    View.ld_unit_zero (S := S1x64x128) hz1_3, View.ld_unit_zero (S := S1x128x128) hz1_3, View.ld_unit_zero (S := S128x128) hz1_2,
    View.ld_unit_zero (S := S1x128) hz1_2, View.ld_unit_zero (S := S64x128) hz1_2]

/-- The last neighbour tile: the running sum is again what the tile before left plus this tile's masked messages. -/
theorem sout1_C_eq (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond1_0 i) (hc1 : cond1_1 i) (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) :
    sout1_C c i arg3 harg3 arg4 harg4 arg5 harg5 arg6 harg6 arg7 harg7 arg8 harg8 arg9 harg9 arg10 harg10 arg11 harg11 arg12 harg12 hc0 hc1 x0 x1 x2 x3 x4 x5 x6 x7 xs0 = k1_pay1 (k1_pay5 x0 x1 x3 x4 x5 x6) x7 x2 xs0 := by
  unfold sout1_C
  rw [View.read_writes_eq_canon _ _ _ (scover1_C_0 c i arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun1_C
  dsimp only
  sl_unfold_words
  rw [View.canon_unit_zero hz1_2]
  simp only [View.readAt_eq_ld, harg3.read_unread, harg4.read_unread, harg5.read_unread, harg6.read_unread, harg7.read_unread,
    harg8.read_unread, harg9.read_unread, harg10.read_unread, harg12.read_unread,
    View.ld_unit_zero (S := S1x64x128) hz1_3, View.ld_unit_zero (S := S1x128x128) hz1_3, View.ld_unit_zero (S := S128x128) hz1_2,
    View.ld_unit_zero (S := S1x128) hz1_2, View.ld_unit_zero (S := S64x128) hz1_2]

/-- The last neighbour tile: the output block is the node-feature block plus the completed running sum (the sum just
    stored is read back whole). -/
theorem out1_C_eq (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x64x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1x64x128 .f32) (harg11 : arg11.IsWhole) (arg12 : Memref sig .tc .vmem S64x128 .f32) (harg12 : arg12.IsWhole) (hc0 : ¬cond1_0 i) (hc1 : cond1_1 i) (x0 : Vec F S1x64x128 .f32) (x1 : Vec F S1x128x128 .f32) (x2 : Vec F S1x64x128 .f32) (x3 : Vec F S128x128 .bf16) (x4 : Vec F S128x128 .bf16) (x5 : Vec F S1x128 .f32) (x6 : Vec F S128x128 .bf16) (x7 : Vec F S1x128 .f32) (xs0 : Vec F S64x128 .f32) :
    out1_C c i arg3 harg3 arg4 harg4 arg5 harg5 arg6 harg6 arg7 harg7 arg8 harg8 arg9 harg9 arg10 harg10 arg11 harg11 arg12 harg12 hc0 hc1 x0 x1 x2 x3 x4 x5 x6 x7 xs0 = k1_pay2 (k1_pay4 x0) (k1_pay1 (k1_pay5 x0 x1 x3 x4 x5 x6) x7 x2 xs0) := by
  unfold out1_C
  rw [View.read_writes_eq_canon _ _ _ (cover1_C_8 c i arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun1_C
  dsimp only
  sl_unfold_words
  rw [View.canon_unit_zero hz1_3, View.readCov_unit_zero _ hz1_2]
  simp only [View.readAt_eq_ld, harg3.read_unread, harg4.read_unread, harg5.read_unread, harg6.read_unread, harg7.read_unread,
    harg8.read_unread, harg9.read_unread, harg10.read_unread, harg12.read_unread,
    View.ld_unit_zero (S := S1x64x128) hz1_3, View.ld_unit_zero (S := S1x128x128) hz1_3, View.ld_unit_zero (S := S128x128) hz1_2,
    View.ld_unit_zero (S := S1x128) hz1_2, View.ld_unit_zero (S := S64x128) hz1_2]

end Cert.KernelIdeal.Hand

end
-- ==== Proof.KI.Unroll1.lean ====
/-
  The output block the second layer's kernel stores at the last neighbour tile of a node tile, unrolled over the node tile's
  four grid points. The grid runs the neighbour tile fastest, so the four points of a node tile are consecutive: the
  first starts the running sum from the zero block, each later one adds its tile's masked messages to what the point
  before left, and the last one stores the node features plus the completed sum.
-/
import proofs.«117494_j19645180411919_1_alg».proof.Proof.KI.Frame1
import proofs.«117494_j19645180411919_1_alg».proof.Proof.KI.Pieces1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## The running sum over the four neighbour tiles of a node tile -/

/-- One accumulation step at grid point t: the running sum xs plus the masked messages of t's neighbour tile, from the
    blocks the point reads. -/
abbrev accStep1 (c : Dev nD) (t : Fin cfg1.N) (xs : Vec F S64x128 .f32) : Vec F S64x128 .f32 :=
  (k1_pay1 (k1_pay5 (iblk1 V c 0 t) (iblk1 V c 1 t) (iblk1 V c 3 t) (iblk1 V c 4 t) (iblk1 V c 5 t) (iblk1 V c 6 t)) (iblk1 V c 7 t) (iblk1 V c 2 t) xs)

/-- At a first neighbour tile the running sum is one step from the zero block. -/
theorem sum1_first (c : Dev nD) (t : Fin cfg1.N) (h0 : t.val % 4 = 0) (h1 : ¬t.val % 4 = 3) :
    (outsAt1 V c t.val t.isLt).2 = accStep1 V c t (k1_pay3 (F := F)) :=
  (outsAt1_A V c t h0 h1).trans (sout1_A_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))

/-- At a middle neighbour tile the running sum is one step from the sum the point before left. -/
theorem sum1_next (c : Dev nD) (t : Fin cfg1.N) (h0 : ¬t.val % 4 = 0) (h1 : ¬t.val % 4 = 3) :
    (outsAt1 V c t.val t.isLt).2
      = accStep1 V c t (outsAt1 V c (t.val - 1) (Nat.lt_of_le_of_lt (Nat.sub_le _ _) t.isLt)).2 :=
  (outsAt1_B V c t h0 h1).trans (sout1_B_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2)

/-- At the last neighbour tile the output block is the node-feature block plus one more step from the sum the point
    before left. -/
theorem out1_last (c : Dev nD) (t : Fin cfg1.N) (h0 : ¬t.val % 4 = 0) (h1 : t.val % 4 = 3) :
    (outsAt1 V c t.val t.isLt).1
      = k1_pay2 (k1_pay4 (iblk1 V c 0 t)) (accStep1 V c t (outsAt1 V c (t.val - 1) (Nat.lt_of_le_of_lt (Nat.sub_le _ _) t.isLt)).2) :=
  (congrArg Prod.fst (outsAt1_C V c t h0 h1)).trans (out1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2)

/-- The output block stored at a last neighbour tile t, unrolled over the four points t − 3, …, t of its node tile: the
    node features plus four accumulation steps from the zero block, in point order. -/
theorem after1_8_unrolled (c : Dev nD) (t : Fin cfg1.N) (h3 : t.val % 4 = 3) :
    (dat1 V c).after 8 t
      = k1_pay2 (k1_pay4 (iblk1 V c 0 t))
          (accStep1 V c t
            (accStep1 V c ⟨t.val - 1, Nat.lt_of_le_of_lt (Nat.sub_le _ _) t.isLt⟩
              (accStep1 V c ⟨t.val - 2, Nat.lt_of_le_of_lt (Nat.sub_le _ _) t.isLt⟩
                (accStep1 V c ⟨t.val - 3, Nat.lt_of_le_of_lt (Nat.sub_le _ _) t.isLt⟩ (k1_pay3 (F := F)))))) := by
  rw [after1_8]
  obtain ⟨n, hn⟩ := t
  obtain ⟨m, rfl⟩ : ∃ m, n = m + 3 := ⟨n - 3, by dsimp only at h3; omega⟩
  have hm : m % 4 = 0 := by dsimp only at h3; omega
  have hn2 : m + 2 < cfg1.N := by omega
  have hn1 : m + 1 < cfg1.N := by omega
  have hn0 : m < cfg1.N := by omega
  refine (out1_last V c ⟨m + 3, hn⟩ (by dsimp only; omega) h3).trans ?_
  refine congrArg (fun xs => k1_pay2 (k1_pay4 (iblk1 V c 0 ⟨m + 3, hn⟩)) (accStep1 V c ⟨m + 3, hn⟩ xs)) ?_
  refine (sum1_next V c ⟨m + 2, hn2⟩ (by dsimp only; omega) (by dsimp only; omega)).trans ?_
  refine congrArg (accStep1 V c ⟨m + 2, hn2⟩) ?_
  refine (sum1_next V c ⟨m + 1, hn1⟩ (by dsimp only; omega) (by dsimp only; omega)).trans ?_
  refine congrArg (accStep1 V c ⟨m + 1, hn1⟩) ?_
  exact sum1_first V c ⟨m, hn0⟩ hm (by dsimp only; omega)

end Cert.KernelIdeal.Hand

end
-- ==== Proof.KI.Blocks1.lean ====
/-
  Where the blocks of kernel call 1 sit in their arrays.

  The call's grid is (batch, node tile, neighbour tile) = (4, 8, 4) in row-major order, so point t has batch t / 32,
  node tile (t / 4) mod 8 and neighbour tile t mod 4. At point t the call reads rows 64 * (node tile) … + 63 of the
  node features and of the mask of that batch, rows 128 * (neighbour tile) … + 127 of the node features again (the
  sending nodes), columns 128 * (neighbour tile) … + 127 of the mask, and the whole of each staged weight and bias; at
  the last neighbour tile it writes rows 64 * (node tile) … + 63 of the output back. Those 32 output blocks tile the
  output array.
-/
import proofs.«117494_j19645180411919_1_alg».proof.Proof.KI.Frame1
import Idealize.ShloMosaic.Lib.Pipeline.Value
import Idealize.ShloMosaic.Lib.ValueIdx
import proofs.«117494_j19645180411919_1_alg».proof.Proof.KI.GridPt

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The grid has 128 points. -/
theorem lt1 (t : Fin cfg1.N) : t.val < 128 := lt_of_lt_of_eq t.isLt N_1

/-! ## The block index of each window at each grid point -/

theorem idx1_0 : ∀ t : Fin cfg1.N, win1_0.index t (0 : Fin 3) = t.val / 32 ∧ win1_0.index t (1 : Fin 3) = (t.val / 4) % 8
    ∧ win1_0.index t (2 : Fin 3) = 0 :=
  (by decide +kernel : ∀ t : Fin grid1.N, _)
theorem idx1_1 : ∀ t : Fin cfg1.N, win1_1.index t (0 : Fin 3) = t.val / 32 ∧ win1_1.index t (1 : Fin 3) = t.val % 4
    ∧ win1_1.index t (2 : Fin 3) = 0 :=
  (by decide +kernel : ∀ t : Fin grid1.N, _)
theorem idx1_2 : ∀ t : Fin cfg1.N, win1_2.index t (0 : Fin 3) = t.val / 32 ∧ win1_2.index t (1 : Fin 3) = (t.val / 4) % 8
    ∧ win1_2.index t (2 : Fin 3) = t.val % 4 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 3) = t.val / 32 ∧ win1_8.index t (1 : Fin 3) = (t.val / 4) % 8
    ∧ win1_8.index t (2 : Fin 3) = 0 :=
  (by decide +kernel : ∀ t : Fin grid1.N, _)

/-! ## Each input block, entry by entry -/

/-- The receiving nodes' block at point t: row p is node (node tile) * 64 + p of the point's batch. -/
theorem iblk1_0_apply (c : Dev nD) (t : Fin cfg1.N) (p : Fin 64) (e : Fin 128) :
    (iblk1 V c 0 t : S1x64x128.Idx → Elt F .f32) (ix3 0 p e)
      = (V c main_v20 : S4x512x128.Idx → Elt F .f32) (ix3 (ptB t.val (lt1 t)) (ptRow t.val (lt1 t) p) e) := by
  obtain ⟨e0, e1, e2⟩ := idx1_0 t
  unfold iblk1
  rw [View.read_apply]
  show V c main_v20 _ = V c main_v20 _
  congr 1
  funext a
  apply Fin.ext
  match a with
  | ⟨0, _⟩ => show win1_0.index t (0 : Fin 3) * 1 + 1 * 0 = t.val / 32; rw [e0]; omega
  | ⟨1, _⟩ => show win1_0.index t (1 : Fin 3) * 64 + 1 * p.val = (t.val / 4 % 8) * 64 + p.val; rw [e1]; omega
  | ⟨2, _⟩ => show win1_0.index t (2 : Fin 3) * 128 + 1 * e.val = e.val; rw [e2]; omega

/-- The sending nodes' block at point t: row q is node (neighbour tile) * 128 + q of the point's batch. -/
theorem iblk1_1_apply (c : Dev nD) (t : Fin cfg1.N) (q e : Fin 128) :
    (iblk1 V c 1 t : S1x128x128.Idx → Elt F .f32) (ix3 0 q e)
      = (V c main_v20 : S4x512x128.Idx → Elt F .f32) (ix3 (ptB t.val (lt1 t)) (ptCol t.val (lt1 t) q) e) := by
  obtain ⟨e0, e1, e2⟩ := idx1_1 t
  unfold iblk1
  rw [View.read_apply]
  show V c main_v20 _ = V c main_v20 _
  congr 1
  funext a
  apply Fin.ext
  match a with
  | ⟨0, _⟩ => show win1_1.index t (0 : Fin 3) * 1 + 1 * 0 = t.val / 32; rw [e0]; omega
  | ⟨1, _⟩ => show win1_1.index t (1 : Fin 3) * 128 + 1 * q.val = (t.val % 4) * 128 + q.val; rw [e1]; omega
  | ⟨2, _⟩ => show win1_1.index t (2 : Fin 3) * 128 + 1 * e.val = e.val; rw [e2]; omega

/-- The mask's block at point t: entry (p, q) is the mask between receiving node (node tile) * 64 + p and sending node
    (neighbour tile) * 128 + q of the point's batch. -/
theorem iblk1_2_apply (c : Dev nD) (t : Fin cfg1.N) (p : Fin 64) (q : Fin 128) :
    (iblk1 V c 2 t : S1x64x128.Idx → Elt F .f32) (ix3 0 p q)
      = (V c main_arg1 : S4x512x512.Idx → Elt F .f32) (ix3 (ptB t.val (lt1 t)) (ptRow t.val (lt1 t) p) (ptCol t.val (lt1 t) q)) := by
  obtain ⟨e0, e1, e2⟩ := idx1_2 t
  unfold iblk1
  rw [View.read_apply]
  show V c main_arg1 _ = V c main_arg1 _
  congr 1
  funext a
  apply Fin.ext
  match a with
  | ⟨0, _⟩ => show win1_2.index t (0 : Fin 3) * 1 + 1 * 0 = t.val / 32; rw [e0]; omega
  | ⟨1, _⟩ => show win1_2.index t (1 : Fin 3) * 64 + 1 * p.val = (t.val / 4 % 8) * 64 + p.val; rw [e1]; omega
  | ⟨2, _⟩ => show win1_2.index t (2 : Fin 3) * 128 + 1 * q.val = (t.val % 4) * 128 + q.val; rw [e2]; omega

/-- The left half of the staged first-layer weights is read whole at every point. -/
theorem iblk1_3_apply (c : Dev nD) (t : Fin cfg1.N) (e d : Fin 128) :
    (iblk1 V c 3 t : S128x128.Idx → Elt F .bf16) (ix2 e d) = (V c main_v28 : S128x128.Idx → Elt F .bf16) (ix2 e d) := by
  obtain ⟨e0, e1⟩ := idx1_3 t
  unfold iblk1
  rw [View.read_apply]
  show V c main_v28 _ = V c main_v28 _
  congr 1
  funext a
  apply Fin.ext
  match a with
  | ⟨0, _⟩ => show win1_3.index t (0 : Fin 2) * 128 + 1 * e.val = e.val; rw [e0]; omega
  | ⟨1, _⟩ => show win1_3.index t (1 : Fin 2) * 128 + 1 * d.val = d.val; rw [e1]; omega

/-- The right half of the staged first-layer weights is read whole at every point. -/
theorem iblk1_4_apply (c : Dev nD) (t : Fin cfg1.N) (e d : Fin 128) :
    (iblk1 V c 4 t : S128x128.Idx → Elt F .bf16) (ix2 e d) = (V c main_v30 : S128x128.Idx → Elt F .bf16) (ix2 e d) := by
  obtain ⟨e0, e1⟩ := idx1_4 t
  unfold iblk1
  rw [View.read_apply]
  show V c main_v30 _ = V c main_v30 _
  congr 1
  funext a
  apply Fin.ext
  match a with
  | ⟨0, _⟩ => show win1_4.index t (0 : Fin 2) * 128 + 1 * e.val = e.val; rw [e0]; omega
  | ⟨1, _⟩ => show win1_4.index t (1 : Fin 2) * 128 + 1 * d.val = d.val; rw [e1]; omega

/-- The staged first bias is read whole at every point. -/
theorem iblk1_5_apply (c : Dev nD) (t : Fin cfg1.N) (d : Fin 128) :
    (iblk1 V c 5 t : S1x128.Idx → Elt F .f32) (ix2 0 d) = (V c main_v37 : S1x128.Idx → Elt F .f32) (ix2 0 d) := by
  obtain ⟨e0, e1⟩ := idx1_5 t
  unfold iblk1
  rw [View.read_apply]
  show V c main_v37 _ = V c main_v37 _
  congr 1
  funext a
  apply Fin.ext
  match a with
  | ⟨0, _⟩ => show win1_5.index t (0 : Fin 2) * 1 + 1 * 0 = 0; rw [e0]
  | ⟨1, _⟩ => show win1_5.index t (1 : Fin 2) * 128 + 1 * d.val = d.val; rw [e1]; omega

/-- The staged second-layer weights are read whole at every point. -/
theorem iblk1_6_apply (c : Dev nD) (t : Fin cfg1.N) (d o : Fin 128) :
    (iblk1 V c 6 t : S128x128.Idx → Elt F .bf16) (ix2 d o) = (V c main_v34 : S128x128.Idx → Elt F .bf16) (ix2 d o) := by
  obtain ⟨e0, e1⟩ := idx1_6 t
  unfold iblk1
  rw [View.read_apply]
  show V c main_v34 _ = V c main_v34 _
  congr 1
  funext a
  apply Fin.ext
  match a with
  | ⟨0, _⟩ => show win1_6.index t (0 : Fin 2) * 128 + 1 * d.val = d.val; rw [e0]; omega
  | ⟨1, _⟩ => show win1_6.index t (1 : Fin 2) * 128 + 1 * o.val = o.val; rw [e1]; omega

/-- The staged second bias is read whole at every point. -/
theorem iblk1_7_apply (c : Dev nD) (t : Fin cfg1.N) (o : Fin 128) :
    (iblk1 V c 7 t : S1x128.Idx → Elt F .f32) (ix2 0 o) = (V c main_v40 : S1x128.Idx → Elt F .f32) (ix2 0 o) := by
  obtain ⟨e0, e1⟩ := idx1_7 t
  unfold iblk1
  rw [View.read_apply]
  show V c main_v40 _ = V c main_v40 _
  congr 1
  funext a
  apply Fin.ext
  match a with
  | ⟨0, _⟩ => show win1_7.index t (0 : Fin 2) * 1 + 1 * 0 = 0; rw [e0]
  | ⟨1, _⟩ => show win1_7.index t (1 : Fin 2) * 128 + 1 * o.val = o.val; rw [e1]; omega

/-! ## The output's blocks -/

/-- An index of the output array is in point t's block iff each coordinate is in the block's range on its axis. -/
theorem mem_blk1_8_axes (t : Fin cfg1.N) (i : S4x512x128.Idx) :
    i ∈ ((cfg1.win 8).blk t).view.set ↔ ∀ a : Fin 3, win1_8.index t a * S1x64x128.size a ≤ (i a).val ∧ (i a).val < win1_8.index t a * S1x64x128.size a + S1x64x128.size a := by
  show i ∈ ((View.whole main_v41).slice (win1_8.rect t)).set ↔ _
  rw [View.set_slice_whole, Rect.mem_set_unit]
  exact Iff.rfl

/-- Row r of batch b of the output lies in point t's block iff t has batch b and the node tile r lies in. -/
theorem mem_blk1_8 (t : Fin cfg1.N) (b : Fin 4) (r : Fin 512) (o : Fin 128) :
    (ix3 b r o : S4x512x128.Idx) ∈ ((cfg1.win 8).blk t).view.set ↔ t.val / 32 = b.val ∧ (t.val / 4) % 8 = r.val / 64 := by
  rw [mem_blk1_8_axes]
  obtain ⟨e0, e1, e2⟩ := idx1_8 t
  have ho : o.val < 128 := o.isLt
  constructor
  · intro h
    have h0 : win1_8.index t (0 : Fin 3) * 1 ≤ b.val ∧ b.val < win1_8.index t (0 : Fin 3) * 1 + 1 := h 0
    have h1 : win1_8.index t (1 : Fin 3) * 64 ≤ r.val ∧ r.val < win1_8.index t (1 : Fin 3) * 64 + 64 := h 1
    rw [e0] at h0; rw [e1] at h1
    omega
  · rintro ⟨hb, hr⟩ a
    match a with
    | ⟨0, _⟩ => show win1_8.index t (0 : Fin 3) * 1 ≤ b.val ∧ b.val < win1_8.index t (0 : Fin 3) * 1 + 1; rw [e0]; omega
    | ⟨1, _⟩ => show win1_8.index t (1 : Fin 3) * 64 ≤ r.val ∧ r.val < win1_8.index t (1 : Fin 3) * 64 + 64; rw [e1]; omega
    | ⟨2, _⟩ => show win1_8.index t (2 : Fin 3) * 128 ≤ o.val ∧ o.val < win1_8.index t (2 : Fin 3) * 128 + 128; rw [e2]; omega

/-- Row r of batch b of the output is written back by the last neighbour tile's point of that batch and of r's node tile. -/
theorem cover1_8_ix (b : Fin 4) (r : Fin 512) (o : Fin 128) :
    ∃ t : Fin cfg1.N, (cfg1.win 8).flush t = true ∧ (ix3 b r o : S4x512x128.Idx) ∈ ((cfg1.win 8).blk t).view.set :=
  ⟨⟨ptOf b r, lt_of_lt_of_eq (ptOf_lt b r) N_1.symm⟩, (flush1_8 _).mpr (ptOf_mod b r),
    (mem_blk1_8 _ b r o).mpr ⟨ptOf_batch b r, ptOf_tile b r⟩⟩

/-- Every index of the output array is in the block of some point that writes back. -/
theorem cover1_8 (c : Dev nD) (i : ((cfg1.win 8).arr.view.loc (c.tc : Thread nD τ)).2.ty.Idx) :
    ∃ t : Fin cfg1.N, (cfg1.win 8).flush t = true ∧ i ∈ ((cfg1.win 8).blk t).view.set := by
  obtain ⟨b, r, o, rfl⟩ : ∃ (b : Fin 4) (r : Fin 512) (o : Fin 128), i = (ix3 b r o : S4x512x128.Idx) :=
    ⟨i 0, i 1, i 2, eq_ix3 (n0 := 4) (n1 := 512) (n2 := 128) i⟩
  exact cover1_8_ix b r o

/-- Point t's block of a function of the whole output array: row p is node (node tile) * 64 + p of the point's batch. -/
theorem read_blk1_8 (G : S4x512x128.Idx → Elt F .f32) (t : Fin cfg1.N) (p : Fin 64) (o : Fin 128) :
    (((cfg1.win 8).blk t).view.read (Elt F) G : S1x64x128.Idx → Elt F .f32) (ix3 0 p o)
      = G (ix3 (ptB t.val (lt1 t)) (ptRow t.val (lt1 t) p) o) := by
  obtain ⟨e0, e1, e2⟩ := idx1_8 t
  rw [View.read_apply]
  show G _ = G _
  congr 1
  funext a
  apply Fin.ext
  match a with
  | ⟨0, _⟩ => show win1_8.index t (0 : Fin 3) * 1 + 1 * 0 = t.val / 32; rw [e0]; omega
  | ⟨1, _⟩ => show win1_8.index t (1 : Fin 3) * 64 + 1 * p.val = (t.val / 4 % 8) * 64 + p.val; rw [e1]; omega
  | ⟨2, _⟩ => show win1_8.index t (2 : Fin 3) * 128 + 1 * o.val = o.val; rw [e2]; omega

end Cert.KernelIdeal.Hand

end
-- ==== Proof.KI.Final1.lean ====
/-
  What the second layer's kernel call leaves in its output array, at the ideal values: at every entry (b, i, o) the node's
  feature plus the sum over all 512 neighbours j of the masked message of j over the staged operands.
  A write-back happens at the last neighbour tile of each (batch, node tile); the block written is the node features'
  block plus four accumulation steps from zero, one per neighbour tile, each step adding the tile's 128 masked
  messages; the four tiles' sums, added in that order from zero, are the sum over all 512 neighbours. The 32 blocks
  written back tile the output array.
-/
import proofs.«117494_j19645180411919_1_alg».proof.Proof.KI.Unroll1
import proofs.«117494_j19645180411919_1_alg».proof.Proof.KI.Blocks1
import proofs.«117494_j19645180411919_1_alg».proof.Proof.KI.Acc4
import proofs.«117494_j19645180411919_1_alg».proof.Proof.KLayerFun

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.PayValue (tileSum)

variable (V : (c : Dev nD) → (b : Ref sig .tc) → Buf (Elt Ideal) ((c : Thread nD τ).loc b))

/-- The layer over the staged operands as the call finds them, as a function of the whole output array's index. -/
def klayerFun1 (c : Dev nD) : S4x512x128.Idx → EReal :=
  Cert.Gnn.klayer (V c main_v20) (V c main_arg1) (V c main_v28) (V c main_v30) (V c main_v34) (V c main_v37) (V c main_v40)

/-- One neighbour tile's masked messages over the blocks of a grid point tk, for row p and feature o: the sum over the
    tile's 128 nodes of the masked message over the staged operands, the receiving node row p of tk's node tile, the
    sending nodes the columns of tk's neighbour tile. -/
theorem tileSum1_eq (c : Dev nD) (tk : Fin cfg1.N) (p : Fin 64) (o : Fin 128) :
    tileSum (iblk1 V c 0 tk) (iblk1 V c 1 tk) (iblk1 V c 2 tk) (iblk1 V c 3 tk) (iblk1 V c 4 tk) (iblk1 V c 5 tk) (iblk1 V c 6 tk) (iblk1 V c 7 tk) p o
      = ∑ q : Fin 128, Cert.Gnn.kterm (V c main_v20) (V c main_arg1) (V c main_v28) (V c main_v30) (V c main_v34) (V c main_v37) (V c main_v40) (ptB tk.val (lt1 tk)) (ptRow tk.val (lt1 tk) p) (ptCol tk.val (lt1 tk) q) o := by
  unfold tileSum Cert.Gnn.kterm
  simp only [iblk1_0_apply, iblk1_1_apply, iblk1_2_apply, iblk1_3_apply, iblk1_4_apply, iblk1_5_apply, iblk1_6_apply, iblk1_7_apply]

/-- The entry (p, o) of the block written back at a last neighbour tile t is the layer's entry at node
    (node tile) * 64 + p of t's batch. -/
theorem outEntry1 (c : Dev nD) (t : Fin cfg1.N) (h3 : t.val % 4 = 3) (p : Fin 64) (o : Fin 128) :
    (k1_pay2 (F := Ideal) (k1_pay4 (iblk1 V c 0 t))
        (accStep1 V c t
          (accStep1 V c ⟨t.val - 1, Nat.lt_of_le_of_lt (Nat.sub_le _ _) t.isLt⟩
            (accStep1 V c ⟨t.val - 2, Nat.lt_of_le_of_lt (Nat.sub_le _ _) t.isLt⟩
              (accStep1 V c ⟨t.val - 3, Nat.lt_of_le_of_lt (Nat.sub_le _ _) t.isLt⟩ (k1_pay3 (F := Ideal))))))
        : S1x64x128.Idx → EReal) (ix3 0 p o)
      = klayerFun1 V c (ix3 (ptB t.val (lt1 t)) (ptRow t.val (lt1 t) p) o) := by
  have hN := lt1 t
  unfold accStep1
  rw [Cert.KernelIdeal.PayValue.pay2_1_apply, Cert.KernelIdeal.PayValue.pay4_1_apply,
    Cert.KernelIdeal.PayValue.step_1, Cert.KernelIdeal.PayValue.step_1, Cert.KernelIdeal.PayValue.step_1,
    Cert.KernelIdeal.PayValue.step_1, Cert.KernelIdeal.PayValue.pay3_1_apply,
    tileSum1_eq, tileSum1_eq, tileSum1_eq, tileSum1_eq, iblk1_0_apply]
  have hb : ∀ (n : ℕ) (h : n < 128), n / 32 = t.val / 32 → ptB n h = ptB t.val (lt1 t) := fun n h e => Fin.ext e
  have hr : ∀ (n : ℕ) (h : n < 128), n / 4 % 8 = t.val / 4 % 8 → ptRow n h p = ptRow t.val (lt1 t) p :=
    fun n h e => Fin.ext (by simp only [ptRow_val, e])
  have hc : ∀ (n : ℕ) (h : n < 128) (a : ℕ) (q : Fin 128) (h' : a + q.val < 512), n % 4 * 128 = a →
      ptCol n h q = ⟨a + q.val, h'⟩ := fun n h a q h' e => Fin.ext (by simp only [ptCol_val, e])
  unfold klayerFun1
  refine Cert.Gnn.klayer_of_tiles (V c main_v20) (V c main_arg1) (V c main_v28) (V c main_v30) (V c main_v34) (V c main_v37) (V c main_v40) (ptB t.val (lt1 t)) (ptRow t.val (lt1 t) p) o _ _ _ _ _ rfl ?_ ?_ ?_ ?_
  · refine Finset.sum_congr rfl fun q _ => ?_
    rw [hb (t.val - 3) (by omega) (by omega), hr (t.val - 3) (by omega) (by omega)]
    refine congrArg (fun j => Cert.Gnn.kterm (V c main_v20) (V c main_arg1) (V c main_v28) (V c main_v30) (V c main_v34) (V c main_v37) (V c main_v40) (ptB t.val (lt1 t)) (ptRow t.val (lt1 t) p) j o) (Fin.ext ?_)
    show (t.val - 3) % 4 * 128 + q.val = q.val
    omega
  · refine Finset.sum_congr rfl fun q _ => ?_
    rw [hb (t.val - 2) (by omega) (by omega), hr (t.val - 2) (by omega) (by omega)]
    refine congrArg (fun j => Cert.Gnn.kterm (V c main_v20) (V c main_arg1) (V c main_v28) (V c main_v30) (V c main_v34) (V c main_v37) (V c main_v40) (ptB t.val (lt1 t)) (ptRow t.val (lt1 t) p) j o) (Fin.ext ?_)
    show (t.val - 2) % 4 * 128 + q.val = 128 + q.val
    omega
  · refine Finset.sum_congr rfl fun q _ => ?_
    rw [hb (t.val - 1) (by omega) (by omega), hr (t.val - 1) (by omega) (by omega)]
    refine congrArg (fun j => Cert.Gnn.kterm (V c main_v20) (V c main_arg1) (V c main_v28) (V c main_v30) (V c main_v34) (V c main_v37) (V c main_v40) (ptB t.val (lt1 t)) (ptRow t.val (lt1 t) p) j o) (Fin.ext ?_)
    show (t.val - 1) % 4 * 128 + q.val = 256 + q.val
    omega
  · refine Finset.sum_congr rfl fun q _ => ?_
    refine congrArg (fun j => Cert.Gnn.kterm (V c main_v20) (V c main_arg1) (V c main_v28) (V c main_v30) (V c main_v34) (V c main_v37) (V c main_v40) (ptB t.val (lt1 t)) (ptRow t.val (lt1 t) p) j o) (Fin.ext ?_)
    show t.val % 4 * 128 + q.val = 384 + q.val
    omega

/-- The block written back at point t is point t's block of the layer. -/
theorem flushed1_eq (c : Dev nD) (t : Fin cfg1.N) (hf : (cfg1.win 8).flush t = true) :
    (dat1 (F := Ideal) V c).flushed 8 t = ((cfg1.win 8).blk t).view.read (Elt Ideal) (klayerFun1 V c) := by
  have h3 : t.val % 4 = 3 := (flush1_8 t).mp hf
  show ((cfg1.win 8).cut (grid1.coords t) ((dat1 V c).after 8 t) : S1x64x128.Idx → EReal) = _
  rw [after1_8_unrolled V c t h3]
  funext y
  obtain ⟨z, p, o, rfl⟩ : ∃ (z : Fin 1) (p : Fin 64) (o : Fin 128), y = ix3 z p o :=
    ⟨y 0, y 1, y 2, eq_ix3 (n0 := 1) (n1 := 64) (n2 := 128) y⟩
  obtain rfl : z = 0 := Subsingleton.elim _ _
  exact (outEntry1 V c t h3 p o).trans (read_blk1_8 (F := Ideal) (klayerFun1 V c) t p o).symm

/-- The output array after the call is the layer over the staged operands. -/
theorem final1 (c : Dev nD) : (dat1 (F := Ideal) V c).arrAt 8 cfg1.N = klayerFun1 V c :=
  (dat1 V c).arrAt_eq_of_cover 8 (klayerFun1 V c) (fun t hf => flushed1_eq V c t hf) (cover1_8 c)

end Cert.KernelIdeal.Hand

end
-- ==== Proof.KI.KernelNet.lean ====
import proofs.«117494_j19645180411919_1_alg».proof.Proof.KI.Frames
import proofs.«117494_j19645180411919_1_alg».proof.Proof.KI.KValue
import proofs.«117494_j19645180411919_1_alg».proof.Proof.KI.Final0
import proofs.«117494_j19645180411919_1_alg».proof.Proof.KI.Final1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The idealized kernel program computes the two-layer network -/

/-- At the ideal instance, from any launch memory: every weakly fair execution of the kernel program terminates, nothing
    faulting; the result array ends holding the two-layer network of the six launch arrays (each call's final array is one
    layer of what it was given, the staged weights being the transposed slices of the launch weights), and the arguments
    end as launched. -/
theorem kernel_run_net (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v41) = Cert.Gnn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v41 (by decide))).trans (result_net m c (final0 (V1 m) c) (final1 (V3 m) c)),
     (h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide))⟩) (run_full m ρ)

end Cert.KernelIdeal.Hand

end
-- ==== Proof.RefLayer1.lean ====
/-
  The reference's first layer, entry by entry, is the specification's layer 0.
  Each lemma reads one intermediate array of the reference at an index given by its coordinates: the two halves of
  W1[0] (a slice of the leading axis, the unit axis dropped, a slice of the columns), the two projections of the node
  features (a contraction over the 128 features), their sum over the pair (i, j) with the bias, the maximum with zero,
  the contraction with W2[0] plus the bias, the product with the mask entry (i, j), and last the sum over j added to
  the node's own feature.
-/
import proofs.«117494_j19645180411919_1_alg».proof.Proof.Gen.ReferenceIdeal.Read
import proofs.«117494_j19645180411919_1_alg».proof.Proof.GnnSpec

noncomputable section

open scoped BigOperators

namespace Cert.ReferenceIdeal.RefValue

open Cert.ReferenceIdeal Cert.ReferenceIdeal.Gen Cert.ReferenceIdeal.Read Idealize.ShloMosaic Idealize.ShloMosaic.ValueIdx

/-- Row d, column e of the left half of W1[0] is W1[0, d, e]: the flat position d·256 + e of the 128×256 matrix has
    quotient d and remainder e. -/
theorem w1_lo_0 (x2 : (⟨S2x128x256, .f32⟩ : BufTy).Contents (Elt Ideal)) (d e : Fin 128) :
    val_main_v2 (F := Ideal) x2 (ix2 d e) = x2 (ix3 (0 : Fin 2) d (Cert.Gnn.lo e)) := by
  rw [val_main_v2_apply, val_main_v1_apply, val_main_v0_apply]
  refine congrArg x2 (funext fun a => Fin.ext ?_)
  have hd := d.isLt
  have he := e.isLt
  match a with
  | ⟨0, _⟩ => rfl
  | ⟨1, _⟩ => show (d.val * 256 + e.val) / 256 % 128 = d.val; omega
  | ⟨2, _⟩ => show (d.val * 256 + e.val) % 256 = e.val; omega

/-- Row d, column e of the right half of W1[0] is W1[0, d, 128 + e]. -/
theorem w1_hi_0 (x2 : (⟨S2x128x256, .f32⟩ : BufTy).Contents (Elt Ideal)) (d e : Fin 128) :
    val_main_v5 (F := Ideal) x2 (ix2 d e) = x2 (ix3 (0 : Fin 2) d (Cert.Gnn.hi e)) := by
  rw [val_main_v5_apply, val_main_v4_apply, val_main_v3_apply]
  refine congrArg x2 (funext fun a => Fin.ext ?_)
  have hd := d.isLt
  have he := e.isLt
  match a with
  | ⟨0, _⟩ => rfl
  | ⟨1, _⟩ => show (d.val * 256 + (128 + e.val)) / 256 % 128 = d.val; omega
  | ⟨2, _⟩ => show (d.val * 256 + (128 + e.val)) % 256 = 128 + e.val; omega

/-- The receiving node's projection: entry (b, n, d) is the sum over e of h[b, n, e] · W1[0, d, e]. -/
theorem projI_0 (x0 : (⟨S4x512x128, .f32⟩ : BufTy).Contents (Elt Ideal)) (x2 : (⟨S2x128x256, .f32⟩ : BufTy).Contents (Elt Ideal))
    (b : Fin 4) (n : Fin 512) (d : Fin 128) :
    val_main_v6 (F := Ideal) x0 x2 (ix3 b n d) = Cert.Gnn.projI x0 x2 0 b n d := by
  rw [val_main_v6_apply]
  unfold Cert.Gnn.projI
  refine Finset.sum_congr rfl fun e _ => ?_
  have hl : lidx_main_v6 (ix3 b n d) e = ix3 b n e :=
    funext fun a => Fin.ext (by match a with | ⟨0, _⟩ => rfl | ⟨1, _⟩ => rfl | ⟨2, _⟩ => rfl)
  have hr : ridx_main_v6 (ix3 b n d) e = ix2 d e :=
    funext fun a => Fin.ext (by match a with | ⟨0, _⟩ => rfl | ⟨1, _⟩ => rfl)
  rw [hl, hr, w1_lo_0]

/-- The sending node's projection: entry (b, n, d) is the sum over e of h[b, n, e] · W1[0, d, 128 + e]. -/
theorem projJ_0 (x0 : (⟨S4x512x128, .f32⟩ : BufTy).Contents (Elt Ideal)) (x2 : (⟨S2x128x256, .f32⟩ : BufTy).Contents (Elt Ideal))
    (b : Fin 4) (n : Fin 512) (d : Fin 128) :
    val_main_v7 (F := Ideal) x0 x2 (ix3 b n d) = Cert.Gnn.projJ x0 x2 0 b n d := by
  rw [val_main_v7_apply]
  unfold Cert.Gnn.projJ
  refine Finset.sum_congr rfl fun e _ => ?_
  have hl : lidx_main_v7 (ix3 b n d) e = ix3 b n e :=
    funext fun a => Fin.ext (by match a with | ⟨0, _⟩ => rfl | ⟨1, _⟩ => rfl | ⟨2, _⟩ => rfl)
  have hr : ridx_main_v7 (ix3 b n d) e = ix2 d e :=
    funext fun a => Fin.ext (by match a with | ⟨0, _⟩ => rfl | ⟨1, _⟩ => rfl)
  rw [hl, hr, w1_hi_0]

/-- The first bias spread over every pair: entry (b, i, j, d) is b1[0, d]. -/
theorem b1_0 (x3 : (⟨S2x128, .f32⟩ : BufTy).Contents (Elt Ideal)) (b : Fin 4) (i j : Fin 512) (d : Fin 128) :
    val_main_v16 (F := Ideal) x3 (ix4 b i j d) = x3 (ix2 (0 : Fin 2) d) := by
  rw [val_main_v16_apply, val_main_v15_apply, val_main_v14_apply, val_main_v13_apply]
  refine congrArg x3 (funext fun a => Fin.ext ?_)
  have hd := d.isLt
  match a with
  | ⟨0, _⟩ => rfl
  | ⟨1, _⟩ => show d.val % 128 = d.val; omega

/-- Before the maximum, entry (b, i, j, d) is the receiver's projection at i plus the sender's at j plus the bias. -/
theorem pre_0 (x0 : (⟨S4x512x128, .f32⟩ : BufTy).Contents (Elt Ideal)) (x2 : (⟨S2x128x256, .f32⟩ : BufTy).Contents (Elt Ideal)) (x3 : (⟨S2x128, .f32⟩ : BufTy).Contents (Elt Ideal)) (b : Fin 4) (i j : Fin 512) (d : Fin 128) :
    val_main_v17 (F := Ideal) x0 x2 x3 (ix4 b i j d)
      = Cert.Gnn.projI x0 x2 0 b i d + Cert.Gnn.projJ x0 x2 0 b j d + x3 (ix2 (0 : Fin 2) d) := by
  rw [val_main_v17_apply, val_main_v12_apply, val_main_v10_apply, val_main_v8_apply, val_main_v11_apply, val_main_v9_apply, b1_0]
  have h1 : idx_main_v8 (idx_main_v10 (ix4 b i j d)) = ix3 b i d :=
    funext fun a => Fin.ext (by match a with | ⟨0, _⟩ => rfl | ⟨1, _⟩ => rfl | ⟨2, _⟩ => rfl)
  have h2 : idx_main_v9 (idx_main_v11 (ix4 b i j d)) = ix3 b j d :=
    funext fun a => Fin.ext (by match a with | ⟨0, _⟩ => rfl | ⟨1, _⟩ => rfl | ⟨2, _⟩ => rfl)
  rw [h1, h2, projI_0, projJ_0]
  rfl

/-- The hidden activation of the pair (i, j) at feature d: the maximum of that sum and zero. -/
theorem act_0 (x0 : (⟨S4x512x128, .f32⟩ : BufTy).Contents (Elt Ideal)) (x2 : (⟨S2x128x256, .f32⟩ : BufTy).Contents (Elt Ideal)) (x3 : (⟨S2x128, .f32⟩ : BufTy).Contents (Elt Ideal)) (b : Fin 4) (i j : Fin 512) (d : Fin 128) :
    val_main_v18 (F := Ideal) x0 x2 x3 (ix4 b i j d)
      = max (Cert.Gnn.projI x0 x2 0 b i d + Cert.Gnn.projJ x0 x2 0 b j d + x3 (ix2 (0 : Fin 2) d)) 0 := by
  rw [val_main_v18_apply, val_main_call0_v0_apply, val_main_call0_cst_apply, pre_0]
  simp only [Ideal.maximumf_def, Ideal.ofBits_def, Ideal.ofBits_zero_f32]

/-- Row o, column d of W2[0] is W2[0, o, d]. -/
theorem w2_0 (x4 : (⟨S2x128x128, .f32⟩ : BufTy).Contents (Elt Ideal)) (o d : Fin 128) :
    val_main_v20 (F := Ideal) x4 (ix2 o d) = x4 (ix3 (0 : Fin 2) o d) := by
  rw [val_main_v20_apply, val_main_v19_apply]
  refine congrArg x4 (funext fun a => Fin.ext ?_)
  have ho := o.isLt
  have hd := d.isLt
  match a with
  | ⟨0, _⟩ => rfl
  | ⟨1, _⟩ => show (o.val * 128 + d.val) / 128 % 128 = o.val; omega
  | ⟨2, _⟩ => show (o.val * 128 + d.val) % 128 = d.val; omega

/-- The second bias spread over every pair: entry (b, i, j, o) is b2[0, o]. -/
theorem b2_0 (x5 : (⟨S2x128, .f32⟩ : BufTy).Contents (Elt Ideal)) (b : Fin 4) (i j : Fin 512) (o : Fin 128) :
    val_main_v25 (F := Ideal) x5 (ix4 b i j o) = x5 (ix2 (0 : Fin 2) o) := by
  rw [val_main_v25_apply, val_main_v24_apply, val_main_v23_apply, val_main_v22_apply]
  refine congrArg x5 (funext fun a => Fin.ext ?_)
  have ho := o.isLt
  match a with
  | ⟨0, _⟩ => rfl
  | ⟨1, _⟩ => show o.val % 128 = o.val; omega

/-- The message of the pair (i, j) at output feature o, before the mask: the activations against W2[0, o, :], plus b2[0, o]. -/
theorem edge_0 (x0 : (⟨S4x512x128, .f32⟩ : BufTy).Contents (Elt Ideal)) (x2 : (⟨S2x128x256, .f32⟩ : BufTy).Contents (Elt Ideal)) (x3 : (⟨S2x128, .f32⟩ : BufTy).Contents (Elt Ideal)) (x4 : (⟨S2x128x128, .f32⟩ : BufTy).Contents (Elt Ideal)) (x5 : (⟨S2x128, .f32⟩ : BufTy).Contents (Elt Ideal)) (b : Fin 4) (i j : Fin 512) (o : Fin 128) :
    val_main_v26 (F := Ideal) x0 x2 x3 x4 x5 (ix4 b i j o) = Cert.Gnn.edge x0 x2 x3 x4 x5 0 b i j o := by
  rw [val_main_v26_apply, val_main_v21_apply, b2_0]
  unfold Cert.Gnn.edge
  have hl : ∀ d : Fin 128, lidx_main_v21 (ix4 b i j o) d = ix4 b i j d := fun d =>
    funext fun a => Fin.ext (by match a with | ⟨0, _⟩ => rfl | ⟨1, _⟩ => rfl | ⟨2, _⟩ => rfl | ⟨3, _⟩ => rfl)
  have hr : ∀ d : Fin 128, ridx_main_v21 (ix4 b i j o) d = ix2 o d := fun d =>
    funext fun a => Fin.ext (by match a with | ⟨0, _⟩ => rfl | ⟨1, _⟩ => rfl)
  simp only [hl, hr, act_0, w2_0]
  rfl

/-- The masked message: the message of (i, j) times mask[b, i, j], the same factor for every output feature. -/
theorem masked_0 (x0 : (⟨S4x512x128, .f32⟩ : BufTy).Contents (Elt Ideal)) (x1 : (⟨S4x512x512, .f32⟩ : BufTy).Contents (Elt Ideal)) (x2 : (⟨S2x128x256, .f32⟩ : BufTy).Contents (Elt Ideal)) (x3 : (⟨S2x128, .f32⟩ : BufTy).Contents (Elt Ideal)) (x4 : (⟨S2x128x128, .f32⟩ : BufTy).Contents (Elt Ideal)) (x5 : (⟨S2x128, .f32⟩ : BufTy).Contents (Elt Ideal)) (b : Fin 4) (i j : Fin 512) (o : Fin 128) :
    val_main_v29 (F := Ideal) x0 x1 x2 x3 x4 x5 (ix4 b i j o)
      = Cert.Gnn.edge x0 x2 x3 x4 x5 0 b i j o * x1 (ix3 b i j) := by
  rw [val_main_v29_apply, val_main_v28_apply, val_main_v27_apply, edge_0]
  have h : idx_main_v27 (idx_main_v28 (ix4 b i j o)) = ix3 b i j :=
    funext fun a => Fin.ext (by match a with | ⟨0, _⟩ => rfl | ⟨1, _⟩ => rfl | ⟨2, _⟩ => rfl)
  rw [h]
  rfl

/-- The first layer's result is the specification's layer 0 of the arguments: at (b, i, o) the node's feature plus
    zero plus the sum over every j of the masked message. -/
theorem layer_0 (x0 : (⟨S4x512x128, .f32⟩ : BufTy).Contents (Elt Ideal)) (x1 : (⟨S4x512x512, .f32⟩ : BufTy).Contents (Elt Ideal)) (x2 : (⟨S2x128x256, .f32⟩ : BufTy).Contents (Elt Ideal)) (x3 : (⟨S2x128, .f32⟩ : BufTy).Contents (Elt Ideal)) (x4 : (⟨S2x128x128, .f32⟩ : BufTy).Contents (Elt Ideal)) (x5 : (⟨S2x128, .f32⟩ : BufTy).Contents (Elt Ideal)) :
    val_main_v31 (F := Ideal) x0 x1 x2 x3 x4 x5 = Cert.Gnn.layer x0 x1 x2 x3 x4 x5 0 := by
  funext y
  obtain ⟨b, i, o, rfl⟩ : ∃ (b : Fin 4) (i : Fin 512) (o : Fin 128), y = ix3 b i o := ⟨y 0, y 1, y 2, eq_ix3 y⟩
  rw [Cert.Gnn.layer_ix3, val_main_v31_apply, val_main_v30_apply, val_main_cst_apply]
  unfold Cert.Gnn.layerAt
  have h : ∀ j : Fin 512, idx_main_v30 (ix3 b i o) j = ix4 b i j o := fun j =>
    funext fun a => Fin.ext (by match a with | ⟨0, _⟩ => rfl | ⟨1, _⟩ => rfl | ⟨2, _⟩ => rfl | ⟨3, _⟩ => rfl)
  simp only [h, masked_0, Ideal.addf_def, Ideal.ofBits_def, Ideal.ofBits_zero_f32, zero_add]

end Cert.ReferenceIdeal.RefValue

end
-- ==== Proof.RefLayer2.lean ====
/-
  The reference's second layer, entry by entry, is the specification's layer 1 applied to the first layer's result.
  The operations are those of the first layer with the slices taken at position 1 of the leading axis of W1, b1, W2
  and b2, and with the first layer's result array in the place of the node features; the first layer's result is
  carried as one array and never opened here.
-/
import proofs.«117494_j19645180411919_1_alg».proof.Proof.Gen.ReferenceIdeal.Read
import proofs.«117494_j19645180411919_1_alg».proof.Proof.GnnSpec

noncomputable section

open scoped BigOperators

namespace Cert.ReferenceIdeal.RefValue

open Cert.ReferenceIdeal Cert.ReferenceIdeal.Gen Cert.ReferenceIdeal.Read Idealize.ShloMosaic Idealize.ShloMosaic.ValueIdx

/-- Row d, column e of the left half of W1[1] is W1[1, d, e]. -/
theorem w1_lo_1 (x2 : (⟨S2x128x256, .f32⟩ : BufTy).Contents (Elt Ideal)) (d e : Fin 128) :
    val_main_v34 (F := Ideal) x2 (ix2 d e) = x2 (ix3 (1 : Fin 2) d (Cert.Gnn.lo e)) := by
  rw [val_main_v34_apply, val_main_v33_apply, val_main_v32_apply]
  refine congrArg x2 (funext fun a => Fin.ext ?_)
  have hd := d.isLt
  have he := e.isLt
  match a with
  | ⟨0, _⟩ => rfl
  | ⟨1, _⟩ => show (d.val * 256 + e.val) / 256 % 128 = d.val; omega
  | ⟨2, _⟩ => show (d.val * 256 + e.val) % 256 = e.val; omega

/-- Row d, column e of the right half of W1[1] is W1[1, d, 128 + e]. -/
theorem w1_hi_1 (x2 : (⟨S2x128x256, .f32⟩ : BufTy).Contents (Elt Ideal)) (d e : Fin 128) :
    val_main_v37 (F := Ideal) x2 (ix2 d e) = x2 (ix3 (1 : Fin 2) d (Cert.Gnn.hi e)) := by
  rw [val_main_v37_apply, val_main_v36_apply, val_main_v35_apply]
  refine congrArg x2 (funext fun a => Fin.ext ?_)
  have hd := d.isLt
  have he := e.isLt
  match a with
  | ⟨0, _⟩ => rfl
  | ⟨1, _⟩ => show (d.val * 256 + (128 + e.val)) / 256 % 128 = d.val; omega
  | ⟨2, _⟩ => show (d.val * 256 + (128 + e.val)) % 256 = 128 + e.val; omega

/-- The receiving node's projection in the second layer: the first layer's result against the left half of W1[1]. -/
theorem projI_1 (x0 : (⟨S4x512x128, .f32⟩ : BufTy).Contents (Elt Ideal)) (x1 : (⟨S4x512x512, .f32⟩ : BufTy).Contents (Elt Ideal)) (x2 : (⟨S2x128x256, .f32⟩ : BufTy).Contents (Elt Ideal)) (x3 : (⟨S2x128, .f32⟩ : BufTy).Contents (Elt Ideal)) (x4 : (⟨S2x128x128, .f32⟩ : BufTy).Contents (Elt Ideal)) (x5 : (⟨S2x128, .f32⟩ : BufTy).Contents (Elt Ideal))
    (b : Fin 4) (n : Fin 512) (d : Fin 128) :
    val_main_v38 (F := Ideal) x0 x1 x2 x3 x4 x5 (ix3 b n d) = Cert.Gnn.projI (val_main_v31 (F := Ideal) x0 x1 x2 x3 x4 x5) x2 1 b n d := by
  rw [val_main_v38_apply]
  unfold Cert.Gnn.projI
  refine Finset.sum_congr rfl fun e _ => ?_
  have hl : lidx_main_v38 (ix3 b n d) e = ix3 b n e :=
    funext fun a => Fin.ext (by match a with | ⟨0, _⟩ => rfl | ⟨1, _⟩ => rfl | ⟨2, _⟩ => rfl)
  have hr : ridx_main_v38 (ix3 b n d) e = ix2 d e :=
    funext fun a => Fin.ext (by match a with | ⟨0, _⟩ => rfl | ⟨1, _⟩ => rfl)
  rw [hl, hr, w1_lo_1]

/-- The sending node's projection in the second layer: the first layer's result against the right half of W1[1]. -/
theorem projJ_1 (x0 : (⟨S4x512x128, .f32⟩ : BufTy).Contents (Elt Ideal)) (x1 : (⟨S4x512x512, .f32⟩ : BufTy).Contents (Elt Ideal)) (x2 : (⟨S2x128x256, .f32⟩ : BufTy).Contents (Elt Ideal)) (x3 : (⟨S2x128, .f32⟩ : BufTy).Contents (Elt Ideal)) (x4 : (⟨S2x128x128, .f32⟩ : BufTy).Contents (Elt Ideal)) (x5 : (⟨S2x128, .f32⟩ : BufTy).Contents (Elt Ideal))
    (b : Fin 4) (n : Fin 512) (d : Fin 128) :
    val_main_v39 (F := Ideal) x0 x1 x2 x3 x4 x5 (ix3 b n d) = Cert.Gnn.projJ (val_main_v31 (F := Ideal) x0 x1 x2 x3 x4 x5) x2 1 b n d := by
  rw [val_main_v39_apply]
  unfold Cert.Gnn.projJ
  refine Finset.sum_congr rfl fun e _ => ?_
  have hl : lidx_main_v39 (ix3 b n d) e = ix3 b n e :=
    funext fun a => Fin.ext (by match a with | ⟨0, _⟩ => rfl | ⟨1, _⟩ => rfl | ⟨2, _⟩ => rfl)
  have hr : ridx_main_v39 (ix3 b n d) e = ix2 d e :=
    funext fun a => Fin.ext (by match a with | ⟨0, _⟩ => rfl | ⟨1, _⟩ => rfl)
  rw [hl, hr, w1_hi_1]

/-- The first bias of the second layer spread over every pair: entry (b, i, j, d) is b1[1, d]. -/
theorem b1_1 (x3 : (⟨S2x128, .f32⟩ : BufTy).Contents (Elt Ideal)) (b : Fin 4) (i j : Fin 512) (d : Fin 128) :
    val_main_v48 (F := Ideal) x3 (ix4 b i j d) = x3 (ix2 (1 : Fin 2) d) := by
  rw [val_main_v48_apply, val_main_v47_apply, val_main_v46_apply, val_main_v45_apply]
  refine congrArg x3 (funext fun a => Fin.ext ?_)
  have hd := d.isLt
  match a with
  | ⟨0, _⟩ => rfl
  | ⟨1, _⟩ => show d.val % 128 = d.val; omega

/-- Before the maximum, entry (b, i, j, d) is the receiver's projection at i plus the sender's at j plus the bias. -/
theorem pre_1 (x0 : (⟨S4x512x128, .f32⟩ : BufTy).Contents (Elt Ideal)) (x1 : (⟨S4x512x512, .f32⟩ : BufTy).Contents (Elt Ideal)) (x2 : (⟨S2x128x256, .f32⟩ : BufTy).Contents (Elt Ideal)) (x3 : (⟨S2x128, .f32⟩ : BufTy).Contents (Elt Ideal)) (x4 : (⟨S2x128x128, .f32⟩ : BufTy).Contents (Elt Ideal)) (x5 : (⟨S2x128, .f32⟩ : BufTy).Contents (Elt Ideal)) (b : Fin 4) (i j : Fin 512) (d : Fin 128) :
    val_main_v49 (F := Ideal) x0 x1 x2 x3 x4 x5 (ix4 b i j d)
      = Cert.Gnn.projI (val_main_v31 (F := Ideal) x0 x1 x2 x3 x4 x5) x2 1 b i d + Cert.Gnn.projJ (val_main_v31 (F := Ideal) x0 x1 x2 x3 x4 x5) x2 1 b j d + x3 (ix2 (1 : Fin 2) d) := by
  rw [val_main_v49_apply, val_main_v44_apply, val_main_v42_apply, val_main_v40_apply, val_main_v43_apply, val_main_v41_apply, b1_1]
  have h1 : idx_main_v40 (idx_main_v42 (ix4 b i j d)) = ix3 b i d :=
    funext fun a => Fin.ext (by match a with | ⟨0, _⟩ => rfl | ⟨1, _⟩ => rfl | ⟨2, _⟩ => rfl)
  have h2 : idx_main_v41 (idx_main_v43 (ix4 b i j d)) = ix3 b j d :=
    funext fun a => Fin.ext (by match a with | ⟨0, _⟩ => rfl | ⟨1, _⟩ => rfl | ⟨2, _⟩ => rfl)
  rw [h1, h2, projI_1, projJ_1]
  rfl

/-- The hidden activation of the pair (i, j) at feature d in the second layer: the maximum of that sum and zero. -/
theorem act_1 (x0 : (⟨S4x512x128, .f32⟩ : BufTy).Contents (Elt Ideal)) (x1 : (⟨S4x512x512, .f32⟩ : BufTy).Contents (Elt Ideal)) (x2 : (⟨S2x128x256, .f32⟩ : BufTy).Contents (Elt Ideal)) (x3 : (⟨S2x128, .f32⟩ : BufTy).Contents (Elt Ideal)) (x4 : (⟨S2x128x128, .f32⟩ : BufTy).Contents (Elt Ideal)) (x5 : (⟨S2x128, .f32⟩ : BufTy).Contents (Elt Ideal)) (b : Fin 4) (i j : Fin 512) (d : Fin 128) :
    val_main_v50 (F := Ideal) x0 x1 x2 x3 x4 x5 (ix4 b i j d)
      = max (Cert.Gnn.projI (val_main_v31 (F := Ideal) x0 x1 x2 x3 x4 x5) x2 1 b i d + Cert.Gnn.projJ (val_main_v31 (F := Ideal) x0 x1 x2 x3 x4 x5) x2 1 b j d + x3 (ix2 (1 : Fin 2) d)) 0 := by
  rw [val_main_v50_apply, val_main_call1_v0_apply, val_main_call1_cst_apply, pre_1]
  simp only [Ideal.maximumf_def, Ideal.ofBits_def, Ideal.ofBits_zero_f32]

/-- Row o, column d of W2[1] is W2[1, o, d]. -/
theorem w2_1 (x4 : (⟨S2x128x128, .f32⟩ : BufTy).Contents (Elt Ideal)) (o d : Fin 128) :
    val_main_v52 (F := Ideal) x4 (ix2 o d) = x4 (ix3 (1 : Fin 2) o d) := by
  rw [val_main_v52_apply, val_main_v51_apply]
  refine congrArg x4 (funext fun a => Fin.ext ?_)
  have ho := o.isLt
  have hd := d.isLt
  match a with
  | ⟨0, _⟩ => rfl
  | ⟨1, _⟩ => show (o.val * 128 + d.val) / 128 % 128 = o.val; omega
  | ⟨2, _⟩ => show (o.val * 128 + d.val) % 128 = d.val; omega

/-- The second bias of the second layer spread over every pair: entry (b, i, j, o) is b2[1, o]. -/
theorem b2_1 (x5 : (⟨S2x128, .f32⟩ : BufTy).Contents (Elt Ideal)) (b : Fin 4) (i j : Fin 512) (o : Fin 128) :
    val_main_v57 (F := Ideal) x5 (ix4 b i j o) = x5 (ix2 (1 : Fin 2) o) := by
  rw [val_main_v57_apply, val_main_v56_apply, val_main_v55_apply, val_main_v54_apply]
  refine congrArg x5 (funext fun a => Fin.ext ?_)
  have ho := o.isLt
  match a with
  | ⟨0, _⟩ => rfl
  | ⟨1, _⟩ => show o.val % 128 = o.val; omega

/-- The second layer's message of the pair (i, j) at output feature o, before the mask. -/
theorem edge_1 (x0 : (⟨S4x512x128, .f32⟩ : BufTy).Contents (Elt Ideal)) (x1 : (⟨S4x512x512, .f32⟩ : BufTy).Contents (Elt Ideal)) (x2 : (⟨S2x128x256, .f32⟩ : BufTy).Contents (Elt Ideal)) (x3 : (⟨S2x128, .f32⟩ : BufTy).Contents (Elt Ideal)) (x4 : (⟨S2x128x128, .f32⟩ : BufTy).Contents (Elt Ideal)) (x5 : (⟨S2x128, .f32⟩ : BufTy).Contents (Elt Ideal)) (b : Fin 4) (i j : Fin 512) (o : Fin 128) :
    val_main_v58 (F := Ideal) x0 x1 x2 x3 x4 x5 (ix4 b i j o) = Cert.Gnn.edge (val_main_v31 (F := Ideal) x0 x1 x2 x3 x4 x5) x2 x3 x4 x5 1 b i j o := by
  rw [val_main_v58_apply, val_main_v53_apply, b2_1]
  unfold Cert.Gnn.edge
  have hl : ∀ d : Fin 128, lidx_main_v53 (ix4 b i j o) d = ix4 b i j d := fun d =>
    funext fun a => Fin.ext (by match a with | ⟨0, _⟩ => rfl | ⟨1, _⟩ => rfl | ⟨2, _⟩ => rfl | ⟨3, _⟩ => rfl)
  have hr : ∀ d : Fin 128, ridx_main_v53 (ix4 b i j o) d = ix2 o d := fun d =>
    funext fun a => Fin.ext (by match a with | ⟨0, _⟩ => rfl | ⟨1, _⟩ => rfl)
  simp only [hl, hr, act_1, w2_1]
  rfl

/-- The second layer's masked message: the message of (i, j) times mask[b, i, j]. -/
theorem masked_1 (x0 : (⟨S4x512x128, .f32⟩ : BufTy).Contents (Elt Ideal)) (x1 : (⟨S4x512x512, .f32⟩ : BufTy).Contents (Elt Ideal)) (x2 : (⟨S2x128x256, .f32⟩ : BufTy).Contents (Elt Ideal)) (x3 : (⟨S2x128, .f32⟩ : BufTy).Contents (Elt Ideal)) (x4 : (⟨S2x128x128, .f32⟩ : BufTy).Contents (Elt Ideal)) (x5 : (⟨S2x128, .f32⟩ : BufTy).Contents (Elt Ideal)) (b : Fin 4) (i j : Fin 512) (o : Fin 128) :
    val_main_v61 (F := Ideal) x0 x1 x2 x3 x4 x5 (ix4 b i j o)
      = Cert.Gnn.edge (val_main_v31 (F := Ideal) x0 x1 x2 x3 x4 x5) x2 x3 x4 x5 1 b i j o * x1 (ix3 b i j) := by
  rw [val_main_v61_apply, val_main_v60_apply, val_main_v59_apply, edge_1]
  have h : idx_main_v59 (idx_main_v60 (ix4 b i j o)) = ix3 b i j :=
    funext fun a => Fin.ext (by match a with | ⟨0, _⟩ => rfl | ⟨1, _⟩ => rfl | ⟨2, _⟩ => rfl)
  rw [h]
  rfl

/-- The reference's result is the specification's layer 1 of the first layer's result, with the same mask and weights. -/
theorem layer_1 (x0 : (⟨S4x512x128, .f32⟩ : BufTy).Contents (Elt Ideal)) (x1 : (⟨S4x512x512, .f32⟩ : BufTy).Contents (Elt Ideal)) (x2 : (⟨S2x128x256, .f32⟩ : BufTy).Contents (Elt Ideal)) (x3 : (⟨S2x128, .f32⟩ : BufTy).Contents (Elt Ideal)) (x4 : (⟨S2x128x128, .f32⟩ : BufTy).Contents (Elt Ideal)) (x5 : (⟨S2x128, .f32⟩ : BufTy).Contents (Elt Ideal)) :
    val_main_v63 (F := Ideal) x0 x1 x2 x3 x4 x5 = Cert.Gnn.layer (val_main_v31 (F := Ideal) x0 x1 x2 x3 x4 x5) x1 x2 x3 x4 x5 1 := by
  funext y
  obtain ⟨b, i, o, rfl⟩ : ∃ (b : Fin 4) (i : Fin 512) (o : Fin 128), y = ix3 b i o := ⟨y 0, y 1, y 2, eq_ix3 y⟩
  rw [Cert.Gnn.layer_ix3, val_main_v63_apply, val_main_v62_apply, val_main_cst_0_apply]
  unfold Cert.Gnn.layerAt
  have h : ∀ j : Fin 512, idx_main_v62 (ix3 b i o) j = ix4 b i j o := fun j =>
    funext fun a => Fin.ext (by match a with | ⟨0, _⟩ => rfl | ⟨1, _⟩ => rfl | ⟨2, _⟩ => rfl | ⟨3, _⟩ => rfl)
  simp only [h, masked_1, Ideal.addf_def, Ideal.ofBits_def, Ideal.ofBits_zero_f32, zero_add]

end Cert.ReferenceIdeal.RefValue

end
-- ==== Proof.RefValue.lean ====
/-
  The reference program computes the two-layer network of the specification.
  Its result array is the second layer of the first layer's result (the two per-layer statements, composed), and its
  run ends with that array in the result buffer and the six arguments as they were.
-/
import proofs.«117494_j19645180411919_1_alg».proof.Proof.Gen.ReferenceIdeal.Read
import proofs.«117494_j19645180411919_1_alg».proof.Proof.GnnSpec
import proofs.«117494_j19645180411919_1_alg».proof.Proof.RefLayer1
import proofs.«117494_j19645180411919_1_alg».proof.Proof.RefLayer2

noncomputable section

namespace Cert.ReferenceIdeal.RefValue

open Cert.ReferenceIdeal Cert.ReferenceIdeal.Gen Cert.ReferenceIdeal.Read Idealize.ShloMosaic Idealize.ShloMosaic.TcCoe Idealize.SL.Sem

/-- The reference's result, as a function of its six arguments, is the network: layer 1 of layer 0 of the node
    features, both with the same mask and weights. -/
theorem net_eq (x0 : (⟨S4x512x128, .f32⟩ : BufTy).Contents (Elt Ideal)) (x1 : (⟨S4x512x512, .f32⟩ : BufTy).Contents (Elt Ideal)) (x2 : (⟨S2x128x256, .f32⟩ : BufTy).Contents (Elt Ideal)) (x3 : (⟨S2x128, .f32⟩ : BufTy).Contents (Elt Ideal)) (x4 : (⟨S2x128x128, .f32⟩ : BufTy).Contents (Elt Ideal)) (x5 : (⟨S2x128, .f32⟩ : BufTy).Contents (Elt Ideal)) :
    val_main_v63 (F := Ideal) x0 x1 x2 x3 x4 x5 = Cert.Gnn.net x0 x1 x2 x3 x4 x5 := by
  rw [Cert.Gnn.net, layer_1, layer_0]

/-- Every weakly fair run of the reference ends with the network of the arguments in its result buffer and the
    arguments unchanged. -/
theorem run_net (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v63)
        = Cert.Gnn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun _ h c => ⟨(h c).1.trans ((val_main_v63_eq m c).trans (net_eq _ _ _ _ _ _)), (h c).2⟩)
    (Cert.ReferenceIdeal.Value.run (F := Ideal) m ρ)

end Cert.ReferenceIdeal.RefValue

end
-- ==== Proof.lean ====
/-
  The certificate of a two-layer message-passing network: a tiled accelerator kernel against its array-level reference.

  Each layer adds to a node's features the sum, over all nodes j, of a masked two-layer edge message
  ( sum_d max( <h_i, W1[d, 0:128]> + <h_j, W1[d, 128:256]> + b1[d], 0 ) * W2[o, d] + b2[o] ) * mask[i, j]
  (GnnSpec: Cert.Gnn.layer, Cert.Gnn.net). The reference computes a layer on whole [4, 512, 512, 128] arrays. The kernel
  is called once per layer on a grid of (batch, node tile of 64, neighbour tile of 128): each grid point computes one tile
  of messages, sums it over the tile's 128 neighbours and adds the result to a running sum kept in a scratch buffer, which
  is reset at the first neighbour tile and added to the node block at the last. Over the extended reals sums regroup freely
  and a change of float format is the identity, so both programs compute Cert.Gnn.net of the six argument arrays; no law
  used needs finiteness, so the precondition is never opened.

  The frames. The reference's is its run with the value dropped. The two kernel programs' come from one run statement,
  proved for any float instance and stated for each program: the body's run in its three control cases (first, middle and
  last neighbour tile), the accumulation over the grid points with the running sum carried in the invariant, the two calls
  as segments of the program — the node-feature array is read through two windows of a call, each holding half of it —, and
  the buffer contents at each boundary folded from the launch memory.

  The value. The stores the run finds are the body's payloads; a payload at an index is a sum over the loaded blocks; the
  blocks are blocks of the arrays; the write-backs at the last neighbour tiles tile the output array; the staged weights are
  the transposed slices of the argument arrays; four tiles of 128 neighbours added from zero are the sum over all 512.
  The reference is read one operation at a time.
-/
import proofs.«117494_j19645180411919_1_alg».proof.Defs
import proofs.«117494_j19645180411919_1_alg».proof.Proof.Gen.Kernel
import proofs.«117494_j19645180411919_1_alg».proof.Proof.Gen.KernelIdeal
import proofs.«117494_j19645180411919_1_alg».proof.Proof.Gen.ReferenceIdeal
import proofs.«117494_j19645180411919_1_alg».proof.Proof.Gen.Pre_finite_inputs
import proofs.«117494_j19645180411919_1_alg».proof.Proof.KB.Frames
import proofs.«117494_j19645180411919_1_alg».proof.Proof.KI.KernelNet
import proofs.«117494_j19645180411919_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
/-- The reference's frame is its run with the value dropped. -/
theorem frame_ri : Cert.frame_ReferenceIdeal := fun m ρ _ =>
  (θ_run Cert.ReferenceIdeal.defs _ _).mono (fun _ h c => (h c).2) (Cert.ReferenceIdeal.RefValue.run_net m ρ)
/-- The ideal pass rewrote nothing: the idealized kernel is the kernel's own text read at the ideal instance. -/
theorem preserves : Cert.preserves_Kernel_KernelIdeal := trivial

/-- Both programs end at the two-layer network of their arguments, which agree. -/
theorem algebraic : Cert.algebraic_KernelIdeal_ReferenceIdeal := by
  intro m ρ m' ρ' _ hagree
  refine ⟨fun c => Cert.Gnn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Hand.kernel_run_net m ρ, ?_⟩
  refine (θ_run Cert.ReferenceIdeal.defs _ _).mono (fun _ h c => ⟨?_, (h c).2⟩) (Cert.ReferenceIdeal.RefValue.run_net m' ρ')
  rw [(h c).1, (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
